-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  main_v3
-- ==== Kernel.lean ====
abbrev S16x1024x1024 : Shape := ⟨3, ![16, 1024, 1024]⟩
abbrev S1x1024x1024 : Shape := ⟨3, ![1, 1024, 1024]⟩
abbrev S1x1x1024 : Shape := ⟨3, ![1, 1, 1024]⟩
abbrev S1x1028x1024 : Shape := ⟨3, ![1, 1028, 1024]⟩
abbrev S1x1024x1 : Shape := ⟨3, ![1, 1024, 1]⟩
abbrev S1x1024x1028 : Shape := ⟨3, ![1, 1024, 1028]⟩
abbrev S1x1032x1024 : Shape := ⟨3, ![1, 1032, 1024]⟩
abbrev S1x1024x1032 : Shape := ⟨3, ![1, 1024, 1032]⟩
abbrev S1x1040x1024 : Shape := ⟨3, ![1, 1040, 1024]⟩
abbrev S1x1024x1040 : Shape := ⟨3, ![1, 1024, 1040]⟩
abbrev S16x1x1024x1024 : Shape := ⟨4, ![16, 1, 1024, 1024]⟩
abbrev S16x4x1024x1024 : Shape := ⟨4, ![16, 4, 1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1x1024x1024, .f32⟩
  | .hbm, ⟨6, _⟩ => ⟨S16x1x1024x1024, .f32⟩
  | .hbm, ⟨7, _⟩ => ⟨S16x1x1024x1024, .f32⟩
  | .hbm, ⟨8, _⟩ => ⟨S16x1x1024x1024, .f32⟩
  | .hbm, ⟨9, _⟩ => ⟨S16x4x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  slices_S1x1024x1024_o0_2_0_S1x1x1024 : S1x1024x1024.Slices ![0, 2, 0] S1x1x1024
  slices_S1x1024x1024_o0_1_0_S1x1x1024 : S1x1024x1024.Slices ![0, 1, 0] S1x1x1024
  slices_S1x1024x1024_o0_1022_0_S1x1x1024 : S1x1024x1024.Slices ![0, 1022, 0] S1x1x1024
  slices_S1x1024x1024_o0_1021_0_S1x1x1024 : S1x1024x1024.Slices ![0, 1021, 0] S1x1x1024
  concatenates_S1x1x1024_S1x1x1024_S1x1024x1024_S1x1x1024_S1x1x1024_S1x1028x1024_d1 : Shape.Concatenates [S1x1x1024, S1x1x1024, S1x1024x1024, S1x1x1024, S1x1x1024] S1x1028x1024 1
  slices_S1x1028x1024_o0_0_0_S1x1024x1024 : S1x1028x1024.Slices ![0, 0, 0] S1x1024x1024
  slices_S1x1028x1024_o0_1_0_S1x1024x1024 : S1x1028x1024.Slices ![0, 1, 0] S1x1024x1024
  slices_S1x1028x1024_o0_2_0_S1x1024x1024 : S1x1028x1024.Slices ![0, 2, 0] S1x1024x1024
  slices_S1x1028x1024_o0_3_0_S1x1024x1024 : S1x1028x1024.Slices ![0, 3, 0] S1x1024x1024
  slices_S1x1028x1024_o0_4_0_S1x1024x1024 : S1x1028x1024.Slices ![0, 4, 0] S1x1024x1024
  slices_S1x1024x1024_o0_0_2_S1x1024x1 : S1x1024x1024.Slices ![0, 0, 2] S1x1024x1
  slices_S1x1024x1024_o0_0_1_S1x1024x1 : S1x1024x1024.Slices ![0, 0, 1] S1x1024x1
  slices_S1x1024x1024_o0_0_1022_S1x1024x1 : S1x1024x1024.Slices ![0, 0, 1022] S1x1024x1
  slices_S1x1024x1024_o0_0_1021_S1x1024x1 : S1x1024x1024.Slices ![0, 0, 1021] S1x1024x1
  concatenates_S1x1024x1_S1x1024x1_S1x1024x1024_S1x1024x1_S1x1024x1_S1x1024x1028_d2 : Shape.Concatenates [S1x1024x1, S1x1024x1, S1x1024x1024, S1x1024x1, S1x1024x1] S1x1024x1028 2
  slices_S1x1024x1028_o0_0_0_S1x1024x1024 : S1x1024x1028.Slices ![0, 0, 0] S1x1024x1024
  slices_S1x1024x1028_o0_0_1_S1x1024x1024 : S1x1024x1028.Slices ![0, 0, 1] S1x1024x1024
  slices_S1x1024x1028_o0_0_2_S1x1024x1024 : S1x1024x1028.Slices ![0, 0, 2] S1x1024x1024
  slices_S1x1024x1028_o0_0_3_S1x1024x1024 : S1x1024x1028.Slices ![0, 0, 3] S1x1024x1024
  slices_S1x1024x1028_o0_0_4_S1x1024x1024 : S1x1024x1028.Slices ![0, 0, 4] S1x1024x1024
  slices_S1x1024x1024_o0_4_0_S1x1x1024 : S1x1024x1024.Slices ![0, 4, 0] S1x1x1024
  slices_S1x1024x1024_o0_3_0_S1x1x1024 : S1x1024x1024.Slices ![0, 3, 0] S1x1x1024
  slices_S1x1024x1024_o0_1020_0_S1x1x1024 : S1x1024x1024.Slices ![0, 1020, 0] S1x1x1024
  slices_S1x1024x1024_o0_1019_0_S1x1x1024 : S1x1024x1024.Slices ![0, 1019, 0] S1x1x1024
  concatenates_S1x1x1024_S1x1x1024_S1x1x1024_S1x1x1024_S1x1024x1024_S1x1x1024_S1x1x1024_S1x1x1024_S1x1x1024_S1x1032x1024_d1 : Shape.Concatenates [S1x1x1024, S1x1x1024, S1x1x1024, S1x1x1024, S1x1024x1024, S1x1x1024, S1x1x1024, S1x1x1024, S1x1x1024] S1x1032x1024 1
  slices_S1x1032x1024_o0_0_0_S1x1024x1024 : S1x1032x1024.Slices ![0, 0, 0] S1x1024x1024
  slices_S1x1032x1024_o0_2_0_S1x1024x1024 : S1x1032x1024.Slices ![0, 2, 0] S1x1024x1024
  slices_S1x1032x1024_o0_4_0_S1x1024x1024 : S1x1032x1024.Slices ![0, 4, 0] S1x1024x1024
  slices_S1x1032x1024_o0_6_0_S1x1024x1024 : S1x1032x1024.Slices ![0, 6, 0] S1x1024x1024
  slices_S1x1032x1024_o0_8_0_S1x1024x1024 : S1x1032x1024.Slices ![0, 8, 0] S1x1024x1024
  slices_S1x1024x1024_o0_0_4_S1x1024x1 : S1x1024x1024.Slices ![0, 0, 4] S1x1024x1
  slices_S1x1024x1024_o0_0_3_S1x1024x1 : S1x1024x1024.Slices ![0, 0, 3] S1x1024x1
  slices_S1x1024x1024_o0_0_1020_S1x1024x1 : S1x1024x1024.Slices ![0, 0, 1020] S1x1024x1
  slices_S1x1024x1024_o0_0_1019_S1x1024x1 : S1x1024x1024.Slices ![0, 0, 1019] S1x1024x1
  concatenates_S1x1024x1_S1x1024x1_S1x1024x1_S1x1024x1_S1x1024x1024_S1x1024x1_S1x1024x1_S1x1024x1_S1x1024x1_S1x1024x1032_d2 : Shape.Concatenates [S1x1024x1, S1x1024x1, S1x1024x1, S1x1024x1, S1x1024x1024, S1x1024x1, S1x1024x1, S1x1024x1, S1x1024x1] S1x1024x1032 2
  slices_S1x1024x1032_o0_0_0_S1x1024x1024 : S1x1024x1032.Slices ![0, 0, 0] S1x1024x1024
  slices_S1x1024x1032_o0_0_2_S1x1024x1024 : S1x1024x1032.Slices ![0, 0, 2] S1x1024x1024
  slices_S1x1024x1032_o0_0_4_S1x1024x1024 : S1x1024x1032.Slices ![0, 0, 4] S1x1024x1024
  slices_S1x1024x1032_o0_0_6_S1x1024x1024 : S1x1024x1032.Slices ![0, 0, 6] S1x1024x1024
  slices_S1x1024x1032_o0_0_8_S1x1024x1024 : S1x1024x1032.Slices ![0, 0, 8] S1x1024x1024
  slices_S1x1024x1024_o0_8_0_S1x1x1024 : S1x1024x1024.Slices ![0, 8, 0] S1x1x1024
  slices_S1x1024x1024_o0_7_0_S1x1x1024 : S1x1024x1024.Slices ![0, 7, 0] S1x1x1024
  slices_S1x1024x1024_o0_6_0_S1x1x1024 : S1x1024x1024.Slices ![0, 6, 0] S1x1x1024
  slices_S1x1024x1024_o0_5_0_S1x1x1024 : S1x1024x1024.Slices ![0, 5, 0] S1x1x1024
  slices_S1x1024x1024_o0_1018_0_S1x1x1024 : S1x1024x1024.Slices ![0, 1018, 0] S1x1x1024
  slices_S1x1024x1024_o0_1017_0_S1x1x1024 : S1x1024x1024.Slices ![0, 1017, 0] S1x1x1024
  slices_S1x1024x1024_o0_1016_0_S1x1x1024 : S1x1024x1024.Slices ![0, 1016, 0] S1x1x1024
  slices_S1x1024x1024_o0_1015_0_S1x1x1024 : S1x1024x1024.Slices ![0, 1015, 0] S1x1x1024
  concatenates_S1x1x1024_S1x1x1024_S1x1x1024_S1x1x1024_S1x1x1024_S1x1x1024_S1x1x1024_S1x1x1024_S1x1024x1024_S1x1x1024_S1x1x1024_S1x1x1024_S1x1x1024_S1x1x1024_S1x1x1024_S1x1x1024_S1x1x1024_S1x1040x1024_d1 : Shape.Concatenates [S1x1x1024, S1x1x1024, S1x1x1024, S1x1x1024, S1x1x1024, S1x1x1024, S1x1x1024, S1x1x1024, S1x1024x1024, S1x1x1024, S1x1x1024, S1x1x1024, S1x1x1024, S1x1x1024, S1x1x1024, S1x1x1024, S1x1x1024] S1x1040x1024 1
  slices_S1x1040x1024_o0_0_0_S1x1024x1024 : S1x1040x1024.Slices ![0, 0, 0] S1x1024x1024
  slices_S1x1040x1024_o0_4_0_S1x1024x1024 : S1x1040x1024.Slices ![0, 4, 0] S1x1024x1024
  slices_S1x1040x1024_o0_8_0_S1x1024x1024 : S1x1040x1024.Slices ![0, 8, 0] S1x1024x1024
  slices_S1x1040x1024_o0_12_0_S1x1024x1024 : S1x1040x1024.Slices ![0, 12, 0] S1x1024x1024
  slices_S1x1040x1024_o0_16_0_S1x1024x1024 : S1x1040x1024.Slices ![0, 16, 0] S1x1024x1024
  slices_S1x1024x1024_o0_0_8_S1x1024x1 : S1x1024x1024.Slices ![0, 0, 8] S1x1024x1
  slices_S1x1024x1024_o0_0_7_S1x1024x1 : S1x1024x1024.Slices ![0, 0, 7] S1x1024x1
  slices_S1x1024x1024_o0_0_6_S1x1024x1 : S1x1024x1024.Slices ![0, 0, 6] S1x1024x1
  slices_S1x1024x1024_o0_0_5_S1x1024x1 : S1x1024x1024.Slices ![0, 0, 5] S1x1024x1
  slices_S1x1024x1024_o0_0_1018_S1x1024x1 : S1x1024x1024.Slices ![0, 0, 1018] S1x1024x1
  slices_S1x1024x1024_o0_0_1017_S1x1024x1 : S1x1024x1024.Slices ![0, 0, 1017] S1x1024x1
  slices_S1x1024x1024_o0_0_1016_S1x1024x1 : S1x1024x1024.Slices ![0, 0, 1016] S1x1024x1
  slices_S1x1024x1024_o0_0_1015_S1x1024x1 : S1x1024x1024.Slices ![0, 0, 1015] S1x1024x1
  concatenates_S1x1024x1_S1x1024x1_S1x1024x1_S1x1024x1_S1x1024x1_S1x1024x1_S1x1024x1_S1x1024x1_S1x1024x1024_S1x1024x1_S1x1024x1_S1x1024x1_S1x1024x1_S1x1024x1_S1x1024x1_S1x1024x1_S1x1024x1_S1x1024x1040_d2 : Shape.Concatenates [S1x1024x1, S1x1024x1, S1x1024x1, S1x1024x1, S1x1024x1, S1x1024x1, S1x1024x1, S1x1024x1, S1x1024x1024, S1x1024x1, S1x1024x1, S1x1024x1, S1x1024x1, S1x1024x1, S1x1024x1, S1x1024x1, S1x1024x1] S1x1024x1040 2
  slices_S1x1024x1040_o0_0_0_S1x1024x1024 : S1x1024x1040.Slices ![0, 0, 0] S1x1024x1024
  slices_S1x1024x1040_o0_0_4_S1x1024x1024 : S1x1024x1040.Slices ![0, 0, 4] S1x1024x1024
  slices_S1x1024x1040_o0_0_8_S1x1024x1024 : S1x1024x1040.Slices ![0, 0, 8] S1x1024x1024
  slices_S1x1024x1040_o0_0_12_S1x1024x1024 : S1x1024x1040.Slices ![0, 0, 12] S1x1024x1024
  slices_S1x1024x1040_o0_0_16_S1x1024x1024 : S1x1024x1040.Slices ![0, 0, 16] S1x1024x1024
  bcast_S16x1024x1024_S16x1x1024x1024_0_2_3 : S16x1024x1024.BroadcastsInDim S16x1x1024x1024 (![0, 2, 3] : Fin 3 → Fin S16x1x1024x1024.rank)
  concatenates_S16x1x1024x1024_S16x1x1024x1024_S16x1x1024x1024_S16x1x1024x1024_S16x4x1024x1024_d1 : Shape.Concatenates [S16x1x1024x1024, S16x1x1024x1024, S16x1x1024x1024, S16x1x1024x1024] S16x4x1024x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .f32 = 32 ∨ (Rect.block (s := S16x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S16x1024x1024.size a
  hwx0_4 : ∀ i : grid0.Coords, EltTy.bits .f32 = 32 ∨ (Rect.block (s := S16x1024x1024) S1x1024x1024.size (cc0_transform_4 i) (hinb0_4 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1x1024 : Shape := ⟨3, ![16, 1, 1024]⟩
abbrev S16x2x1024 : Shape := ⟨3, ![16, 2, 1024]⟩
abbrev S16x1026x1024 : Shape := ⟨3, ![16, 1026, 1024]⟩
abbrev S16x1028x1024 : Shape := ⟨3, ![16, 1028, 1024]⟩
abbrev S16x1024x1 : Shape := ⟨3, ![16, 1024, 1]⟩
abbrev S16x1024x2 : Shape := ⟨3, ![16, 1024, 2]⟩
abbrev S16x1024x1026 : Shape := ⟨3, ![16, 1024, 1026]⟩
abbrev S16x1024x1028 : Shape := ⟨3, ![16, 1024, 1028]⟩
abbrev S16x4x1024 : Shape := ⟨3, ![16, 4, 1024]⟩
abbrev S16x1032x1024 : Shape := ⟨3, ![16, 1032, 1024]⟩
abbrev S16x1024x4 : Shape := ⟨3, ![16, 1024, 4]⟩
abbrev S16x1024x1032 : Shape := ⟨3, ![16, 1024, 1032]⟩
abbrev S16x8x1024 : Shape := ⟨3, ![16, 8, 1024]⟩
abbrev S16x1040x1024 : Shape := ⟨3, ![16, 1040, 1024]⟩
abbrev S16x1024x8 : Shape := ⟨3, ![16, 1024, 8]⟩
abbrev S16x1024x1040 : Shape := ⟨3, ![16, 1024, 1040]⟩
abbrev S16x1x1024x1024 : Shape := ⟨4, ![16, 1, 1024, 1024]⟩
abbrev S16x4x1024x1024 : Shape := ⟨4, ![16, 4, 1024, 1024]⟩

abbrev nBuf : Space → Nat
  | .hbm => 207
  | .vmem => 0
  | .smem => 0
  | _ => 0

abbrev hbmTy0_0 (i : Nat) : BufTy := match i % 128 with
  | 0 => ⟨S16x1024x1024, .f32⟩
  | 1 => ⟨S_, .i32⟩
  | 2 => ⟨S16x1x1024, .f32⟩
  | 3 => ⟨S16x2x1024, .f32⟩
  | 4 => ⟨S16x2x1024, .f32⟩
  | 5 => ⟨S16x1026x1024, .f32⟩
  | 6 => ⟨S16x1x1024, .f32⟩
  | 7 => ⟨S16x2x1024, .f32⟩
  | 8 => ⟨S16x2x1024, .f32⟩
  | 9 => ⟨S16x1028x1024, .f32⟩
  | 10 => ⟨S16x1024x1024, .f32⟩
  | 11 => ⟨S_, .f32⟩
  | 12 => ⟨S16x1024x1024, .f32⟩
  | 13 => ⟨S16x1024x1024, .f32⟩
  | 14 => ⟨S16x1024x1024, .f32⟩
  | 15 => ⟨S_, .f32⟩
  | 16 => ⟨S16x1024x1024, .f32⟩
  | 17 => ⟨S16x1024x1024, .f32⟩
  | 18 => ⟨S16x1024x1024, .f32⟩
  | 19 => ⟨S16x1024x1024, .f32⟩
  | 20 => ⟨S_, .f32⟩
  | 21 => ⟨S16x1024x1024, .f32⟩
  | 22 => ⟨S16x1024x1024, .f32⟩
  | 23 => ⟨S16x1024x1024, .f32⟩
  | 24 => ⟨S16x1024x1024, .f32⟩
  | 25 => ⟨S_, .f32⟩
  | 26 => ⟨S16x1024x1024, .f32⟩
  | 27 => ⟨S16x1024x1024, .f32⟩
  | 28 => ⟨S16x1024x1024, .f32⟩
  | 29 => ⟨S16x1024x1024, .f32⟩
  | 30 => ⟨S_, .f32⟩
  | 31 => ⟨S16x1024x1024, .f32⟩
  | 32 => ⟨S16x1024x1024, .f32⟩
  | 33 => ⟨S16x1024x1024, .f32⟩
  | 34 => ⟨S_, .i32⟩
  | 35 => ⟨S16x1024x1, .f32⟩
  | 36 => ⟨S16x1024x2, .f32⟩
  | 37 => ⟨S16x1024x2, .f32⟩
  | 38 => ⟨S16x1024x1026, .f32⟩
  | 39 => ⟨S16x1024x1, .f32⟩
  | 40 => ⟨S16x1024x2, .f32⟩
  | 41 => ⟨S16x1024x2, .f32⟩
  | 42 => ⟨S16x1024x1028, .f32⟩
  | 43 => ⟨S16x1024x1024, .f32⟩
  | 44 => ⟨S_, .f32⟩
  | 45 => ⟨S16x1024x1024, .f32⟩
  | 46 => ⟨S16x1024x1024, .f32⟩
  | 47 => ⟨S16x1024x1024, .f32⟩
  | 48 => ⟨S_, .f32⟩
  | 49 => ⟨S16x1024x1024, .f32⟩
  | 50 => ⟨S16x1024x1024, .f32⟩
  | 51 => ⟨S16x1024x1024, .f32⟩
  | 52 => ⟨S16x1024x1024, .f32⟩
  | 53 => ⟨S_, .f32⟩
  | 54 => ⟨S16x1024x1024, .f32⟩
  | 55 => ⟨S16x1024x1024, .f32⟩
  | 56 => ⟨S16x1024x1024, .f32⟩
  | 57 => ⟨S16x1024x1024, .f32⟩
  | 58 => ⟨S_, .f32⟩
  | 59 => ⟨S16x1024x1024, .f32⟩
  | 60 => ⟨S16x1024x1024, .f32⟩
  | 61 => ⟨S16x1024x1024, .f32⟩
  | 62 => ⟨S16x1024x1024, .f32⟩
  | 63 => ⟨S_, .f32⟩
  | 64 => ⟨S16x1024x1024, .f32⟩
  | 65 => ⟨S16x1024x1024, .f32⟩
  | 66 => ⟨S16x1024x1024, .f32⟩
  | 67 => ⟨S16x1024x1024, .f32⟩
  | 68 => ⟨S_, .i32⟩
  | 69 => ⟨S16x1x1024, .f32⟩
  | 70 => ⟨S16x4x1024, .f32⟩
  | 71 => ⟨S16x4x1024, .f32⟩
  | 72 => ⟨S16x1028x1024, .f32⟩
  | 73 => ⟨S16x1x1024, .f32⟩
  | 74 => ⟨S16x4x1024, .f32⟩
  | 75 => ⟨S16x4x1024, .f32⟩
  | 76 => ⟨S16x1032x1024, .f32⟩
  | 77 => ⟨S16x1024x1024, .f32⟩
  | 78 => ⟨S_, .f32⟩
  | 79 => ⟨S16x1024x1024, .f32⟩
  | 80 => ⟨S16x1024x1024, .f32⟩
  | 81 => ⟨S16x1024x1024, .f32⟩
  | 82 => ⟨S_, .f32⟩
  | 83 => ⟨S16x1024x1024, .f32⟩
  | 84 => ⟨S16x1024x1024, .f32⟩
  | 85 => ⟨S16x1024x1024, .f32⟩
  | 86 => ⟨S16x1024x1024, .f32⟩
  | 87 => ⟨S_, .f32⟩
  | 88 => ⟨S16x1024x1024, .f32⟩
  | 89 => ⟨S16x1024x1024, .f32⟩
  | 90 => ⟨S16x1024x1024, .f32⟩
  | 91 => ⟨S16x1024x1024, .f32⟩
  | 92 => ⟨S_, .f32⟩
  | 93 => ⟨S16x1024x1024, .f32⟩
  | 94 => ⟨S16x1024x1024, .f32⟩
  | 95 => ⟨S16x1024x1024, .f32⟩
  | 96 => ⟨S16x1024x1024, .f32⟩
  | 97 => ⟨S_, .f32⟩
  | 98 => ⟨S16x1024x1024, .f32⟩
  | 99 => ⟨S16x1024x1024, .f32⟩
  | 100 => ⟨S16x1024x1024, .f32⟩
  | 101 => ⟨S_, .i32⟩
  | 102 => ⟨S16x1024x1, .f32⟩
  | 103 => ⟨S16x1024x4, .f32⟩
  | 104 => ⟨S16x1024x4, .f32⟩
  | 105 => ⟨S16x1024x1028, .f32⟩
  | 106 => ⟨S16x1024x1, .f32⟩
  | 107 => ⟨S16x1024x4, .f32⟩
  | 108 => ⟨S16x1024x4, .f32⟩
  | 109 => ⟨S16x1024x1032, .f32⟩
  | 110 => ⟨S16x1024x1024, .f32⟩
  | 111 => ⟨S_, .f32⟩
  | 112 => ⟨S16x1024x1024, .f32⟩
  | 113 => ⟨S16x1024x1024, .f32⟩
  | 114 => ⟨S16x1024x1024, .f32⟩
  | 115 => ⟨S_, .f32⟩
  | 116 => ⟨S16x1024x1024, .f32⟩
  | 117 => ⟨S16x1024x1024, .f32⟩
  | 118 => ⟨S16x1024x1024, .f32⟩
  | 119 => ⟨S16x1024x1024, .f32⟩
  | 120 => ⟨S_, .f32⟩
  | 121 => ⟨S16x1024x1024, .f32⟩
  | 122 => ⟨S16x1024x1024, .f32⟩
  | 123 => ⟨S16x1024x1024, .f32⟩
  | 124 => ⟨S16x1024x1024, .f32⟩
  | 125 => ⟨S_, .f32⟩
  | 126 => ⟨S16x1024x1024, .f32⟩
  | 127 => ⟨S16x1024x1024, .f32⟩
  | _ => ⟨S16x1024x1024, .f32⟩

abbrev hbmTy0_1 (i : Nat) : BufTy := match i % 128 with
  | 0 => ⟨S16x1024x1024, .f32⟩
  | 1 => ⟨S16x1024x1024, .f32⟩
  | 2 => ⟨S_, .f32⟩
  | 3 => ⟨S16x1024x1024, .f32⟩
  | 4 => ⟨S16x1024x1024, .f32⟩
  | 5 => ⟨S16x1024x1024, .f32⟩
  | 6 => ⟨S16x1024x1024, .f32⟩
  | 7 => ⟨S_, .i32⟩
  | 8 => ⟨S16x1x1024, .f32⟩
  | 9 => ⟨S16x8x1024, .f32⟩
  | 10 => ⟨S16x8x1024, .f32⟩
  | 11 => ⟨S16x1032x1024, .f32⟩
  | 12 => ⟨S16x1x1024, .f32⟩
  | 13 => ⟨S16x8x1024, .f32⟩
  | 14 => ⟨S16x8x1024, .f32⟩
  | 15 => ⟨S16x1040x1024, .f32⟩
  | 16 => ⟨S16x1024x1024, .f32⟩
  | 17 => ⟨S_, .f32⟩
  | 18 => ⟨S16x1024x1024, .f32⟩
  | 19 => ⟨S16x1024x1024, .f32⟩
  | 20 => ⟨S16x1024x1024, .f32⟩
  | 21 => ⟨S_, .f32⟩
  | 22 => ⟨S16x1024x1024, .f32⟩
  | 23 => ⟨S16x1024x1024, .f32⟩
  | 24 => ⟨S16x1024x1024, .f32⟩
  | 25 => ⟨S16x1024x1024, .f32⟩
  | 26 => ⟨S_, .f32⟩
  | 27 => ⟨S16x1024x1024, .f32⟩
  | 28 => ⟨S16x1024x1024, .f32⟩
  | 29 => ⟨S16x1024x1024, .f32⟩
  | 30 => ⟨S16x1024x1024, .f32⟩
  | 31 => ⟨S_, .f32⟩
  | 32 => ⟨S16x1024x1024, .f32⟩
  | 33 => ⟨S16x1024x1024, .f32⟩
  | 34 => ⟨S16x1024x1024, .f32⟩
  | 35 => ⟨S16x1024x1024, .f32⟩
  | 36 => ⟨S_, .f32⟩
  | 37 => ⟨S16x1024x1024, .f32⟩
  | 38 => ⟨S16x1024x1024, .f32⟩
  | 39 => ⟨S16x1024x1024, .f32⟩
  | 40 => ⟨S_, .i32⟩
  | 41 => ⟨S16x1024x1, .f32⟩
  | 42 => ⟨S16x1024x8, .f32⟩
  | 43 => ⟨S16x1024x8, .f32⟩
  | 44 => ⟨S16x1024x1032, .f32⟩
  | 45 => ⟨S16x1024x1, .f32⟩
  | 46 => ⟨S16x1024x8, .f32⟩
  | 47 => ⟨S16x1024x8, .f32⟩
  | 48 => ⟨S16x1024x1040, .f32⟩
  | 49 => ⟨S16x1024x1024, .f32⟩
  | 50 => ⟨S_, .f32⟩
  | 51 => ⟨S16x1024x1024, .f32⟩
  | 52 => ⟨S16x1024x1024, .f32⟩
  | 53 => ⟨S16x1024x1024, .f32⟩
  | 54 => ⟨S_, .f32⟩
  | 55 => ⟨S16x1024x1024, .f32⟩
  | 56 => ⟨S16x1024x1024, .f32⟩
  | 57 => ⟨S16x1024x1024, .f32⟩
  | 58 => ⟨S16x1024x1024, .f32⟩
  | 59 => ⟨S_, .f32⟩
  | 60 => ⟨S16x1024x1024, .f32⟩
  | 61 => ⟨S16x1024x1024, .f32⟩
  | 62 => ⟨S16x1024x1024, .f32⟩
  | 63 => ⟨S16x1024x1024, .f32⟩
  | 64 => ⟨S_, .f32⟩
  | 65 => ⟨S16x1024x1024, .f32⟩
  | 66 => ⟨S16x1024x1024, .f32⟩
  | 67 => ⟨S16x1024x1024, .f32⟩
  | 68 => ⟨S16x1024x1024, .f32⟩
  | 69 => ⟨S_, .f32⟩
  | 70 => ⟨S16x1024x1024, .f32⟩
  | 71 => ⟨S16x1024x1024, .f32⟩
  | 72 => ⟨S16x1024x1024, .f32⟩
  | 73 => ⟨S16x1024x1024, .f32⟩
  | 74 => ⟨S16x1x1024x1024, .f32⟩
  | 75 => ⟨S16x1x1024x1024, .f32⟩
  | 76 => ⟨S16x1x1024x1024, .f32⟩
  | 77 => ⟨S16x1x1024x1024, .f32⟩
  | 78 => ⟨S16x4x1024x1024, .f32⟩
  | _ => ⟨S16x1024x1024, .f32⟩

abbrev hbmTy (i : Nat) : BufTy := match i / 128 with
  | 0 => hbmTy0_0 i
  | 1 => hbmTy0_1 i
  | _ => ⟨S16x1024x1024, .f32⟩

abbrev bufTy : (tb : Table) → Fin (tcTables nBuf tb) → BufTy
  | .hbm, ⟨i, _⟩ => hbmTy i
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_12 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_16 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_v6 : Ref sig .tc := ⟨.hbm, 108, rfl⟩
abbrev main_v61 : Ref sig .tc := ⟨.hbm, 109, rfl⟩
abbrev main_v62 : Ref sig .tc := ⟨.hbm, 110, rfl⟩
abbrev main_cst_17 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_18 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_19 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_20 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_21 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_22 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_v82 : Ref sig .tc := ⟨.hbm, 143, rfl⟩
abbrev main_v83 : Ref sig .tc := ⟨.hbm, 144, rfl⟩
abbrev main_cst_23 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_24 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_25 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_26 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_27 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_c_28 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_call5_v5 : Ref sig .tc := ⟨.hbm, 174, rfl⟩
abbrev main_call5_v6 : Ref sig .tc := ⟨.hbm, 175, rfl⟩
abbrev main_v102 : Ref sig .tc := ⟨.hbm, 176, rfl⟩
abbrev main_v103 : Ref sig .tc := ⟨.hbm, 177, rfl⟩
abbrev main_cst_29 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_30 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_31 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_32 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_cst_33 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩

abbrev nD : Nat := 1
abbrev τ : Topo := Topo.v7x

variable {F : FTy → Type} [FloatOps F]

class Facts₀ : Prop where
  slices_S16x1024x1024_S16x1x1024_0_0_0 : S16x1024x1024.Slices ![0, 0, 0] S16x1x1024
  slices_S16x1024x1024_S16x2x1024_0_1_0 : S16x1024x1024.Slices ![0, 1, 0] S16x2x1024
  concatenates_S16x2x1024_S16x1024x1024_S16x1026x1024_d1 : Shape.Concatenates [S16x2x1024, S16x1024x1024] S16x1026x1024 1
  slices_S16x1026x1024_S16x1x1024_0_1025_0 : S16x1026x1024.Slices ![0, 1025, 0] S16x1x1024
  slices_S16x1026x1024_S16x2x1024_0_1023_0 : S16x1026x1024.Slices ![0, 1023, 0] S16x2x1024
  concatenates_S16x1026x1024_S16x2x1024_S16x1028x1024_d1 : Shape.Concatenates [S16x1026x1024, S16x2x1024] S16x1028x1024 1
  slices_S16x1028x1024_S16x1024x1024_0_0_0 : S16x1028x1024.Slices ![0, 0, 0] S16x1024x1024
  bcast_S_S16x1024x1024 : S_.BroadcastsInDim S16x1024x1024 (![] : Fin 0 → Fin S16x1024x1024.rank)
  slices_S16x1028x1024_S16x1024x1024_0_1_0 : S16x1028x1024.Slices ![0, 1, 0] S16x1024x1024
  slices_S16x1028x1024_S16x1024x1024_0_2_0 : S16x1028x1024.Slices ![0, 2, 0] S16x1024x1024
  slices_S16x1028x1024_S16x1024x1024_0_3_0 : S16x1028x1024.Slices ![0, 3, 0] S16x1024x1024
  slices_S16x1028x1024_S16x1024x1024_0_4_0 : S16x1028x1024.Slices ![0, 4, 0] S16x1024x1024
  slices_S16x1024x1024_S16x1024x1_0_0_0 : S16x1024x1024.Slices ![0, 0, 0] S16x1024x1
  slices_S16x1024x1024_S16x1024x2_0_0_1 : S16x1024x1024.Slices ![0, 0, 1] S16x1024x2
  concatenates_S16x1024x2_S16x1024x1024_S16x1024x1026_d2 : Shape.Concatenates [S16x1024x2, S16x1024x1024] S16x1024x1026 2
  slices_S16x1024x1026_S16x1024x1_0_0_1025 : S16x1024x1026.Slices ![0, 0, 1025] S16x1024x1
  slices_S16x1024x1026_S16x1024x2_0_0_1023 : S16x1024x1026.Slices ![0, 0, 1023] S16x1024x2
  concatenates_S16x1024x1026_S16x1024x2_S16x1024x1028_d2 : Shape.Concatenates [S16x1024x1026, S16x1024x2] S16x1024x1028 2
  slices_S16x1024x1028_S16x1024x1024_0_0_0 : S16x1024x1028.Slices ![0, 0, 0] S16x1024x1024
  slices_S16x1024x1028_S16x1024x1024_0_0_1 : S16x1024x1028.Slices ![0, 0, 1] S16x1024x1024
  slices_S16x1024x1028_S16x1024x1024_0_0_2 : S16x1024x1028.Slices ![0, 0, 2] S16x1024x1024
  slices_S16x1024x1028_S16x1024x1024_0_0_3 : S16x1024x1028.Slices ![0, 0, 3] S16x1024x1024
  slices_S16x1024x1028_S16x1024x1024_0_0_4 : S16x1024x1028.Slices ![0, 0, 4] S16x1024x1024
  slices_S16x1024x1024_S16x4x1024_0_1_0 : S16x1024x1024.Slices ![0, 1, 0] S16x4x1024
  concatenates_S16x4x1024_S16x1024x1024_S16x1028x1024_d1 : Shape.Concatenates [S16x4x1024, S16x1024x1024] S16x1028x1024 1
  slices_S16x1028x1024_S16x1x1024_0_1027_0 : S16x1028x1024.Slices ![0, 1027, 0] S16x1x1024
  slices_S16x1028x1024_S16x4x1024_0_1023_0 : S16x1028x1024.Slices ![0, 1023, 0] S16x4x1024
  concatenates_S16x1028x1024_S16x4x1024_S16x1032x1024_d1 : Shape.Concatenates [S16x1028x1024, S16x4x1024] S16x1032x1024 1
  slices_S16x1032x1024_S16x1024x1024_0_0_0 : S16x1032x1024.Slices ![0, 0, 0] S16x1024x1024
  slices_S16x1032x1024_S16x1024x1024_0_2_0 : S16x1032x1024.Slices ![0, 2, 0] S16x1024x1024
  slices_S16x1032x1024_S16x1024x1024_0_4_0 : S16x1032x1024.Slices ![0, 4, 0] S16x1024x1024
  slices_S16x1032x1024_S16x1024x1024_0_6_0 : S16x1032x1024.Slices ![0, 6, 0] S16x1024x1024
  slices_S16x1032x1024_S16x1024x1024_0_8_0 : S16x1032x1024.Slices ![0, 8, 0] S16x1024x1024
  slices_S16x1024x1024_S16x1024x4_0_0_1 : S16x1024x1024.Slices ![0, 0, 1] S16x1024x4
  concatenates_S16x1024x4_S16x1024x1024_S16x1024x1028_d2 : Shape.Concatenates [S16x1024x4, S16x1024x1024] S16x1024x1028 2
  slices_S16x1024x1028_S16x1024x1_0_0_1027 : S16x1024x1028.Slices ![0, 0, 1027] S16x1024x1
  slices_S16x1024x1028_S16x1024x4_0_0_1023 : S16x1024x1028.Slices ![0, 0, 1023] S16x1024x4
  concatenates_S16x1024x1028_S16x1024x4_S16x1024x1032_d2 : Shape.Concatenates [S16x1024x1028, S16x1024x4] S16x1024x1032 2
  slices_S16x1024x1032_S16x1024x1024_0_0_0 : S16x1024x1032.Slices ![0, 0, 0] S16x1024x1024
  slices_S16x1024x1032_S16x1024x1024_0_0_2 : S16x1024x1032.Slices ![0, 0, 2] S16x1024x1024
  slices_S16x1024x1032_S16x1024x1024_0_0_4 : S16x1024x1032.Slices ![0, 0, 4] S16x1024x1024
  slices_S16x1024x1032_S16x1024x1024_0_0_6 : S16x1024x1032.Slices ![0, 0, 6] S16x1024x1024
  slices_S16x1024x1032_S16x1024x1024_0_0_8 : S16x1024x1032.Slices ![0, 0, 8] S16x1024x1024
  slices_S16x1024x1024_S16x8x1024_0_1_0 : S16x1024x1024.Slices ![0, 1, 0] S16x8x1024
  concatenates_S16x8x1024_S16x1024x1024_S16x1032x1024_d1 : Shape.Concatenates [S16x8x1024, S16x1024x1024] S16x1032x1024 1
  slices_S16x1032x1024_S16x1x1024_0_1031_0 : S16x1032x1024.Slices ![0, 1031, 0] S16x1x1024
  slices_S16x1032x1024_S16x8x1024_0_1023_0 : S16x1032x1024.Slices ![0, 1023, 0] S16x8x1024
  concatenates_S16x1032x1024_S16x8x1024_S16x1040x1024_d1 : Shape.Concatenates [S16x1032x1024, S16x8x1024] S16x1040x1024 1
  slices_S16x1040x1024_S16x1024x1024_0_0_0 : S16x1040x1024.Slices ![0, 0, 0] S16x1024x1024
  slices_S16x1040x1024_S16x1024x1024_0_4_0 : S16x1040x1024.Slices ![0, 4, 0] S16x1024x1024
  slices_S16x1040x1024_S16x1024x1024_0_8_0 : S16x1040x1024.Slices ![0, 8, 0] S16x1024x1024
  slices_S16x1040x1024_S16x1024x1024_0_12_0 : S16x1040x1024.Slices ![0, 12, 0] S16x1024x1024
  slices_S16x1040x1024_S16x1024x1024_0_16_0 : S16x1040x1024.Slices ![0, 16, 0] S16x1024x1024
  slices_S16x1024x1024_S16x1024x8_0_0_1 : S16x1024x1024.Slices ![0, 0, 1] S16x1024x8
  concatenates_S16x1024x8_S16x1024x1024_S16x1024x1032_d2 : Shape.Concatenates [S16x1024x8, S16x1024x1024] S16x1024x1032 2
  slices_S16x1024x1032_S16x1024x1_0_0_1031 : S16x1024x1032.Slices ![0, 0, 1031] S16x1024x1
  slices_S16x1024x1032_S16x1024x8_0_0_1023 : S16x1024x1032.Slices ![0, 0, 1023] S16x1024x8
  concatenates_S16x1024x1032_S16x1024x8_S16x1024x1040_d2 : Shape.Concatenates [S16x1024x1032, S16x1024x8] S16x1024x1040 2
  slices_S16x1024x1040_S16x1024x1024_0_0_0 : S16x1024x1040.Slices ![0, 0, 0] S16x1024x1024
  slices_S16x1024x1040_S16x1024x1024_0_0_4 : S16x1024x1040.Slices ![0, 0, 4] S16x1024x1024
  slices_S16x1024x1040_S16x1024x1024_0_0_8 : S16x1024x1040.Slices ![0, 0, 8] S16x1024x1024
  slices_S16x1024x1040_S16x1024x1024_0_0_12 : S16x1024x1040.Slices ![0, 0, 12] S16x1024x1024
  slices_S16x1024x1040_S16x1024x1024_0_0_16 : S16x1024x1040.Slices ![0, 0, 16] S16x1024x1024
  bcast_S16x1024x1024_S16x1x1024x1024_0_2_3 : S16x1024x1024.BroadcastsInDim S16x1x1024x1024 (![0, 2, 3] : Fin 3 → Fin S16x1x1024x1024.rank)
  concatenates_S16x1x1024x1024_S16x1x1024x1024_S16x1x1024x1024_S16x1x1024x1024_S16x4x1024x1024_d1 : Shape.Concatenates [S16x1x1024x1024, S16x1x1024x1024, S16x1x1024x1024, S16x1x1024x1024] S16x4x1024x1024 1

variable [Facts₀]

class Facts : Prop extends Facts₀ where

variable [Facts]
-- ==== Proof.KernelData.lean ====
/- The launch data of the one pallas_call, at any float instance.

   The grid has one point per batch image. At a point the pipeline hands the body the image's
   1×1024×1024 block of the argument array and four staging buffers, one per result array; the body
   stores each of the four whole, through one rectangle covering it. So what each result's buffer holds
   after the body is a function of the input block alone: the payload of that one store. This module
   names those four functions, the blocks, the buffer contents when the call is entered, and the
   pipeline's proof data built from them; the run is in the module that imports this one. -/
import proofs.«167050_j34797825032658_1_alg».proof.Proof.Gen.Kernel.Launch
import proofs.«167050_j34797825032658_1_alg».proof.Proof.Gen.Kernel.Skeleton
import proofs.«167050_j34797825032658_1_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ)

/-! ## The buffers when the call is entered

No host operation precedes the call, so the fold of "the operations before it" over the launch memory
is over the empty list: every buffer is as launched. It is kept as that fold because the launch theorem
states the entry contents so. -/

/-- Core `c`'s buffer contents when the call is entered. -/
abbrev V0 (c : Dev nD) : Valuation τ sig (Elt F) :=
  StableHlo.after (List.flatten ([] : List (List (HloOp τ sig (Elt F))))) (fun b => m (c, b))

/-- The same, read at a TensorCore reference. -/
abbrev V (c : Dev nD) (b : Ref sig .tc) : Buf (Elt F) ((c : Thread nD τ).loc b) := V0 m c (Proc.devRef .tc b)

/-! ## Blocks -/

/-- Window `w`'s block at grid point `t`: the part of the window's array, as the call finds it, that the
    window's index map selects there. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The one rectangle every load and store of the body goes through: the whole 1×1024×1024 buffer. -/
abbrev r0 : Rect S1x1024x1024 :=
  Rect.unit (s := S1x1024x1024) ![0, 0, 0] S1x1024x1024.size inb_S1x1024x1024_S1x1024x1024_0_0_0

/-! ## What the body stores, as functions of the input block

`v0` is the input block as loaded. The body smooths it with the five weights 1/16, 1/4, 3/8, 1/4, 1/16
along the second axis and then along the third, borders reflected, at tap spacing 1: `low₁`; again at
spacing 2 on `low₁`: `low₂`; again at spacing 4 on `low₂`: `low₃`. It stores `v0 - low₁`, `low₁ - low₂`,
`low₂ - low₃` and `low₃`. The skeleton cuts that computation into named payloads wherever one of the
body's three parts hands values to the next, so some names are partial sums of the five taps: each
function below is the payload of one store, spelt through those names exactly as the store has it. -/

/-- The scalar 1/16 the first part binds. -/
abbrev sixteenth : F .f32 := Scalar.ofBits .f32 0x3D800000#32

/-- First result: the input less `low₁`. -/
def pay_w1 (v0 : Vec F S1x1024x1024 .f32) : FVec F S1x1024x1024 .f32 :=
  k0_pay7 v0 (k0_pay4 v0) (k0_pay5 v0) sixteenth

/-- `low₁` (the first four taps' sum `k0_pay4` plus 1/16 of the fifth tap's slice `k0_pay5`); the second
    level's image after its smoothing along the second axis, reflected four wide along the third
    (`k0_pay8`); and the first two taps' sum of its smoothing along the third (`k0_pay9`). -/
abbrev low1 (v0 : Vec F S1x1024x1024 .f32) : FVec F S1x1024x1024 .f32 := k0_pay6 (k0_pay4 v0) (k0_pay5 v0) sixteenth
abbrev pad2 (v0 : Vec F S1x1024x1024 .f32) : FVec F S1x1024x1032 .f32 := k0_pay8 (k0_pay4 v0) (k0_pay5 v0) sixteenth
abbrev sum2 (v0 : Vec F S1x1024x1024 .f32) : FVec F S1x1024x1024 .f32 := k0_pay9 (k0_pay4 v0) (k0_pay5 v0) sixteenth

/-- Second result: `low₁` less `low₂`. -/
def pay_w2 (v0 : Vec F S1x1024x1024 .f32) : FVec F S1x1024x1024 .f32 :=
  k0_pay11 (low1 v0) (pad2 v0) (sum2 v0)

/-- Third result: `low₂` (`k0_pay10`) less `low₃`; `k0_pay13`, `k0_pay14`, `k0_pay15` are the third level's
    four-tap sum along the second axis, its fifth tap's slice, and the constant 1/16 spread over the block. -/
def pay_w3 (v0 : Vec F S1x1024x1024 .f32) : FVec F S1x1024x1024 .f32 :=
  k0_pay2 (k0_pay10 (pad2 v0) (sum2 v0)) (k0_pay13 (pad2 v0) (sum2 v0)) (k0_pay14 (pad2 v0) (sum2 v0)) k0_pay15

/-- Fourth result: `low₃`. -/
def pay_w4 (v0 : Vec F S1x1024x1024 .f32) : FVec F S1x1024x1024 .f32 :=
  k0_pay1 (k0_pay13 (pad2 v0) (sum2 v0)) (k0_pay14 (pad2 v0) (sum2 v0)) k0_pay15

/-! ## What each result's staging buffer holds after the body

One store through `r0`, so the canonical contents of a one-piece list: the payload everywhere. `x0` is
the input buffer's contents as read; the load through `r0` reads `View.ld x0 r0` of it. -/

def out0_1 (x0 : Vec F S1x1024x1024 .f32) : Vec F S1x1024x1024 .f32 := View.canon [⟨r0, pay_w1 (View.ld x0 r0)⟩]
def out0_2 (x0 : Vec F S1x1024x1024 .f32) : Vec F S1x1024x1024 .f32 := View.canon [⟨r0, pay_w2 (View.ld x0 r0)⟩]
def out0_3 (x0 : Vec F S1x1024x1024 .f32) : Vec F S1x1024x1024 .f32 := View.canon [⟨r0, pay_w3 (View.ld x0 r0)⟩]
def out0_4 (x0 : Vec F S1x1024x1024 .f32) : Vec F S1x1024x1024 .f32 := View.canon [⟨r0, pay_w4 (View.ld x0 r0)⟩]

/-! ## The proof data -/

/-- Per core: the windows' arrays as the call finds them; after the body at point `t` the input's buffer
    still at its block and each result's at the function above of that block; as invariant what the
    body neither reads nor writes (the scoped rest and the generator's register); full shares; no
    cross-core duty. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
    | ⟨3, _⟩ => out0_3 (iblk m c 0 t)
    | ⟨4, _⟩ => out0_4 (iblk m c 0 t)
  Φ _ := Pipeline.ΦA spec0 c
  q _ := fullShare
  owed _ := 0

/-- The arrays of the proof data are the entry contents (the record's field projected, nothing unfolded). -/
theorem A_eq (c : Dev nD) (w : Fin cfg0.W) : (dats m 0 c).A w = V m c (Pipeline.arrRef spec0 w) := by
  dsimp only [dats]

/-- Window by window, what the proof data say the body leaves. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 0 t) := by dsimp only [dats]

end Cert.Kernel.Hand

end
-- ==== Proof.KernelFrame.lean ====
/- The frame of the one pallas_call followed by five host operations, at any float instance: the body's
   run on its staging buffers, the pipeline's body obligation at every grid point, @main as the call
   continued by the host operations, the launch, and that the argument array ends as launched. The data
   all of it is stated over (entry contents, blocks, the four stored functions, the proof data) are in
   the module imported first. -/
import proofs.«167050_j34797825032658_1_alg».proof.Proof.KernelData
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on its five buffers -/

/-- A buffer stored whole through `r0` reads, whatever it held before, as the canonical contents of that one
    piece: the rectangle is the whole shape (checked on its extents), so the piece covers every index. -/
theorem read_stored_whole (b : Memref sig .tc .vmem S1x1024x1024 .f32) (f : b.view.ty.Contents (Elt F))
    (p : r0.shape.Idx → Elt F .f32) :
    b.view.read (Elt F) (b.view.writes (Elt F) f [⟨r0, p⟩]) = View.canon [⟨r0, p⟩] :=
  have covers : ∀ y : S1x1024x1024.Idx, ∃ pc ∈ ([⟨r0, p⟩] : List (View.Piece (Elt F) S1x1024x1024 .f32)), y ∈ pc.1.set :=
    View.cover_of_tiled [⟨r0, p⟩] S1x1024x1024.size (by rfl)
  View.read_writes_eq_canon b.view f [⟨r0, p⟩] covers

/-- The kernel function run on five whole staging buffers — the first holding contents that read `x0`, the
    other four holding anything — reaches its return with the first untouched and the four at `out0_1 x0`,
    …, `out0_4 x0`. The body loads the first buffer once, and each of the others once (a value it never
    uses) before storing it whole; the symbolic run threads those nine accesses through the three parts,
    and what is left is to recognise each stored payload as `pay_wK` of the loaded block. -/
theorem body_run (c : Dev nD) (E : Set ℕ) (i : grid0.Coords)
    (b0 b1 b2 b3 b4 : Memref sig .tc .vmem S1x1024x1024 .f32)
    (w0 : b0.IsWhole) (w1 : b1.IsWhole) (w2 : b2.IsWhole) (w3 : b3.IsWhole) (w4 : b4.IsWhole)
    (x0 : Vec F S1x1024x1024 .f32) (K : PUnit → sProp 𝕄) :
    iprop(owns (c : Thread nD τ) b0 fullShare x0
        ∗ (∃ d, owns (c : Thread nD τ) b1 fullShare d) ∗ (∃ d, owns (c : Thread nD τ) b2 fullShare d)
        ∗ (∃ d, owns (c : Thread nD τ) b3 fullShare d) ∗ (∃ d, owns (c : Thread nD τ) b4 fullShare d)
        ∗ (iprop(owns (c : Thread nD τ) b0 fullShare x0 ∗ owns (c : Thread nD τ) b1 fullShare (out0_1 x0)
              ∗ owns (c : Thread nD τ) b2 fullShare (out0_2 x0) ∗ owns (c : Thread nD τ) b3 fullShare (out0_3 x0)
              ∗ owns (c : Thread nD τ) b4 fullShare (out0_4 x0)) -∗ K ⟨⟩))
      ⊢ wp frame (wpE (defs₀ (F := F)) Variants.none c none) E (cc0__b3_kernel i b0 w0 b1 w1 b2 w2 b3 w3 b4 w4) K := by
  sl_unfold [cc0__b3_kernel]
  unfold owns
  iintro ⟨⟨%f0, %e0, H0⟩, ⟨%d1, %f1, -, H1⟩, ⟨%d2, %f2, -, H2⟩, ⟨%d3, %f3, -, H3⟩, ⟨%d4, %f4, -, H4⟩, Hk⟩
  subst e0
  sl_exec
  sl_step
  iapply Hk
  isplitl [H0]
  · iexists f0; isplitr
    · ipureintro; rfl
    · iexact H0
  isplitl [H1]
  · iexists _; isplitr
    · ipureintro; exact read_stored_whole b1 f1 _
    · iexact H1
  isplitl [H2]
  · iexists _; isplitr
    · ipureintro; exact read_stored_whole b2 f2 _
    · iexact H2
  isplitl [H3]
  · iexists _; isplitr
    · ipureintro; exact read_stored_whole b3 f3 _
    · iexact H3
  · iexists _; isplitr
    · ipureintro; exact read_stored_whole b4 f4 _
    · iexact H4

/-! ## The body obligation -/

variable (m : (ℓ : Loc nD τ sig) → Buf (Elt F) ℓ) (ρ : Dev nD → PrngReg)

/-- The input window is fetched at every grid point (its block index is the point), so at every point the
    body finds that point's block in the window's current staging buffer, whatever the buffer held. -/
theorem input_found (c : Dev nD) (t : Fin cfg0.N) (d) : (dats m 0 c).before 0 t d = iblk m c 0 t := by
  rw [(dats m 0 c).before_fetched 0 t (fetch0_0 t) d]
  unfold Dat.fetched Dat.blockOf iblk
  rw [A_eq]
  rfl

/-- The invariant and the cross-core duty do not depend on the point. -/
theorem inv_eq (c : Dev nD) (k : Fin (cfg0.N + 1)) : (dats m 0 c).Φ k = Pipeline.ΦA spec0 c := by dsimp only [dats]
theorem owes_eq (c : Dev nD) (t : Fin cfg0.N) :
    (dats m 0 c).owesAt () t.succ = (dats m 0 c).owesAt () t.castSucc := rfl

/-- The body at grid point `t`, on the five current staging buffers: handed the invariant, the duty, the input's
    buffer at whatever the pipeline left there and the results' buffers at anything, it returns the invariant
    and the duty untouched, the input's buffer still at its block and each result's at the stored function
    of that block. The input's buffer holds the block (`input_found`), so this is `body_run` at the block. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t))) := by
  simp only [input_found, inv_eq, owes_eq, after0_0, after0_1, after0_2, after0_3, after0_4]
  unfold bodyAt0
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation: its conjunction over the five windows written out is `body_at`. -/
theorem body_obligation (c : Dev nD) :
    BodyObligation (dats (F := F) m 0 c) (defs₀ (F := F)) Variants.none () Set.univ := fun t => by
  rw [bigSep_W0, bigSep_W0]
  exact body_at m c t

/-! ## @main: the call, then five host operations -/

/-- None of the five allocates a buffer. -/
theorem tail_fresh : (hostOps1 : List (HloOp τ sig (Elt F))).Forall fun op => op.fresh = ∅ :=
  ⟨rfl, rfl, rfl, rfl, rfl⟩

/-- @main is the call followed by the five operations, with nothing before the call: holding every unscoped
    buffer as launched it reduces to the call continued by them, the buffers still as launched. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial (fun c => main_chain c)

/-- The buffers the five write: the four broadcast results and the concatenation. -/
def tailWritten : List (Ref sig .tc) := [main_v1, main_v2, main_v3, main_v4, main_v5]

theorem tail_writes : (hostOps1 : List (HloOp τ sig (Elt F))).Forall fun op =>
    op.writes ⊆ (tailWritten.map (Proc.devRef (τ := τ) .tc)).toFinset := by
  simp [hostOps1, List.Forall, tailWritten]

/-- A reference outside that list is written by none of them. -/
theorem tail_spares {r : Ref sig .tc} (hr : r ∉ tailWritten) :
    ∀ op ∈ (hostOps1 : List (HloOp τ sig (Elt F))), Proc.devRef .tc r ∉ op.writes := by
  intro op hop hmem
  obtain ⟨y, hy, he⟩ := List.mem_map.mp (List.mem_toFinset.mp (List.forall_iff_forall_mem.mp tail_writes op hop hmem))
  exact hr (Proc.devRef_injective _ he ▸ hy)

/-- No window's array is among the written buffers. -/
theorem arr_not_written : ∀ w : Fin 5, Pipeline.arrRef spec0 w ∉ tailWritten := by decide

/-! ## The launch -/

/-- From any memory with zero counters, every weakly fair execution of @main on the TensorCores terminates,
    and ends with each window's array at what the library computes from the proof data (an input's as it was
    entered, a result's overwritten block by block with what the body left) and every other unscoped
    buffer as the five host operations leave it. -/
theorem run_main :
    θ_run defs (onTc (τ := τ) (main (F := F))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose)
    (hshare := fun c => (dats m 0 c).share_full fun _ => rfl)
    (howed := fun _ _ => rfl)
    (V₀ := V0 m) (opss := [hostOps1])
    (hsub := fun ops hops op hop => by
      obtain rfl := List.mem_singleton.mp hops
      rw [Pipeline.tailRefs_none spec0 launch0.win.arr_unscoped]
      exact Pipeline.sub_ucRefs op (List.forall_iff_forall_mem.mp hostOps1_sub op hop))
    (hfresh := fun ops hops op hop => by
      obtain rfl := List.mem_singleton.mp hops
      exact List.forall_iff_forall_mem.mp tail_fresh op hop)
    (hkeep := fun ops hops op hop w => by
      obtain rfl := List.mem_singleton.mp hops
      exact tail_spares (arr_not_written w) op hop)
    (hmain := hmain m Variants.none) (hA := A_eq m) (hΦ := inv_eq m)

/-! ## The argument array ends as launched -/

/-- The argument array is the input window's array; an input's array is never written back, so it ends at the
    proof data's entry contents, which — nothing preceding the call — are the launch contents. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => ((h c).1 0).trans (((dats m 0 c).arrAt_in 0 rfl _).trans (A_eq m c 0)))
    (run_main m ρ)

end Cert.Kernel.Hand

end
-- ==== Proof.KernelIdealData.lean ====
/- The launch data of the one pallas_call, at any float instance.

   The grid has one point per batch image. At a point the pipeline hands the body the image's
   1×1024×1024 block of the argument array and four staging buffers, one per result array; the body
   stores each of the four whole, through one rectangle covering it. So what each result's buffer holds
   after the body is a function of the input block alone: the payload of that one store. This module
   names those four functions, the blocks, the buffer contents when the call is entered, and the
   pipeline's proof data built from them; the run is in the module that imports this one. -/
import proofs.«167050_j34797825032658_1_alg».proof.Proof.Gen.KernelIdeal.Launch
import proofs.«167050_j34797825032658_1_alg».proof.Proof.Gen.KernelIdeal.Skeleton
import proofs.«167050_j34797825032658_1_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ)

/-! ## The buffers when the call is entered

No host operation precedes the call, so the fold of "the operations before it" over the launch memory
is over the empty list: every buffer is as launched. It is kept as that fold because the launch theorem
states the entry contents so. -/

/-- Core `c`'s buffer contents when the call is entered. -/
abbrev V0 (c : Dev nD) : Valuation τ sig (Elt F) :=
  StableHlo.after (List.flatten ([] : List (List (HloOp τ sig (Elt F))))) (fun b => m (c, b))

/-- The same, read at a TensorCore reference. -/
abbrev V (c : Dev nD) (b : Ref sig .tc) : Buf (Elt F) ((c : Thread nD τ).loc b) := V0 m c (Proc.devRef .tc b)

/-! ## Blocks -/

/-- Window `w`'s block at grid point `t`: the part of the window's array, as the call finds it, that the
    window's index map selects there. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The one rectangle every load and store of the body goes through: the whole 1×1024×1024 buffer. -/
abbrev r0 : Rect S1x1024x1024 :=
  Rect.unit (s := S1x1024x1024) ![0, 0, 0] S1x1024x1024.size inb_S1x1024x1024_S1x1024x1024_0_0_0

/-! ## What the body stores, as functions of the input block

`v0` is the input block as loaded. The body smooths it with the five weights 1/16, 1/4, 3/8, 1/4, 1/16
along the second axis and then along the third, borders reflected, at tap spacing 1: `low₁`; again at
spacing 2 on `low₁`: `low₂`; again at spacing 4 on `low₂`: `low₃`. It stores `v0 - low₁`, `low₁ - low₂`,
`low₂ - low₃` and `low₃`. The skeleton cuts that computation into named payloads wherever one of the
body's three parts hands values to the next, so some names are partial sums of the five taps: each
function below is the payload of one store, spelt through those names exactly as the store has it. -/

/-- The scalar 1/16 the first part binds. -/
abbrev sixteenth : F .f32 := Scalar.ofBits .f32 0x3D800000#32

/-- First result: the input less `low₁`. -/
def pay_w1 (v0 : Vec F S1x1024x1024 .f32) : FVec F S1x1024x1024 .f32 :=
  k0_pay7 v0 (k0_pay4 v0) (k0_pay5 v0) sixteenth

/-- `low₁` (the first four taps' sum `k0_pay4` plus 1/16 of the fifth tap's slice `k0_pay5`); the second
    level's image after its smoothing along the second axis, reflected four wide along the third
    (`k0_pay8`); and the first two taps' sum of its smoothing along the third (`k0_pay9`). -/
abbrev low1 (v0 : Vec F S1x1024x1024 .f32) : FVec F S1x1024x1024 .f32 := k0_pay6 (k0_pay4 v0) (k0_pay5 v0) sixteenth
abbrev pad2 (v0 : Vec F S1x1024x1024 .f32) : FVec F S1x1024x1032 .f32 := k0_pay8 (k0_pay4 v0) (k0_pay5 v0) sixteenth
abbrev sum2 (v0 : Vec F S1x1024x1024 .f32) : FVec F S1x1024x1024 .f32 := k0_pay9 (k0_pay4 v0) (k0_pay5 v0) sixteenth

/-- Second result: `low₁` less `low₂`. -/
def pay_w2 (v0 : Vec F S1x1024x1024 .f32) : FVec F S1x1024x1024 .f32 :=
  k0_pay11 (low1 v0) (pad2 v0) (sum2 v0)

/-- Third result: `low₂` (`k0_pay10`) less `low₃`; `k0_pay13`, `k0_pay14`, `k0_pay15` are the third level's
    four-tap sum along the second axis, its fifth tap's slice, and the constant 1/16 spread over the block. -/
def pay_w3 (v0 : Vec F S1x1024x1024 .f32) : FVec F S1x1024x1024 .f32 :=
  k0_pay2 (k0_pay10 (pad2 v0) (sum2 v0)) (k0_pay13 (pad2 v0) (sum2 v0)) (k0_pay14 (pad2 v0) (sum2 v0)) k0_pay15

/-- Fourth result: `low₃`. -/
def pay_w4 (v0 : Vec F S1x1024x1024 .f32) : FVec F S1x1024x1024 .f32 :=
  k0_pay1 (k0_pay13 (pad2 v0) (sum2 v0)) (k0_pay14 (pad2 v0) (sum2 v0)) k0_pay15

/-! ## What each result's staging buffer holds after the body

One store through `r0`, so the canonical contents of a one-piece list: the payload everywhere. `x0` is
the input buffer's contents as read; the load through `r0` reads `View.ld x0 r0` of it. -/

def out0_1 (x0 : Vec F S1x1024x1024 .f32) : Vec F S1x1024x1024 .f32 := View.canon [⟨r0, pay_w1 (View.ld x0 r0)⟩]
def out0_2 (x0 : Vec F S1x1024x1024 .f32) : Vec F S1x1024x1024 .f32 := View.canon [⟨r0, pay_w2 (View.ld x0 r0)⟩]
def out0_3 (x0 : Vec F S1x1024x1024 .f32) : Vec F S1x1024x1024 .f32 := View.canon [⟨r0, pay_w3 (View.ld x0 r0)⟩]
def out0_4 (x0 : Vec F S1x1024x1024 .f32) : Vec F S1x1024x1024 .f32 := View.canon [⟨r0, pay_w4 (View.ld x0 r0)⟩]

/-! ## The proof data -/

/-- Per core: the windows' arrays as the call finds them; after the body at point `t` the input's buffer
    still at its block and each result's at the function above of that block; as invariant what the
    body neither reads nor writes (the scoped rest and the generator's register); full shares; no
    cross-core duty. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
    | ⟨3, _⟩ => out0_3 (iblk m c 0 t)
    | ⟨4, _⟩ => out0_4 (iblk m c 0 t)
  Φ _ := Pipeline.ΦA spec0 c
  q _ := fullShare
  owed _ := 0

/-- The arrays of the proof data are the entry contents (the record's field projected, nothing unfolded). -/
theorem A_eq (c : Dev nD) (w : Fin cfg0.W) : (dats m 0 c).A w = V m c (Pipeline.arrRef spec0 w) := by
  dsimp only [dats]

/-- Window by window, what the proof data say the body leaves. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 0 t) := by dsimp only [dats]
theorem after0_4 (c : Dev nD) (t : Fin cfg0.N) : (dats m 0 c).after 4 t = out0_4 (iblk m c 0 t) := by dsimp only [dats]

end Cert.KernelIdeal.Hand

end
-- ==== Proof.KernelIdealFrame.lean ====
/- The frame of the one pallas_call followed by five host operations, at any float instance: the body's
   run on its staging buffers, the pipeline's body obligation at every grid point, @main as the call
   continued by the host operations, the launch, and that the argument array ends as launched. The data
   all of it is stated over (entry contents, blocks, the four stored functions, the proof data) are in
   the module imported first. -/
import proofs.«167050_j34797825032658_1_alg».proof.Proof.KernelIdealData
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on its five buffers -/

/-- A buffer stored whole through `r0` reads, whatever it held before, as the canonical contents of that one
    piece: the rectangle is the whole shape (checked on its extents), so the piece covers every index. -/
theorem read_stored_whole (b : Memref sig .tc .vmem S1x1024x1024 .f32) (f : b.view.ty.Contents (Elt F))
    (p : r0.shape.Idx → Elt F .f32) :
    b.view.read (Elt F) (b.view.writes (Elt F) f [⟨r0, p⟩]) = View.canon [⟨r0, p⟩] :=
  have covers : ∀ y : S1x1024x1024.Idx, ∃ pc ∈ ([⟨r0, p⟩] : List (View.Piece (Elt F) S1x1024x1024 .f32)), y ∈ pc.1.set :=
    View.cover_of_tiled [⟨r0, p⟩] S1x1024x1024.size (by rfl)
  View.read_writes_eq_canon b.view f [⟨r0, p⟩] covers

/-- The kernel function run on five whole staging buffers — the first holding contents that read `x0`, the
    other four holding anything — reaches its return with the first untouched and the four at `out0_1 x0`,
    …, `out0_4 x0`. The body loads the first buffer once, and each of the others once (a value it never
    uses) before storing it whole; the symbolic run threads those nine accesses through the three parts,
    and what is left is to recognise each stored payload as `pay_wK` of the loaded block. -/
theorem body_run (c : Dev nD) (E : Set ℕ) (i : grid0.Coords)
    (b0 b1 b2 b3 b4 : Memref sig .tc .vmem S1x1024x1024 .f32)
    (w0 : b0.IsWhole) (w1 : b1.IsWhole) (w2 : b2.IsWhole) (w3 : b3.IsWhole) (w4 : b4.IsWhole)
    (x0 : Vec F S1x1024x1024 .f32) (K : PUnit → sProp 𝕄) :
    iprop(owns (c : Thread nD τ) b0 fullShare x0
        ∗ (∃ d, owns (c : Thread nD τ) b1 fullShare d) ∗ (∃ d, owns (c : Thread nD τ) b2 fullShare d)
        ∗ (∃ d, owns (c : Thread nD τ) b3 fullShare d) ∗ (∃ d, owns (c : Thread nD τ) b4 fullShare d)
        ∗ (iprop(owns (c : Thread nD τ) b0 fullShare x0 ∗ owns (c : Thread nD τ) b1 fullShare (out0_1 x0)
              ∗ owns (c : Thread nD τ) b2 fullShare (out0_2 x0) ∗ owns (c : Thread nD τ) b3 fullShare (out0_3 x0)
              ∗ owns (c : Thread nD τ) b4 fullShare (out0_4 x0)) -∗ K ⟨⟩))
      ⊢ wp frame (wpE (defs₀ (F := F)) Variants.none c none) E (cc0__b3_kernel i b0 w0 b1 w1 b2 w2 b3 w3 b4 w4) K := by
  sl_unfold [cc0__b3_kernel]
  unfold owns
  iintro ⟨⟨%f0, %e0, H0⟩, ⟨%d1, %f1, -, H1⟩, ⟨%d2, %f2, -, H2⟩, ⟨%d3, %f3, -, H3⟩, ⟨%d4, %f4, -, H4⟩, Hk⟩
  subst e0
  sl_exec
  sl_step
  iapply Hk
  isplitl [H0]
  · iexists f0; isplitr
    · ipureintro; rfl
    · iexact H0
  isplitl [H1]
  · iexists _; isplitr
    · ipureintro; exact read_stored_whole b1 f1 _
    · iexact H1
  isplitl [H2]
  · iexists _; isplitr
    · ipureintro; exact read_stored_whole b2 f2 _
    · iexact H2
  isplitl [H3]
  · iexists _; isplitr
    · ipureintro; exact read_stored_whole b3 f3 _
    · iexact H3
  · iexists _; isplitr
    · ipureintro; exact read_stored_whole b4 f4 _
    · iexact H4

/-! ## The body obligation -/

variable (m : (ℓ : Loc nD τ sig) → Buf (Elt F) ℓ) (ρ : Dev nD → PrngReg)

/-- The input window is fetched at every grid point (its block index is the point), so at every point the
    body finds that point's block in the window's current staging buffer, whatever the buffer held. -/
theorem input_found (c : Dev nD) (t : Fin cfg0.N) (d) : (dats m 0 c).before 0 t d = iblk m c 0 t := by
  rw [(dats m 0 c).before_fetched 0 t (fetch0_0 t) d]
  unfold Dat.fetched Dat.blockOf iblk
  rw [A_eq]
  rfl

/-- The invariant and the cross-core duty do not depend on the point. -/
theorem inv_eq (c : Dev nD) (k : Fin (cfg0.N + 1)) : (dats m 0 c).Φ k = Pipeline.ΦA spec0 c := by dsimp only [dats]
theorem owes_eq (c : Dev nD) (t : Fin cfg0.N) :
    (dats m 0 c).owesAt () t.succ = (dats m 0 c).owesAt () t.castSucc := rfl

/-- The body at grid point `t`, on the five current staging buffers: handed the invariant, the duty, the input's
    buffer at whatever the pipeline left there and the results' buffers at anything, it returns the invariant
    and the duty untouched, the input's buffer still at its block and each result's at the stored function
    of that block. The input's buffer holds the block (`input_found`), so this is `body_run` at the block. -/
theorem body_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t))) := by
  simp only [input_found, inv_eq, owes_eq, after0_0, after0_1, after0_2, after0_3, after0_4]
  unfold bodyAt0
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation: its conjunction over the five windows written out is `body_at`. -/
theorem body_obligation (c : Dev nD) :
    BodyObligation (dats (F := F) m 0 c) (defs₀ (F := F)) Variants.none () Set.univ := fun t => by
  rw [bigSep_W0, bigSep_W0]
  exact body_at m c t

/-! ## @main: the call, then five host operations -/

/-- None of the five allocates a buffer. -/
theorem tail_fresh : (hostOps1 : List (HloOp τ sig (Elt F))).Forall fun op => op.fresh = ∅ :=
  ⟨rfl, rfl, rfl, rfl, rfl⟩

/-- @main is the call followed by the five operations, with nothing before the call: holding every unscoped
    buffer as launched it reduces to the call continued by them, the buffers still as launched. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial (fun c => main_chain c)

/-- The buffers the five write: the four broadcast results and the concatenation. -/
def tailWritten : List (Ref sig .tc) := [main_v1, main_v2, main_v3, main_v4, main_v5]

theorem tail_writes : (hostOps1 : List (HloOp τ sig (Elt F))).Forall fun op =>
    op.writes ⊆ (tailWritten.map (Proc.devRef (τ := τ) .tc)).toFinset := by
  simp [hostOps1, List.Forall, tailWritten]

/-- A reference outside that list is written by none of them. -/
theorem tail_spares {r : Ref sig .tc} (hr : r ∉ tailWritten) :
    ∀ op ∈ (hostOps1 : List (HloOp τ sig (Elt F))), Proc.devRef .tc r ∉ op.writes := by
  intro op hop hmem
  obtain ⟨y, hy, he⟩ := List.mem_map.mp (List.mem_toFinset.mp (List.forall_iff_forall_mem.mp tail_writes op hop hmem))
  exact hr (Proc.devRef_injective _ he ▸ hy)

/-- No window's array is among the written buffers. -/
theorem arr_not_written : ∀ w : Fin 5, Pipeline.arrRef spec0 w ∉ tailWritten := by decide

/-! ## The launch -/

/-- From any memory with zero counters, every weakly fair execution of @main on the TensorCores terminates,
    and ends with each window's array at what the library computes from the proof data (an input's as it was
    entered, a result's overwritten block by block with what the body left) and every other unscoped
    buffer as the five host operations leave it. -/
theorem run_main :
    θ_run defs (onTc (τ := τ) (main (F := F))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose)
    (hshare := fun c => (dats m 0 c).share_full fun _ => rfl)
    (howed := fun _ _ => rfl)
    (V₀ := V0 m) (opss := [hostOps1])
    (hsub := fun ops hops op hop => by
      obtain rfl := List.mem_singleton.mp hops
      rw [Pipeline.tailRefs_none spec0 launch0.win.arr_unscoped]
      exact Pipeline.sub_ucRefs op (List.forall_iff_forall_mem.mp hostOps1_sub op hop))
    (hfresh := fun ops hops op hop => by
      obtain rfl := List.mem_singleton.mp hops
      exact List.forall_iff_forall_mem.mp tail_fresh op hop)
    (hkeep := fun ops hops op hop w => by
      obtain rfl := List.mem_singleton.mp hops
      exact tail_spares (arr_not_written w) op hop)
    (hmain := hmain m Variants.none) (hA := A_eq m) (hΦ := inv_eq m)

/-! ## The argument array ends as launched -/

/-- The argument array is the input window's array; an input's array is never written back, so it ends at the
    proof data's entry contents, which — nothing preceding the call — are the launch contents. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => ((h c).1 0).trans (((dats m 0 c).arrAt_in 0 rfl _).trans (A_eq m c 0)))
    (run_main m ρ)

end Cert.KernelIdeal.Hand

end
-- ==== Proof.RefOps.lean ====
/-
  The reference program's @main as the list of its host operations, the six reflect-padding
  calls unfolded at their call sites (each call: two slices, a reversal, a concatenation, two
  slices, a reversal, a concatenation, over that call's own buffers).

  @main is six stages of one shape. Stage k (k = 0 … 5) takes an input x of shape 16×1024×1024,
  pads it by reflection along axis 1 (k even) or axis 2 (k odd) by 2·2^⌊k/2⌋ on each side, and
  sums five shifted windows of the padded array, at offsets 0, d, 2d, 3d, 4d with d = 2^⌊k/2⌋,
  weighted 1/16, 1/4, 3/8, 1/4, 1/16. Stage 0 reads the argument; every later stage reads the
  result of the stage before it. After stages 1, 3 and 5 one subtraction forms the difference of the
  last two smoothed arrays (the argument itself before stage 0); the tail stacks the three differences
  and the last smoothed array along a new axis 1.
-/
import proofs.«167050_j34797825032658_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0: an unused scalar zero; `main_arg0` padded by reflection along axis 1 by 2 on each side into
    `main_v0` (the 2 entries after the first, reversed, in front; the 2 entries before the last, reversed,
    behind); then the weighted sum of its five windows at offsets 0, 1, 2, 3, 4 along that axis into
    `main_v19`. 33 operations. -/
abbrev st0 : List (HloOp τ sig (Elt F)) :=
    [ StableHlo.nullary main_c (constantI S_ 32 0#32),
      StableHlo.TRef.unary (.of main_arg0 : TRef sig ⟨S16x1024x1024, .f32⟩) main_call0.v0 (extractStridedSlice S16x1x1024 ![0, 0, 0] · slices_S16x1024x1024_S16x1x1024_0_0_0),
      StableHlo.TRef.unary (.of main_arg0 : TRef sig ⟨S16x1024x1024, .f32⟩) main_call0.v1 (extractStridedSlice S16x2x1024 ![0, 1, 0] · slices_S16x1024x1024_S16x2x1024_0_1_0),
      StableHlo.TRef.unary main_call0.v1 main_call0.call0.v0 (Host.reverse [1]),
      StableHlo.TRef.binary main_call0.call0.v0 (.of main_arg0 : TRef sig ⟨S16x1024x1024, .f32⟩) main_call0.v3 (fun a b => concatenate S16x1026x1024 1 [⟨S16x2x1024, a⟩, ⟨S16x1024x1024, b⟩] concatenates_S16x2x1024_S16x1024x1024_S16x1026x1024_d1),
      StableHlo.TRef.unary main_call0.v3 main_call0.v4 (extractStridedSlice S16x1x1024 ![0, 1025, 0] · slices_S16x1026x1024_S16x1x1024_0_1025_0),
      StableHlo.TRef.unary main_call0.v3 main_call0.v5 (extractStridedSlice S16x2x1024 ![0, 1023, 0] · slices_S16x1026x1024_S16x2x1024_0_1023_0),
      StableHlo.TRef.unary main_call0.v5 main_call0.call1.v0 (Host.reverse [1]),
      StableHlo.TRef.binary main_call0.v3 main_call0.call1.v0 main_call0.v7 (fun a b => concatenate S16x1028x1024 1 [⟨S16x1026x1024, a⟩, ⟨S16x2x1024, b⟩] concatenates_S16x1026x1024_S16x2x1024_S16x1028x1024_d1),
      StableHlo.unary main_v0 main_v1 ((extractStridedSlice S16x1024x1024 ![0, 0, 0] · slices_S16x1028x1024_S16x1024x1024_0_0_0) : (⟨S16x1028x1024, .f32⟩ : BufTy).Contents (Elt F) → (⟨S16x1024x1024, .f32⟩ : BufTy).Contents (Elt F)),
      StableHlo.nullary main_cst (constant S_ .f32 0x3D800000#32),
      StableHlo.unary main_cst main_v2 (broadcastInDim S16x1024x1024 ![] bcast_S_S16x1024x1024 : (⟨S_, .f32⟩ : BufTy).Contents (Elt F) → (⟨S16x1024x1024, .f32⟩ : BufTy).Contents (Elt F)),
      StableHlo.binary main_v2 main_v1 main_v3 (mulf : (⟨S16x1024x1024, .f32⟩ : BufTy).Contents (Elt F) → (⟨S16x1024x1024, .f32⟩ : BufTy).Contents (Elt F) → (⟨S16x1024x1024, .f32⟩ : BufTy).Contents (Elt F)),
      StableHlo.unary main_v0 main_v4 ((extractStridedSlice S16x1024x1024 ![0, 1, 0] · slices_S16x1028x1024_S16x1024x1024_0_1_0) : (⟨S16x1028x1024, .f32⟩ : BufTy).Contents (Elt F) → (⟨S16x1024x1024, .f32⟩ : BufTy).Contents (Elt F)),
      StableHlo.nullary main_cst_0 (constant S_ .f32 0x3E800000#32),
      StableHlo.unary main_cst_0 main_v5 (broadcastInDim S16x1024x1024 ![] bcast_S_S16x1024x1024 : (⟨S_, .f32⟩ : BufTy).Contents (Elt F) → (⟨S16x1024x1024, .f32⟩ : BufTy).Contents (Elt F)),
      StableHlo.binary main_v5 main_v4 main_v6 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v3 main_v6 main_v7 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v0 main_v8 ((extractStridedSlice S16x1024x1024 ![0, 2, 0] · slices_S16x1028x1024_S16x1024x1024_0_2_0) : (⟨S16x1028x1024, .f32⟩ : BufTy).Contents (Elt F) → (⟨S16x1024x1024, .f32⟩ : BufTy).Contents (Elt F)),
      StableHlo.nullary main_cst_1 (constant S_ .f32 0x3EC00000#32),
      StableHlo.unary main_cst_1 main_v9 (broadcastInDim S16x1024x1024 ![] bcast_S_S16x1024x1024 : (⟨S_, .f32⟩ : BufTy).Contents (Elt F) → (⟨S16x1024x1024, .f32⟩ : BufTy).Contents (Elt F)),
      StableHlo.binary main_v9 main_v8 main_v10 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v7 main_v10 main_v11 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v0 main_v12 ((extractStridedSlice S16x1024x1024 ![0, 3, 0] · slices_S16x1028x1024_S16x1024x1024_0_3_0) : (⟨S16x1028x1024, .f32⟩ : BufTy).Contents (Elt F) → (⟨S16x1024x1024, .f32⟩ : BufTy).Contents (Elt F)),
      StableHlo.nullary main_cst_2 (constant S_ .f32 0x3E800000#32),
      StableHlo.unary main_cst_2 main_v13 (broadcastInDim S16x1024x1024 ![] bcast_S_S16x1024x1024 : (⟨S_, .f32⟩ : BufTy).Contents (Elt F) → (⟨S16x1024x1024, .f32⟩ : BufTy).Contents (Elt F)),
      StableHlo.binary main_v13 main_v12 main_v14 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v11 main_v14 main_v15 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v0 main_v16 ((extractStridedSlice S16x1024x1024 ![0, 4, 0] · slices_S16x1028x1024_S16x1024x1024_0_4_0) : (⟨S16x1028x1024, .f32⟩ : BufTy).Contents (Elt F) → (⟨S16x1024x1024, .f32⟩ : BufTy).Contents (Elt F)),
      StableHlo.nullary main_cst_3 (constant S_ .f32 0x3D800000#32),
      StableHlo.unary main_cst_3 main_v17 (broadcastInDim S16x1024x1024 ![] bcast_S_S16x1024x1024 : (⟨S_, .f32⟩ : BufTy).Contents (Elt F) → (⟨S16x1024x1024, .f32⟩ : BufTy).Contents (Elt F)),
      StableHlo.binary main_v17 main_v16 main_v18 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v15 main_v18 main_v19 (addf : (⟨S16x1024x1024, .f32⟩ : BufTy).Contents (Elt F) → (⟨S16x1024x1024, .f32⟩ : BufTy).Contents (Elt F) → (⟨S16x1024x1024, .f32⟩ : BufTy).Contents (Elt F)) ]

/-- Stage 1: an unused scalar zero; `main_v19` padded by reflection along axis 2 by 2 on each side into
    `main_v20` (the 2 entries after the first, reversed, in front; the 2 entries before the last, reversed,
    behind); then the weighted sum of its five windows at offsets 0, 1, 2, 3, 4 along that axis into
    `main_v39`. 33 operations. -/
abbrev st1 : List (HloOp τ sig (Elt F)) :=
    [ StableHlo.nullary main_c_4 (constantI S_ 32 0#32),
      StableHlo.TRef.unary (.of main_v19 : TRef sig ⟨S16x1024x1024, .f32⟩) main_call1.v0 (extractStridedSlice S16x1024x1 ![0, 0, 0] · slices_S16x1024x1024_S16x1024x1_0_0_0),
      StableHlo.TRef.unary (.of main_v19 : TRef sig ⟨S16x1024x1024, .f32⟩) main_call1.v1 (extractStridedSlice S16x1024x2 ![0, 0, 1] · slices_S16x1024x1024_S16x1024x2_0_0_1),
      StableHlo.TRef.unary main_call1.v1 main_call1.call0.v0 (Host.reverse [2]),
      StableHlo.TRef.binary main_call1.call0.v0 (.of main_v19 : TRef sig ⟨S16x1024x1024, .f32⟩) main_call1.v3 (fun a b => concatenate S16x1024x1026 2 [⟨S16x1024x2, a⟩, ⟨S16x1024x1024, b⟩] concatenates_S16x1024x2_S16x1024x1024_S16x1024x1026_d2),
      StableHlo.TRef.unary main_call1.v3 main_call1.v4 (extractStridedSlice S16x1024x1 ![0, 0, 1025] · slices_S16x1024x1026_S16x1024x1_0_0_1025),
      StableHlo.TRef.unary main_call1.v3 main_call1.v5 (extractStridedSlice S16x1024x2 ![0, 0, 1023] · slices_S16x1024x1026_S16x1024x2_0_0_1023),
      StableHlo.TRef.unary main_call1.v5 main_call1.call1.v0 (Host.reverse [2]),
      StableHlo.TRef.binary main_call1.v3 main_call1.call1.v0 main_call1.v7 (fun a b => concatenate S16x1024x1028 2 [⟨S16x1024x1026, a⟩, ⟨S16x1024x2, b⟩] concatenates_S16x1024x1026_S16x1024x2_S16x1024x1028_d2),
      StableHlo.unary main_v20 main_v21 ((extractStridedSlice S16x1024x1024 ![0, 0, 0] · slices_S16x1024x1028_S16x1024x1024_0_0_0) : (⟨S16x1024x1028, .f32⟩ : BufTy).Contents (Elt F) → (⟨S16x1024x1024, .f32⟩ : BufTy).Contents (Elt F)),
      StableHlo.nullary main_cst_5 (constant S_ .f32 0x3D800000#32),
      StableHlo.unary main_cst_5 main_v22 (broadcastInDim S16x1024x1024 ![] bcast_S_S16x1024x1024 : (⟨S_, .f32⟩ : BufTy).Contents (Elt F) → (⟨S16x1024x1024, .f32⟩ : BufTy).Contents (Elt F)),
      StableHlo.binary main_v22 main_v21 main_v23 (mulf : (⟨S16x1024x1024, .f32⟩ : BufTy).Contents (Elt F) → (⟨S16x1024x1024, .f32⟩ : BufTy).Contents (Elt F) → (⟨S16x1024x1024, .f32⟩ : BufTy).Contents (Elt F)),
      StableHlo.unary main_v20 main_v24 ((extractStridedSlice S16x1024x1024 ![0, 0, 1] · slices_S16x1024x1028_S16x1024x1024_0_0_1) : (⟨S16x1024x1028, .f32⟩ : BufTy).Contents (Elt F) → (⟨S16x1024x1024, .f32⟩ : BufTy).Contents (Elt F)),
      StableHlo.nullary main_cst_6 (constant S_ .f32 0x3E800000#32),
      StableHlo.unary main_cst_6 main_v25 (broadcastInDim S16x1024x1024 ![] bcast_S_S16x1024x1024 : (⟨S_, .f32⟩ : BufTy).Contents (Elt F) → (⟨S16x1024x1024, .f32⟩ : BufTy).Contents (Elt F)),
      StableHlo.binary main_v25 main_v24 main_v26 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v23 main_v26 main_v27 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v20 main_v28 ((extractStridedSlice S16x1024x1024 ![0, 0, 2] · slices_S16x1024x1028_S16x1024x1024_0_0_2) : (⟨S16x1024x1028, .f32⟩ : BufTy).Contents (Elt F) → (⟨S16x1024x1024, .f32⟩ : BufTy).Contents (Elt F)),
      StableHlo.nullary main_cst_7 (constant S_ .f32 0x3EC00000#32),
      StableHlo.unary main_cst_7 main_v29 (broadcastInDim S16x1024x1024 ![] bcast_S_S16x1024x1024 : (⟨S_, .f32⟩ : BufTy).Contents (Elt F) → (⟨S16x1024x1024, .f32⟩ : BufTy).Contents (Elt F)),
      StableHlo.binary main_v29 main_v28 main_v30 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v27 main_v30 main_v31 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v20 main_v32 ((extractStridedSlice S16x1024x1024 ![0, 0, 3] · slices_S16x1024x1028_S16x1024x1024_0_0_3) : (⟨S16x1024x1028, .f32⟩ : BufTy).Contents (Elt F) → (⟨S16x1024x1024, .f32⟩ : BufTy).Contents (Elt F)),
      StableHlo.nullary main_cst_8 (constant S_ .f32 0x3E800000#32),
      StableHlo.unary main_cst_8 main_v33 (broadcastInDim S16x1024x1024 ![] bcast_S_S16x1024x1024 : (⟨S_, .f32⟩ : BufTy).Contents (Elt F) → (⟨S16x1024x1024, .f32⟩ : BufTy).Contents (Elt F)),
      StableHlo.binary main_v33 main_v32 main_v34 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v31 main_v34 main_v35 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v20 main_v36 ((extractStridedSlice S16x1024x1024 ![0, 0, 4] · slices_S16x1024x1028_S16x1024x1024_0_0_4) : (⟨S16x1024x1028, .f32⟩ : BufTy).Contents (Elt F) → (⟨S16x1024x1024, .f32⟩ : BufTy).Contents (Elt F)),
      StableHlo.nullary main_cst_9 (constant S_ .f32 0x3D800000#32),
      StableHlo.unary main_cst_9 main_v37 (broadcastInDim S16x1024x1024 ![] bcast_S_S16x1024x1024 : (⟨S_, .f32⟩ : BufTy).Contents (Elt F) → (⟨S16x1024x1024, .f32⟩ : BufTy).Contents (Elt F)),
      StableHlo.binary main_v37 main_v36 main_v38 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v35 main_v38 main_v39 (addf : (⟨S16x1024x1024, .f32⟩ : BufTy).Contents (Elt F) → (⟨S16x1024x1024, .f32⟩ : BufTy).Contents (Elt F) → (⟨S16x1024x1024, .f32⟩ : BufTy).Contents (Elt F)) ]

/-- Stage 2: an unused scalar zero; `main_v39` padded by reflection along axis 1 by 4 on each side into
    `main_v41` (the 4 entries after the first, reversed, in front; the 4 entries before the last, reversed,
    behind); then the weighted sum of its five windows at offsets 0, 2, 4, 6, 8 along that axis into
    `main_v60`. 33 operations. -/
abbrev st2 : List (HloOp τ sig (Elt F)) :=
    [ StableHlo.nullary main_c_10 (constantI S_ 32 0#32),
      StableHlo.TRef.unary (.of main_v39 : TRef sig ⟨S16x1024x1024, .f32⟩) main_call2.v0 (extractStridedSlice S16x1x1024 ![0, 0, 0] · slices_S16x1024x1024_S16x1x1024_0_0_0),
      StableHlo.TRef.unary (.of main_v39 : TRef sig ⟨S16x1024x1024, .f32⟩) main_call2.v1 (extractStridedSlice S16x4x1024 ![0, 1, 0] · slices_S16x1024x1024_S16x4x1024_0_1_0),
      StableHlo.TRef.unary main_call2.v1 main_call2.call0.v0 (Host.reverse [1]),
      StableHlo.TRef.binary main_call2.call0.v0 (.of main_v39 : TRef sig ⟨S16x1024x1024, .f32⟩) main_call2.v3 (fun a b => concatenate S16x1028x1024 1 [⟨S16x4x1024, a⟩, ⟨S16x1024x1024, b⟩] concatenates_S16x4x1024_S16x1024x1024_S16x1028x1024_d1),
      StableHlo.TRef.unary main_call2.v3 main_call2.v4 (extractStridedSlice S16x1x1024 ![0, 1027, 0] · slices_S16x1028x1024_S16x1x1024_0_1027_0),
      StableHlo.TRef.unary main_call2.v3 main_call2.v5 (extractStridedSlice S16x4x1024 ![0, 1023, 0] · slices_S16x1028x1024_S16x4x1024_0_1023_0),
      StableHlo.TRef.unary main_call2.v5 main_call2.call1.v0 (Host.reverse [1]),
      StableHlo.TRef.binary main_call2.v3 main_call2.call1.v0 main_call2.v7 (fun a b => concatenate S16x1032x1024 1 [⟨S16x1028x1024, a⟩, ⟨S16x4x1024, b⟩] concatenates_S16x1028x1024_S16x4x1024_S16x1032x1024_d1),
      StableHlo.unary main_v41 main_v42 ((extractStridedSlice S16x1024x1024 ![0, 0, 0] · slices_S16x1032x1024_S16x1024x1024_0_0_0) : (⟨S16x1032x1024, .f32⟩ : BufTy).Contents (Elt F) → (⟨S16x1024x1024, .f32⟩ : BufTy).Contents (Elt F)),
      StableHlo.nullary main_cst_11 (constant S_ .f32 0x3D800000#32),
      StableHlo.unary main_cst_11 main_v43 (broadcastInDim S16x1024x1024 ![] bcast_S_S16x1024x1024 : (⟨S_, .f32⟩ : BufTy).Contents (Elt F) → (⟨S16x1024x1024, .f32⟩ : BufTy).Contents (Elt F)),
      StableHlo.binary main_v43 main_v42 main_v44 (mulf : (⟨S16x1024x1024, .f32⟩ : BufTy).Contents (Elt F) → (⟨S16x1024x1024, .f32⟩ : BufTy).Contents (Elt F) → (⟨S16x1024x1024, .f32⟩ : BufTy).Contents (Elt F)),
      StableHlo.unary main_v41 main_v45 ((extractStridedSlice S16x1024x1024 ![0, 2, 0] · slices_S16x1032x1024_S16x1024x1024_0_2_0) : (⟨S16x1032x1024, .f32⟩ : BufTy).Contents (Elt F) → (⟨S16x1024x1024, .f32⟩ : BufTy).Contents (Elt F)),
      StableHlo.nullary main_cst_12 (constant S_ .f32 0x3E800000#32),
      StableHlo.unary main_cst_12 main_v46 (broadcastInDim S16x1024x1024 ![] bcast_S_S16x1024x1024 : (⟨S_, .f32⟩ : BufTy).Contents (Elt F) → (⟨S16x1024x1024, .f32⟩ : BufTy).Contents (Elt F)),
      StableHlo.binary main_v46 main_v45 main_v47 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v44 main_v47 main_v48 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v41 main_v49 ((extractStridedSlice S16x1024x1024 ![0, 4, 0] · slices_S16x1032x1024_S16x1024x1024_0_4_0) : (⟨S16x1032x1024, .f32⟩ : BufTy).Contents (Elt F) → (⟨S16x1024x1024, .f32⟩ : BufTy).Contents (Elt F)),
      StableHlo.nullary main_cst_13 (constant S_ .f32 0x3EC00000#32),
      StableHlo.unary main_cst_13 main_v50 (broadcastInDim S16x1024x1024 ![] bcast_S_S16x1024x1024 : (⟨S_, .f32⟩ : BufTy).Contents (Elt F) → (⟨S16x1024x1024, .f32⟩ : BufTy).Contents (Elt F)),
      StableHlo.binary main_v50 main_v49 main_v51 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v48 main_v51 main_v52 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v41 main_v53 ((extractStridedSlice S16x1024x1024 ![0, 6, 0] · slices_S16x1032x1024_S16x1024x1024_0_6_0) : (⟨S16x1032x1024, .f32⟩ : BufTy).Contents (Elt F) → (⟨S16x1024x1024, .f32⟩ : BufTy).Contents (Elt F)),
      StableHlo.nullary main_cst_14 (constant S_ .f32 0x3E800000#32),
      StableHlo.unary main_cst_14 main_v54 (broadcastInDim S16x1024x1024 ![] bcast_S_S16x1024x1024 : (⟨S_, .f32⟩ : BufTy).Contents (Elt F) → (⟨S16x1024x1024, .f32⟩ : BufTy).Contents (Elt F)),
      StableHlo.binary main_v54 main_v53 main_v55 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v52 main_v55 main_v56 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v41 main_v57 ((extractStridedSlice S16x1024x1024 ![0, 8, 0] · slices_S16x1032x1024_S16x1024x1024_0_8_0) : (⟨S16x1032x1024, .f32⟩ : BufTy).Contents (Elt F) → (⟨S16x1024x1024, .f32⟩ : BufTy).Contents (Elt F)),
      StableHlo.nullary main_cst_15 (constant S_ .f32 0x3D800000#32),
      StableHlo.unary main_cst_15 main_v58 (broadcastInDim S16x1024x1024 ![] bcast_S_S16x1024x1024 : (⟨S_, .f32⟩ : BufTy).Contents (Elt F) → (⟨S16x1024x1024, .f32⟩ : BufTy).Contents (Elt F)),
      StableHlo.binary main_v58 main_v57 main_v59 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v56 main_v59 main_v60 (addf : (⟨S16x1024x1024, .f32⟩ : BufTy).Contents (Elt F) → (⟨S16x1024x1024, .f32⟩ : BufTy).Contents (Elt F) → (⟨S16x1024x1024, .f32⟩ : BufTy).Contents (Elt F)) ]

/-- Stage 3: an unused scalar zero; `main_v60` padded by reflection along axis 2 by 4 on each side into
    `main_v61` (the 4 entries after the first, reversed, in front; the 4 entries before the last, reversed,
    behind); then the weighted sum of its five windows at offsets 0, 2, 4, 6, 8 along that axis into
    `main_v80`. 33 operations. -/
abbrev st3 : List (HloOp τ sig (Elt F)) :=
    [ StableHlo.nullary main_c_16 (constantI S_ 32 0#32),
      StableHlo.TRef.unary (.of main_v60 : TRef sig ⟨S16x1024x1024, .f32⟩) main_call3.v0 (extractStridedSlice S16x1024x1 ![0, 0, 0] · slices_S16x1024x1024_S16x1024x1_0_0_0),
      StableHlo.TRef.unary (.of main_v60 : TRef sig ⟨S16x1024x1024, .f32⟩) main_call3.v1 (extractStridedSlice S16x1024x4 ![0, 0, 1] · slices_S16x1024x1024_S16x1024x4_0_0_1),
      StableHlo.TRef.unary main_call3.v1 main_call3.call0.v0 (Host.reverse [2]),
      StableHlo.TRef.binary main_call3.call0.v0 (.of main_v60 : TRef sig ⟨S16x1024x1024, .f32⟩) main_call3.v3 (fun a b => concatenate S16x1024x1028 2 [⟨S16x1024x4, a⟩, ⟨S16x1024x1024, b⟩] concatenates_S16x1024x4_S16x1024x1024_S16x1024x1028_d2),
      StableHlo.TRef.unary main_call3.v3 main_call3.v4 (extractStridedSlice S16x1024x1 ![0, 0, 1027] · slices_S16x1024x1028_S16x1024x1_0_0_1027),
      StableHlo.TRef.unary main_call3.v3 main_call3.v5 (extractStridedSlice S16x1024x4 ![0, 0, 1023] · slices_S16x1024x1028_S16x1024x4_0_0_1023),
      StableHlo.TRef.unary main_call3.v5 main_call3.call1.v0 (Host.reverse [2]),
      StableHlo.TRef.binary main_call3.v3 main_call3.call1.v0 main_call3.v7 (fun a b => concatenate S16x1024x1032 2 [⟨S16x1024x1028, a⟩, ⟨S16x1024x4, b⟩] concatenates_S16x1024x1028_S16x1024x4_S16x1024x1032_d2),
      StableHlo.unary main_v61 main_v62 ((extractStridedSlice S16x1024x1024 ![0, 0, 0] · slices_S16x1024x1032_S16x1024x1024_0_0_0) : (⟨S16x1024x1032, .f32⟩ : BufTy).Contents (Elt F) → (⟨S16x1024x1024, .f32⟩ : BufTy).Contents (Elt F)),
      StableHlo.nullary main_cst_17 (constant S_ .f32 0x3D800000#32),
      StableHlo.unary main_cst_17 main_v63 (broadcastInDim S16x1024x1024 ![] bcast_S_S16x1024x1024 : (⟨S_, .f32⟩ : BufTy).Contents (Elt F) → (⟨S16x1024x1024, .f32⟩ : BufTy).Contents (Elt F)),
      StableHlo.binary main_v63 main_v62 main_v64 (mulf : (⟨S16x1024x1024, .f32⟩ : BufTy).Contents (Elt F) → (⟨S16x1024x1024, .f32⟩ : BufTy).Contents (Elt F) → (⟨S16x1024x1024, .f32⟩ : BufTy).Contents (Elt F)),
      StableHlo.unary main_v61 main_v65 ((extractStridedSlice S16x1024x1024 ![0, 0, 2] · slices_S16x1024x1032_S16x1024x1024_0_0_2) : (⟨S16x1024x1032, .f32⟩ : BufTy).Contents (Elt F) → (⟨S16x1024x1024, .f32⟩ : BufTy).Contents (Elt F)),
      StableHlo.nullary main_cst_18 (constant S_ .f32 0x3E800000#32),
      StableHlo.unary main_cst_18 main_v66 (broadcastInDim S16x1024x1024 ![] bcast_S_S16x1024x1024 : (⟨S_, .f32⟩ : BufTy).Contents (Elt F) → (⟨S16x1024x1024, .f32⟩ : BufTy).Contents (Elt F)),
      StableHlo.binary main_v66 main_v65 main_v67 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v64 main_v67 main_v68 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v61 main_v69 ((extractStridedSlice S16x1024x1024 ![0, 0, 4] · slices_S16x1024x1032_S16x1024x1024_0_0_4) : (⟨S16x1024x1032, .f32⟩ : BufTy).Contents (Elt F) → (⟨S16x1024x1024, .f32⟩ : BufTy).Contents (Elt F)),
      StableHlo.nullary main_cst_19 (constant S_ .f32 0x3EC00000#32),
      StableHlo.unary main_cst_19 main_v70 (broadcastInDim S16x1024x1024 ![] bcast_S_S16x1024x1024 : (⟨S_, .f32⟩ : BufTy).Contents (Elt F) → (⟨S16x1024x1024, .f32⟩ : BufTy).Contents (Elt F)),
      StableHlo.binary main_v70 main_v69 main_v71 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v68 main_v71 main_v72 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v61 main_v73 ((extractStridedSlice S16x1024x1024 ![0, 0, 6] · slices_S16x1024x1032_S16x1024x1024_0_0_6) : (⟨S16x1024x1032, .f32⟩ : BufTy).Contents (Elt F) → (⟨S16x1024x1024, .f32⟩ : BufTy).Contents (Elt F)),
      StableHlo.nullary main_cst_20 (constant S_ .f32 0x3E800000#32),
      StableHlo.unary main_cst_20 main_v74 (broadcastInDim S16x1024x1024 ![] bcast_S_S16x1024x1024 : (⟨S_, .f32⟩ : BufTy).Contents (Elt F) → (⟨S16x1024x1024, .f32⟩ : BufTy).Contents (Elt F)),
      StableHlo.binary main_v74 main_v73 main_v75 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v72 main_v75 main_v76 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v61 main_v77 ((extractStridedSlice S16x1024x1024 ![0, 0, 8] · slices_S16x1024x1032_S16x1024x1024_0_0_8) : (⟨S16x1024x1032, .f32⟩ : BufTy).Contents (Elt F) → (⟨S16x1024x1024, .f32⟩ : BufTy).Contents (Elt F)),
      StableHlo.nullary main_cst_21 (constant S_ .f32 0x3D800000#32),
      StableHlo.unary main_cst_21 main_v78 (broadcastInDim S16x1024x1024 ![] bcast_S_S16x1024x1024 : (⟨S_, .f32⟩ : BufTy).Contents (Elt F) → (⟨S16x1024x1024, .f32⟩ : BufTy).Contents (Elt F)),
      StableHlo.binary main_v78 main_v77 main_v79 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v76 main_v79 main_v80 (addf : (⟨S16x1024x1024, .f32⟩ : BufTy).Contents (Elt F) → (⟨S16x1024x1024, .f32⟩ : BufTy).Contents (Elt F) → (⟨S16x1024x1024, .f32⟩ : BufTy).Contents (Elt F)) ]

/-- Stage 4: an unused scalar zero; `main_v80` padded by reflection along axis 1 by 8 on each side into
    `main_v82` (the 8 entries after the first, reversed, in front; the 8 entries before the last, reversed,
    behind); then the weighted sum of its five windows at offsets 0, 4, 8, 12, 16 along that axis into
    `main_v101`. 33 operations. -/
abbrev st4 : List (HloOp τ sig (Elt F)) :=
    [ StableHlo.nullary main_c_22 (constantI S_ 32 0#32),
      StableHlo.TRef.unary (.of main_v80 : TRef sig ⟨S16x1024x1024, .f32⟩) main_call4.v0 (extractStridedSlice S16x1x1024 ![0, 0, 0] · slices_S16x1024x1024_S16x1x1024_0_0_0),
      StableHlo.TRef.unary (.of main_v80 : TRef sig ⟨S16x1024x1024, .f32⟩) main_call4.v1 (extractStridedSlice S16x8x1024 ![0, 1, 0] · slices_S16x1024x1024_S16x8x1024_0_1_0),
      StableHlo.TRef.unary main_call4.v1 main_call4.call0.v0 (Host.reverse [1]),
      StableHlo.TRef.binary main_call4.call0.v0 (.of main_v80 : TRef sig ⟨S16x1024x1024, .f32⟩) main_call4.v3 (fun a b => concatenate S16x1032x1024 1 [⟨S16x8x1024, a⟩, ⟨S16x1024x1024, b⟩] concatenates_S16x8x1024_S16x1024x1024_S16x1032x1024_d1),
      StableHlo.TRef.unary main_call4.v3 main_call4.v4 (extractStridedSlice S16x1x1024 ![0, 1031, 0] · slices_S16x1032x1024_S16x1x1024_0_1031_0),
      StableHlo.TRef.unary main_call4.v3 main_call4.v5 (extractStridedSlice S16x8x1024 ![0, 1023, 0] · slices_S16x1032x1024_S16x8x1024_0_1023_0),
      StableHlo.TRef.unary main_call4.v5 main_call4.call1.v0 (Host.reverse [1]),
      StableHlo.TRef.binary main_call4.v3 main_call4.call1.v0 main_call4.v7 (fun a b => concatenate S16x1040x1024 1 [⟨S16x1032x1024, a⟩, ⟨S16x8x1024, b⟩] concatenates_S16x1032x1024_S16x8x1024_S16x1040x1024_d1),
      StableHlo.unary main_v82 main_v83 ((extractStridedSlice S16x1024x1024 ![0, 0, 0] · slices_S16x1040x1024_S16x1024x1024_0_0_0) : (⟨S16x1040x1024, .f32⟩ : BufTy).Contents (Elt F) → (⟨S16x1024x1024, .f32⟩ : BufTy).Contents (Elt F)),
      StableHlo.nullary main_cst_23 (constant S_ .f32 0x3D800000#32),
      StableHlo.unary main_cst_23 main_v84 (broadcastInDim S16x1024x1024 ![] bcast_S_S16x1024x1024 : (⟨S_, .f32⟩ : BufTy).Contents (Elt F) → (⟨S16x1024x1024, .f32⟩ : BufTy).Contents (Elt F)),
      StableHlo.binary main_v84 main_v83 main_v85 (mulf : (⟨S16x1024x1024, .f32⟩ : BufTy).Contents (Elt F) → (⟨S16x1024x1024, .f32⟩ : BufTy).Contents (Elt F) → (⟨S16x1024x1024, .f32⟩ : BufTy).Contents (Elt F)),
      StableHlo.unary main_v82 main_v86 ((extractStridedSlice S16x1024x1024 ![0, 4, 0] · slices_S16x1040x1024_S16x1024x1024_0_4_0) : (⟨S16x1040x1024, .f32⟩ : BufTy).Contents (Elt F) → (⟨S16x1024x1024, .f32⟩ : BufTy).Contents (Elt F)),
      StableHlo.nullary main_cst_24 (constant S_ .f32 0x3E800000#32),
      StableHlo.unary main_cst_24 main_v87 (broadcastInDim S16x1024x1024 ![] bcast_S_S16x1024x1024 : (⟨S_, .f32⟩ : BufTy).Contents (Elt F) → (⟨S16x1024x1024, .f32⟩ : BufTy).Contents (Elt F)),
      StableHlo.binary main_v87 main_v86 main_v88 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v85 main_v88 main_v89 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v82 main_v90 ((extractStridedSlice S16x1024x1024 ![0, 8, 0] · slices_S16x1040x1024_S16x1024x1024_0_8_0) : (⟨S16x1040x1024, .f32⟩ : BufTy).Contents (Elt F) → (⟨S16x1024x1024, .f32⟩ : BufTy).Contents (Elt F)),
      StableHlo.nullary main_cst_25 (constant S_ .f32 0x3EC00000#32),
      StableHlo.unary main_cst_25 main_v91 (broadcastInDim S16x1024x1024 ![] bcast_S_S16x1024x1024 : (⟨S_, .f32⟩ : BufTy).Contents (Elt F) → (⟨S16x1024x1024, .f32⟩ : BufTy).Contents (Elt F)),
      StableHlo.binary main_v91 main_v90 main_v92 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v89 main_v92 main_v93 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v82 main_v94 ((extractStridedSlice S16x1024x1024 ![0, 12, 0] · slices_S16x1040x1024_S16x1024x1024_0_12_0) : (⟨S16x1040x1024, .f32⟩ : BufTy).Contents (Elt F) → (⟨S16x1024x1024, .f32⟩ : BufTy).Contents (Elt F)),
      StableHlo.nullary main_cst_26 (constant S_ .f32 0x3E800000#32),
      StableHlo.unary main_cst_26 main_v95 (broadcastInDim S16x1024x1024 ![] bcast_S_S16x1024x1024 : (⟨S_, .f32⟩ : BufTy).Contents (Elt F) → (⟨S16x1024x1024, .f32⟩ : BufTy).Contents (Elt F)),
      StableHlo.binary main_v95 main_v94 main_v96 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v93 main_v96 main_v97 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v82 main_v98 ((extractStridedSlice S16x1024x1024 ![0, 16, 0] · slices_S16x1040x1024_S16x1024x1024_0_16_0) : (⟨S16x1040x1024, .f32⟩ : BufTy).Contents (Elt F) → (⟨S16x1024x1024, .f32⟩ : BufTy).Contents (Elt F)),
      StableHlo.nullary main_cst_27 (constant S_ .f32 0x3D800000#32),
      StableHlo.unary main_cst_27 main_v99 (broadcastInDim S16x1024x1024 ![] bcast_S_S16x1024x1024 : (⟨S_, .f32⟩ : BufTy).Contents (Elt F) → (⟨S16x1024x1024, .f32⟩ : BufTy).Contents (Elt F)),
      StableHlo.binary main_v99 main_v98 main_v100 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v97 main_v100 main_v101 (addf : (⟨S16x1024x1024, .f32⟩ : BufTy).Contents (Elt F) → (⟨S16x1024x1024, .f32⟩ : BufTy).Contents (Elt F) → (⟨S16x1024x1024, .f32⟩ : BufTy).Contents (Elt F)) ]

/-- Stage 5: an unused scalar zero; `main_v101` padded by reflection along axis 2 by 8 on each side into
    `main_v102` (the 8 entries after the first, reversed, in front; the 8 entries before the last, reversed,
    behind); then the weighted sum of its five windows at offsets 0, 4, 8, 12, 16 along that axis into
    `main_v121`. 33 operations. -/
abbrev st5 : List (HloOp τ sig (Elt F)) :=
    [ StableHlo.nullary main_c_28 (constantI S_ 32 0#32),
      StableHlo.TRef.unary (.of main_v101 : TRef sig ⟨S16x1024x1024, .f32⟩) main_call5.v0 (extractStridedSlice S16x1024x1 ![0, 0, 0] · slices_S16x1024x1024_S16x1024x1_0_0_0),
      StableHlo.TRef.unary (.of main_v101 : TRef sig ⟨S16x1024x1024, .f32⟩) main_call5.v1 (extractStridedSlice S16x1024x8 ![0, 0, 1] · slices_S16x1024x1024_S16x1024x8_0_0_1),
      StableHlo.TRef.unary main_call5.v1 main_call5.call0.v0 (Host.reverse [2]),
      StableHlo.TRef.binary main_call5.call0.v0 (.of main_v101 : TRef sig ⟨S16x1024x1024, .f32⟩) main_call5.v3 (fun a b => concatenate S16x1024x1032 2 [⟨S16x1024x8, a⟩, ⟨S16x1024x1024, b⟩] concatenates_S16x1024x8_S16x1024x1024_S16x1024x1032_d2),
      StableHlo.TRef.unary main_call5.v3 main_call5.v4 (extractStridedSlice S16x1024x1 ![0, 0, 1031] · slices_S16x1024x1032_S16x1024x1_0_0_1031),
      StableHlo.TRef.unary main_call5.v3 main_call5.v5 (extractStridedSlice S16x1024x8 ![0, 0, 1023] · slices_S16x1024x1032_S16x1024x8_0_0_1023),
      StableHlo.TRef.unary main_call5.v5 main_call5.call1.v0 (Host.reverse [2]),
      StableHlo.TRef.binary main_call5.v3 main_call5.call1.v0 main_call5.v7 (fun a b => concatenate S16x1024x1040 2 [⟨S16x1024x1032, a⟩, ⟨S16x1024x8, b⟩] concatenates_S16x1024x1032_S16x1024x8_S16x1024x1040_d2),
      StableHlo.unary main_v102 main_v103 ((extractStridedSlice S16x1024x1024 ![0, 0, 0] · slices_S16x1024x1040_S16x1024x1024_0_0_0) : (⟨S16x1024x1040, .f32⟩ : BufTy).Contents (Elt F) → (⟨S16x1024x1024, .f32⟩ : BufTy).Contents (Elt F)),
      StableHlo.nullary main_cst_29 (constant S_ .f32 0x3D800000#32),
      StableHlo.unary main_cst_29 main_v104 (broadcastInDim S16x1024x1024 ![] bcast_S_S16x1024x1024 : (⟨S_, .f32⟩ : BufTy).Contents (Elt F) → (⟨S16x1024x1024, .f32⟩ : BufTy).Contents (Elt F)),
      StableHlo.binary main_v104 main_v103 main_v105 (mulf : (⟨S16x1024x1024, .f32⟩ : BufTy).Contents (Elt F) → (⟨S16x1024x1024, .f32⟩ : BufTy).Contents (Elt F) → (⟨S16x1024x1024, .f32⟩ : BufTy).Contents (Elt F)),
      StableHlo.unary main_v102 main_v106 ((extractStridedSlice S16x1024x1024 ![0, 0, 4] · slices_S16x1024x1040_S16x1024x1024_0_0_4) : (⟨S16x1024x1040, .f32⟩ : BufTy).Contents (Elt F) → (⟨S16x1024x1024, .f32⟩ : BufTy).Contents (Elt F)),
      StableHlo.nullary main_cst_30 (constant S_ .f32 0x3E800000#32),
      StableHlo.unary main_cst_30 main_v107 (broadcastInDim S16x1024x1024 ![] bcast_S_S16x1024x1024 : (⟨S_, .f32⟩ : BufTy).Contents (Elt F) → (⟨S16x1024x1024, .f32⟩ : BufTy).Contents (Elt F)),
      StableHlo.binary main_v107 main_v106 main_v108 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v105 main_v108 main_v109 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v102 main_v110 ((extractStridedSlice S16x1024x1024 ![0, 0, 8] · slices_S16x1024x1040_S16x1024x1024_0_0_8) : (⟨S16x1024x1040, .f32⟩ : BufTy).Contents (Elt F) → (⟨S16x1024x1024, .f32⟩ : BufTy).Contents (Elt F)),
      StableHlo.nullary main_cst_31 (constant S_ .f32 0x3EC00000#32),
      StableHlo.unary main_cst_31 main_v111 (broadcastInDim S16x1024x1024 ![] bcast_S_S16x1024x1024 : (⟨S_, .f32⟩ : BufTy).Contents (Elt F) → (⟨S16x1024x1024, .f32⟩ : BufTy).Contents (Elt F)),
      StableHlo.binary main_v111 main_v110 main_v112 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v109 main_v112 main_v113 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v102 main_v114 ((extractStridedSlice S16x1024x1024 ![0, 0, 12] · slices_S16x1024x1040_S16x1024x1024_0_0_12) : (⟨S16x1024x1040, .f32⟩ : BufTy).Contents (Elt F) → (⟨S16x1024x1024, .f32⟩ : BufTy).Contents (Elt F)),
      StableHlo.nullary main_cst_32 (constant S_ .f32 0x3E800000#32),
      StableHlo.unary main_cst_32 main_v115 (broadcastInDim S16x1024x1024 ![] bcast_S_S16x1024x1024 : (⟨S_, .f32⟩ : BufTy).Contents (Elt F) → (⟨S16x1024x1024, .f32⟩ : BufTy).Contents (Elt F)),
      StableHlo.binary main_v115 main_v114 main_v116 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v113 main_v116 main_v117 (addf : (⟨S16x1024x1024, .f32⟩ : BufTy).Contents (Elt F) → (⟨S16x1024x1024, .f32⟩ : BufTy).Contents (Elt F) → (⟨S16x1024x1024, .f32⟩ : BufTy).Contents (Elt F)),
      StableHlo.unary main_v102 main_v118 ((extractStridedSlice S16x1024x1024 ![0, 0, 16] · slices_S16x1024x1040_S16x1024x1024_0_0_16) : (⟨S16x1024x1040, .f32⟩ : BufTy).Contents (Elt F) → (⟨S16x1024x1024, .f32⟩ : BufTy).Contents (Elt F)),
      StableHlo.nullary main_cst_33 (constant S_ .f32 0x3D800000#32),
      StableHlo.unary main_cst_33 main_v119 (broadcastInDim S16x1024x1024 ![] bcast_S_S16x1024x1024 : (⟨S_, .f32⟩ : BufTy).Contents (Elt F) → (⟨S16x1024x1024, .f32⟩ : BufTy).Contents (Elt F)),
      StableHlo.binary main_v119 main_v118 main_v120 (mulf : (⟨S16x1024x1024, .f32⟩ : BufTy).Contents (Elt F) → (⟨S16x1024x1024, .f32⟩ : BufTy).Contents (Elt F) → (⟨S16x1024x1024, .f32⟩ : BufTy).Contents (Elt F)),
      StableHlo.binary main_v117 main_v120 main_v121 (addf : (⟨S16x1024x1024, .f32⟩ : BufTy).Contents (Elt F) → (⟨S16x1024x1024, .f32⟩ : BufTy).Contents (Elt F) → (⟨S16x1024x1024, .f32⟩ : BufTy).Contents (Elt F)) ]

/-- main_v40: the argument minus the second smoothed array. -/
abbrev sub1 : HloOp τ sig (Elt F) :=
  StableHlo.binary main_arg0 main_v39 main_v40 (subf : (⟨S16x1024x1024, .f32⟩ : BufTy).Contents (Elt F) → (⟨S16x1024x1024, .f32⟩ : BufTy).Contents (Elt F) → (⟨S16x1024x1024, .f32⟩ : BufTy).Contents (Elt F))

/-- main_v81: the second smoothed array minus the fourth. -/
abbrev sub2 : HloOp τ sig (Elt F) :=
  StableHlo.binary main_v39 main_v80 main_v81 (subf : (⟨S16x1024x1024, .f32⟩ : BufTy).Contents (Elt F) → (⟨S16x1024x1024, .f32⟩ : BufTy).Contents (Elt F) → (⟨S16x1024x1024, .f32⟩ : BufTy).Contents (Elt F))

/-- main_v122: the fourth smoothed array minus the sixth. -/
abbrev sub3 : HloOp τ sig (Elt F) :=
  StableHlo.binary main_v80 main_v121 main_v122 (subf : (⟨S16x1024x1024, .f32⟩ : BufTy).Contents (Elt F) → (⟨S16x1024x1024, .f32⟩ : BufTy).Contents (Elt F) → (⟨S16x1024x1024, .f32⟩ : BufTy).Contents (Elt F))

/-- The three differences and the sixth smoothed array, each given a new axis 1 of length one, then stacked along it. -/
abbrev tail : List (HloOp τ sig (Elt F)) :=
    [ StableHlo.unary main_v40 main_v123 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
      StableHlo.unary main_v81 main_v124 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
      StableHlo.unary main_v122 main_v125 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
      StableHlo.unary main_v121 main_v126 (broadcastInDim S16x1x1024x1024 ![0, 2, 3] bcast_S16x1024x1024_S16x1x1024x1024_0_2_3 : (⟨S16x1024x1024, .f32⟩ : BufTy).Contents (Elt F) → (⟨S16x1x1024x1024, .f32⟩ : BufTy).Contents (Elt F)),
      StableHlo.nary ![main_v123, main_v124, main_v125, main_v126] main_v127 (fun u => concatenate S16x4x1024x1024 1 [⟨S16x1x1024x1024, u 0⟩, ⟨S16x1x1024x1024, u 1⟩, ⟨S16x1x1024x1024, u 2⟩, ⟨S16x1x1024x1024, u 3⟩] concatenates_S16x1x1024x1024_S16x1x1024x1024_S16x1x1024x1024_S16x1x1024x1024_S16x4x1024x1024_d1) ]

/-- @main's 206 operations, in order. -/
abbrev ops : List (HloOp τ sig (Elt F)) :=
  st0 ++ st1 ++ [sub1] ++ st2 ++ st3 ++ [sub2] ++ st4 ++ st5 ++ [sub3] ++ tail

end Cert.ReferenceIdeal.RefRun

end
-- ==== Proof.RefRun.lean ====
/-
  The reference program's run. @main equals the straight line of its 206 host operations (the six reflect-padding
  calls and the reversals inside them unfolded at their call sites); the program scopes no buffer and no semaphore,
  and every operation touches TensorCore references only; so every weakly fair execution terminates with each buffer at
  the fold of the operations' results over the launch contents. The fold is then split stage by stage.
-/
import proofs.«167050_j34797825032658_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the list -/

-- both sides are one chain of `hlo` steps: the three windows, the six padding functions and their reversals unfold at
-- their calls, the records at their fields, and sequencing reassociates by computation
set_option maxRecDepth 16384 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, stage by stage -/

theorem st0_sub : (st0 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., binary_bufs_sub .., unary_bufs_sub .., nullary_bufs_sub ..,
    unary_bufs_sub .., binary_bufs_sub .., binary_bufs_sub ..⟩

theorem st1_sub : (st1 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., binary_bufs_sub .., unary_bufs_sub .., nullary_bufs_sub ..,
    unary_bufs_sub .., binary_bufs_sub .., binary_bufs_sub ..⟩

theorem st2_sub : (st2 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., binary_bufs_sub .., unary_bufs_sub .., nullary_bufs_sub ..,
    unary_bufs_sub .., binary_bufs_sub .., binary_bufs_sub ..⟩

theorem st3_sub : (st3 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., binary_bufs_sub .., unary_bufs_sub .., nullary_bufs_sub ..,
    unary_bufs_sub .., binary_bufs_sub .., binary_bufs_sub ..⟩

theorem st4_sub : (st4 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., binary_bufs_sub .., unary_bufs_sub .., nullary_bufs_sub ..,
    unary_bufs_sub .., binary_bufs_sub .., binary_bufs_sub ..⟩

theorem st5_sub : (st5 : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., binary_bufs_sub ..,
    unary_bufs_sub .., nullary_bufs_sub .., unary_bufs_sub .., binary_bufs_sub .., binary_bufs_sub .., unary_bufs_sub ..,
    nullary_bufs_sub .., unary_bufs_sub .., binary_bufs_sub .., binary_bufs_sub .., unary_bufs_sub .., nullary_bufs_sub ..,
    unary_bufs_sub .., binary_bufs_sub .., binary_bufs_sub ..⟩

theorem sub1_sub : ([sub1] : List (HloOp τ sig (Elt F))).Forall fun op => op.bufs ⊆ tcRefs τ sig :=
  (List.forall_cons _ _ _).mpr ⟨binary_bufs_sub .., trivial⟩

theorem sub2_sub : ([sub2] : List (HloOp τ sig (Elt F))).Forall fun op => op.bufs ⊆ tcRefs τ sig :=
  (List.forall_cons _ _ _).mpr ⟨binary_bufs_sub .., trivial⟩

theorem sub3_sub : ([sub3] : List (HloOp τ sig (Elt F))).Forall fun op => op.bufs ⊆ tcRefs τ sig :=
  (List.forall_cons _ _ _).mpr ⟨binary_bufs_sub .., trivial⟩

theorem tail_sub : (tail : List (HloOp τ sig (Elt F))).Forall fun op => op.bufs ⊆ tcRefs τ sig :=
  ⟨unary_bufs_sub .., unary_bufs_sub .., unary_bufs_sub .., unary_bufs_sub .., nary_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr ⟨List.forall_append.mpr ⟨List.forall_append.mpr ⟨List.forall_append.mpr ⟨List.forall_append.mpr ⟨st0_sub, st1_sub⟩, sub1_sub⟩, st2_sub⟩, st3_sub⟩, sub2_sub⟩, st4_sub⟩, st5_sub⟩, sub3_sub⟩, tail_sub⟩

/-! ## The run -/

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, stage by stage -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole fold as the stages' folds composed, the three subtractions between them. -/
theorem after_ops (V : Valuation τ sig (Elt F)) :
    after ops V = after tail (sub3.result (after st5 (after st4 (sub2.result (after st3 (after st2
      (sub1.result (after st1 (after st0 V))))))))) := by
  simp only [ops, after_append, after_cons, after_nil]

end Cert.ReferenceIdeal.RefRun

end
-- ==== Proof.RefKeep.lean ====
/-
  Which buffers each stage of the reference program writes, and that a buffer a stage does not write keeps its
  contents through it. Every operation writes exactly one buffer, its result; a stage's written buffers are listed
  in order, and membership in the list is decided over references.
-/
import proofs.«167050_j34797825032658_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is `y` writes inside any list of references holding `y`. -/
theorem writes_sub_of {op : HloOp τ sig (Elt F)} {W : List (Ref sig .tc)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The 33 buffers stage 0 writes, in order. -/
abbrev st0_W : List (Ref sig .tc) :=
  [main_c, main_call0_v0, main_call0_v1, main_call0_v2, main_call0_v3, main_call0_v4, main_call0_v5, main_call0_v6, main_v0,
   main_v1, main_cst, main_v2, main_v3, main_v4, main_cst_0, main_v5, main_v6, main_v7,
   main_v8, main_cst_1, main_v9, main_v10, main_v11, main_v12, main_cst_2, main_v13, main_v14,
   main_v15, main_v16, main_cst_3, main_v17, main_v18, main_v19]

theorem st0_writes : (st0 : List (HloOp τ sig (Elt F))).Forall fun op => op.writes ⊆ (st0_W.map (Proc.devRef (τ := τ) .tc)).toFinset :=
  ⟨writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide)⟩

/-- A buffer stage 0 does not write keeps its contents through it. -/
theorem st0_keep (V : Valuation τ sig (Elt F)) (r : Ref sig .tc) (h : r ∉ st0_W) :
    after st0 V (Proc.devRef .tc r) = V (Proc.devRef .tc r) :=
  after_of_writes_sub st0 V st0_writes h

/-- The 33 buffers stage 1 writes, in order. -/
abbrev st1_W : List (Ref sig .tc) :=
  [main_c_4, main_call1_v0, main_call1_v1, main_call1_v2, main_call1_v3, main_call1_v4, main_call1_v5, main_call1_v6, main_v20,
   main_v21, main_cst_5, main_v22, main_v23, main_v24, main_cst_6, main_v25, main_v26, main_v27,
   main_v28, main_cst_7, main_v29, main_v30, main_v31, main_v32, main_cst_8, main_v33, main_v34,
   main_v35, main_v36, main_cst_9, main_v37, main_v38, main_v39]

theorem st1_writes : (st1 : List (HloOp τ sig (Elt F))).Forall fun op => op.writes ⊆ (st1_W.map (Proc.devRef (τ := τ) .tc)).toFinset :=
  ⟨writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide)⟩

/-- A buffer stage 1 does not write keeps its contents through it. -/
theorem st1_keep (V : Valuation τ sig (Elt F)) (r : Ref sig .tc) (h : r ∉ st1_W) :
    after st1 V (Proc.devRef .tc r) = V (Proc.devRef .tc r) :=
  after_of_writes_sub st1 V st1_writes h

/-- The 33 buffers stage 2 writes, in order. -/
abbrev st2_W : List (Ref sig .tc) :=
  [main_c_10, main_call2_v0, main_call2_v1, main_call2_v2, main_call2_v3, main_call2_v4, main_call2_v5, main_call2_v6, main_v41,
   main_v42, main_cst_11, main_v43, main_v44, main_v45, main_cst_12, main_v46, main_v47, main_v48,
   main_v49, main_cst_13, main_v50, main_v51, main_v52, main_v53, main_cst_14, main_v54, main_v55,
   main_v56, main_v57, main_cst_15, main_v58, main_v59, main_v60]

theorem st2_writes : (st2 : List (HloOp τ sig (Elt F))).Forall fun op => op.writes ⊆ (st2_W.map (Proc.devRef (τ := τ) .tc)).toFinset :=
  ⟨writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide)⟩

/-- A buffer stage 2 does not write keeps its contents through it. -/
theorem st2_keep (V : Valuation τ sig (Elt F)) (r : Ref sig .tc) (h : r ∉ st2_W) :
    after st2 V (Proc.devRef .tc r) = V (Proc.devRef .tc r) :=
  after_of_writes_sub st2 V st2_writes h

/-- The 33 buffers stage 3 writes, in order. -/
abbrev st3_W : List (Ref sig .tc) :=
  [main_c_16, main_call3_v0, main_call3_v1, main_call3_v2, main_call3_v3, main_call3_v4, main_call3_v5, main_call3_v6, main_v61,
   main_v62, main_cst_17, main_v63, main_v64, main_v65, main_cst_18, main_v66, main_v67, main_v68,
   main_v69, main_cst_19, main_v70, main_v71, main_v72, main_v73, main_cst_20, main_v74, main_v75,
   main_v76, main_v77, main_cst_21, main_v78, main_v79, main_v80]

theorem st3_writes : (st3 : List (HloOp τ sig (Elt F))).Forall fun op => op.writes ⊆ (st3_W.map (Proc.devRef (τ := τ) .tc)).toFinset :=
  ⟨writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide)⟩

/-- A buffer stage 3 does not write keeps its contents through it. -/
theorem st3_keep (V : Valuation τ sig (Elt F)) (r : Ref sig .tc) (h : r ∉ st3_W) :
    after st3 V (Proc.devRef .tc r) = V (Proc.devRef .tc r) :=
  after_of_writes_sub st3 V st3_writes h

/-- The 33 buffers stage 4 writes, in order. -/
abbrev st4_W : List (Ref sig .tc) :=
  [main_c_22, main_call4_v0, main_call4_v1, main_call4_v2, main_call4_v3, main_call4_v4, main_call4_v5, main_call4_v6, main_v82,
   main_v83, main_cst_23, main_v84, main_v85, main_v86, main_cst_24, main_v87, main_v88, main_v89,
   main_v90, main_cst_25, main_v91, main_v92, main_v93, main_v94, main_cst_26, main_v95, main_v96,
   main_v97, main_v98, main_cst_27, main_v99, main_v100, main_v101]

theorem st4_writes : (st4 : List (HloOp τ sig (Elt F))).Forall fun op => op.writes ⊆ (st4_W.map (Proc.devRef (τ := τ) .tc)).toFinset :=
  ⟨writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide)⟩

/-- A buffer stage 4 does not write keeps its contents through it. -/
theorem st4_keep (V : Valuation τ sig (Elt F)) (r : Ref sig .tc) (h : r ∉ st4_W) :
    after st4 V (Proc.devRef .tc r) = V (Proc.devRef .tc r) :=
  after_of_writes_sub st4 V st4_writes h

/-- The 33 buffers stage 5 writes, in order. -/
abbrev st5_W : List (Ref sig .tc) :=
  [main_c_28, main_call5_v0, main_call5_v1, main_call5_v2, main_call5_v3, main_call5_v4, main_call5_v5, main_call5_v6, main_v102,
   main_v103, main_cst_29, main_v104, main_v105, main_v106, main_cst_30, main_v107, main_v108, main_v109,
   main_v110, main_cst_31, main_v111, main_v112, main_v113, main_v114, main_cst_32, main_v115, main_v116,
   main_v117, main_v118, main_cst_33, main_v119, main_v120, main_v121]

theorem st5_writes : (st5 : List (HloOp τ sig (Elt F))).Forall fun op => op.writes ⊆ (st5_W.map (Proc.devRef (τ := τ) .tc)).toFinset :=
  ⟨writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide), writes_sub_of _ rfl (by decide), writes_sub_of _ rfl (by decide), writes_sub_of _ rfl (by decide),
    writes_sub_of _ rfl (by decide)⟩

/-- A buffer stage 5 does not write keeps its contents through it. -/
theorem st5_keep (V : Valuation τ sig (Elt F)) (r : Ref sig .tc) (h : r ∉ st5_W) :
    after st5 V (Proc.devRef .tc r) = V (Proc.devRef .tc r) :=
  after_of_writes_sub st5 V st5_writes h

/-- The five buffers the tail writes. -/
abbrev tail_W : List (Ref sig .tc) := [main_v123, main_v124, main_v125, main_v126, main_v127]

theorem tail_writes : (tail : List (HloOp τ sig (Elt F))).Forall fun op => op.writes ⊆ (tail_W.map (Proc.devRef (τ := τ) .tc)).toFinset :=
  ⟨writes_sub_of _ rfl (by decide), writes_sub_of _ rfl (by decide), writes_sub_of _ rfl (by decide), writes_sub_of _ rfl (by decide),
    writes_sub_of _ rfl (by decide)⟩

/-- A buffer the tail does not write keeps its contents through it. -/
theorem tail_keep (V : Valuation τ sig (Elt F)) (r : Ref sig .tc) (h : r ∉ tail_W) :
    after tail V (Proc.devRef .tc r) = V (Proc.devRef .tc r) :=
  after_of_writes_sub tail V tail_writes h

/-- A buffer other than `main_v40` keeps its contents through the first subtraction. -/
theorem sub1_keep (V : Valuation τ sig (Elt F)) (r : Ref sig .tc) (h : r ≠ main_v40) :
    (sub1 (F := F)).result V (Proc.devRef .tc r) = V (Proc.devRef .tc r) :=
  binary_result_ne _ _ _ _ _ _ _ V h

/-- A buffer other than `main_v81` keeps its contents through the second subtraction. -/
theorem sub2_keep (V : Valuation τ sig (Elt F)) (r : Ref sig .tc) (h : r ≠ main_v81) :
    (sub2 (F := F)).result V (Proc.devRef .tc r) = V (Proc.devRef .tc r) :=
  binary_result_ne _ _ _ _ _ _ _ V h

/-- A buffer other than `main_v122` keeps its contents through the third subtraction. -/
theorem sub3_keep (V : Valuation τ sig (Elt F)) (r : Ref sig .tc) (h : r ≠ main_v122) :
    (sub3 (F := F)).result V (Proc.devRef .tc r) = V (Proc.devRef .tc r) :=
  binary_result_ne _ _ _ _ _ _ _ V h

/-- No operation writes the argument: it keeps its launch contents through the whole program. -/
theorem arg0_kept (V : Valuation τ sig (Elt F)) :
    after ops V (main_arg0 : DevRef τ sig) = V (main_arg0 : DevRef τ sig) := by
  rw [after_ops]
  exact (tail_keep _ main_arg0 (by decide)).trans <| (sub3_keep _ main_arg0 (by decide)).trans <|
    (st5_keep _ main_arg0 (by decide)).trans <| (st4_keep _ main_arg0 (by decide)).trans <|
    (sub2_keep _ main_arg0 (by decide)).trans <| (st3_keep _ main_arg0 (by decide)).trans <|
    (st2_keep _ main_arg0 (by decide)).trans <| (sub1_keep _ main_arg0 (by decide)).trans <|
    (st1_keep _ main_arg0 (by decide)).trans <| st0_keep V main_arg0 (by decide)

end Cert.ReferenceIdeal.RefRun

end
-- ==== Proof.RefStages.lean ====
/-
  The reference program's stages as functions of their input array, spelt with the operations of the program's own
  lines. Stage k pads its input by reflection along one axis (`padFrontK`: the entries after the first, reversed, in
  front of the input; `padK`: then the entries before the last, reversed, behind), and sums five windows of the padded
  array weighted 1/16, 1/4, 3/8, 1/4, 1/16 (`tapsK`). `resultOf` stacks four arrays along a new axis 1.
-/
import proofs.«167050_j34797825032658_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 0, front padding along axis 1: entries 1 … 2 of `x`, reversed, then `x`. -/
def padFront0 (x : FVec F S16x1024x1024 .f32) : FVec F S16x1026x1024 .f32 :=
  concatenate S16x1026x1024 1 [⟨S16x2x1024, Host.reverse [1] (extractStridedSlice S16x2x1024 ![0, 1, 0] x slices_S16x1024x1024_S16x2x1024_0_1_0)⟩, ⟨S16x1024x1024, x⟩] concatenates_S16x2x1024_S16x1024x1024_S16x1026x1024_d1

/-- Stage 0, both paddings along axis 1: the front-padded array, then its entries 1023 … 1024 (entries
    1021 … 1022 of `x`), reversed. -/
def pad0 (x : FVec F S16x1024x1024 .f32) : FVec F S16x1028x1024 .f32 :=
  concatenate S16x1028x1024 1 [⟨S16x1026x1024, padFront0 x⟩, ⟨S16x2x1024, Host.reverse [1] (extractStridedSlice S16x2x1024 ![0, 1023, 0] (padFront0 x) slices_S16x1026x1024_S16x2x1024_0_1023_0)⟩] concatenates_S16x1026x1024_S16x2x1024_S16x1028x1024_d1

/-- Stage 0, the weighted sum of the five windows of the padded array at offsets 0, 1, 2, 3, 4 along axis 1. -/
def taps0 (P : FVec F S16x1028x1024 .f32) : FVec F S16x1024x1024 .f32 :=
  addf (addf (addf (addf (mulf (broadcastInDim S16x1024x1024 ![] bcast_S_S16x1024x1024 (constant S_ .f32 0x3D800000#32)) (extractStridedSlice S16x1024x1024 ![0, 0, 0] P slices_S16x1028x1024_S16x1024x1024_0_0_0)) (mulf (broadcastInDim S16x1024x1024 ![] bcast_S_S16x1024x1024 (constant S_ .f32 0x3E800000#32)) (extractStridedSlice S16x1024x1024 ![0, 1, 0] P slices_S16x1028x1024_S16x1024x1024_0_1_0))) (mulf (broadcastInDim S16x1024x1024 ![] bcast_S_S16x1024x1024 (constant S_ .f32 0x3EC00000#32)) (extractStridedSlice S16x1024x1024 ![0, 2, 0] P slices_S16x1028x1024_S16x1024x1024_0_2_0))) (mulf (broadcastInDim S16x1024x1024 ![] bcast_S_S16x1024x1024 (constant S_ .f32 0x3E800000#32)) (extractStridedSlice S16x1024x1024 ![0, 3, 0] P slices_S16x1028x1024_S16x1024x1024_0_3_0))) (mulf (broadcastInDim S16x1024x1024 ![] bcast_S_S16x1024x1024 (constant S_ .f32 0x3D800000#32)) (extractStridedSlice S16x1024x1024 ![0, 4, 0] P slices_S16x1028x1024_S16x1024x1024_0_4_0))

/-- Stage 0: pad, then sum the windows. -/
def stage0 (x : FVec F S16x1024x1024 .f32) : FVec F S16x1024x1024 .f32 := taps0 (pad0 x)

/-- Stage 1, front padding along axis 2: entries 1 … 2 of `x`, reversed, then `x`. -/
def padFront1 (x : FVec F S16x1024x1024 .f32) : FVec F S16x1024x1026 .f32 :=
  concatenate S16x1024x1026 2 [⟨S16x1024x2, Host.reverse [2] (extractStridedSlice S16x1024x2 ![0, 0, 1] x slices_S16x1024x1024_S16x1024x2_0_0_1)⟩, ⟨S16x1024x1024, x⟩] concatenates_S16x1024x2_S16x1024x1024_S16x1024x1026_d2

/-- Stage 1, both paddings along axis 2: the front-padded array, then its entries 1023 … 1024 (entries
    1021 … 1022 of `x`), reversed. -/
def pad1 (x : FVec F S16x1024x1024 .f32) : FVec F S16x1024x1028 .f32 :=
  concatenate S16x1024x1028 2 [⟨S16x1024x1026, padFront1 x⟩, ⟨S16x1024x2, Host.reverse [2] (extractStridedSlice S16x1024x2 ![0, 0, 1023] (padFront1 x) slices_S16x1024x1026_S16x1024x2_0_0_1023)⟩] concatenates_S16x1024x1026_S16x1024x2_S16x1024x1028_d2

/-- Stage 1, the weighted sum of the five windows of the padded array at offsets 0, 1, 2, 3, 4 along axis 2. -/
def taps1 (P : FVec F S16x1024x1028 .f32) : FVec F S16x1024x1024 .f32 :=
  addf (addf (addf (addf (mulf (broadcastInDim S16x1024x1024 ![] bcast_S_S16x1024x1024 (constant S_ .f32 0x3D800000#32)) (extractStridedSlice S16x1024x1024 ![0, 0, 0] P slices_S16x1024x1028_S16x1024x1024_0_0_0)) (mulf (broadcastInDim S16x1024x1024 ![] bcast_S_S16x1024x1024 (constant S_ .f32 0x3E800000#32)) (extractStridedSlice S16x1024x1024 ![0, 0, 1] P slices_S16x1024x1028_S16x1024x1024_0_0_1))) (mulf (broadcastInDim S16x1024x1024 ![] bcast_S_S16x1024x1024 (constant S_ .f32 0x3EC00000#32)) (extractStridedSlice S16x1024x1024 ![0, 0, 2] P slices_S16x1024x1028_S16x1024x1024_0_0_2))) (mulf (broadcastInDim S16x1024x1024 ![] bcast_S_S16x1024x1024 (constant S_ .f32 0x3E800000#32)) (extractStridedSlice S16x1024x1024 ![0, 0, 3] P slices_S16x1024x1028_S16x1024x1024_0_0_3))) (mulf (broadcastInDim S16x1024x1024 ![] bcast_S_S16x1024x1024 (constant S_ .f32 0x3D800000#32)) (extractStridedSlice S16x1024x1024 ![0, 0, 4] P slices_S16x1024x1028_S16x1024x1024_0_0_4))

/-- Stage 1: pad, then sum the windows. -/
def stage1 (x : FVec F S16x1024x1024 .f32) : FVec F S16x1024x1024 .f32 := taps1 (pad1 x)

/-- Stage 2, front padding along axis 1: entries 1 … 4 of `x`, reversed, then `x`. -/
def padFront2 (x : FVec F S16x1024x1024 .f32) : FVec F S16x1028x1024 .f32 :=
  concatenate S16x1028x1024 1 [⟨S16x4x1024, Host.reverse [1] (extractStridedSlice S16x4x1024 ![0, 1, 0] x slices_S16x1024x1024_S16x4x1024_0_1_0)⟩, ⟨S16x1024x1024, x⟩] concatenates_S16x4x1024_S16x1024x1024_S16x1028x1024_d1

/-- Stage 2, both paddings along axis 1: the front-padded array, then its entries 1023 … 1026 (entries
    1019 … 1022 of `x`), reversed. -/
def pad2 (x : FVec F S16x1024x1024 .f32) : FVec F S16x1032x1024 .f32 :=
  concatenate S16x1032x1024 1 [⟨S16x1028x1024, padFront2 x⟩, ⟨S16x4x1024, Host.reverse [1] (extractStridedSlice S16x4x1024 ![0, 1023, 0] (padFront2 x) slices_S16x1028x1024_S16x4x1024_0_1023_0)⟩] concatenates_S16x1028x1024_S16x4x1024_S16x1032x1024_d1

/-- Stage 2, the weighted sum of the five windows of the padded array at offsets 0, 2, 4, 6, 8 along axis 1. -/
def taps2 (P : FVec F S16x1032x1024 .f32) : FVec F S16x1024x1024 .f32 :=
  addf (addf (addf (addf (mulf (broadcastInDim S16x1024x1024 ![] bcast_S_S16x1024x1024 (constant S_ .f32 0x3D800000#32)) (extractStridedSlice S16x1024x1024 ![0, 0, 0] P slices_S16x1032x1024_S16x1024x1024_0_0_0)) (mulf (broadcastInDim S16x1024x1024 ![] bcast_S_S16x1024x1024 (constant S_ .f32 0x3E800000#32)) (extractStridedSlice S16x1024x1024 ![0, 2, 0] P slices_S16x1032x1024_S16x1024x1024_0_2_0))) (mulf (broadcastInDim S16x1024x1024 ![] bcast_S_S16x1024x1024 (constant S_ .f32 0x3EC00000#32)) (extractStridedSlice S16x1024x1024 ![0, 4, 0] P slices_S16x1032x1024_S16x1024x1024_0_4_0))) (mulf (broadcastInDim S16x1024x1024 ![] bcast_S_S16x1024x1024 (constant S_ .f32 0x3E800000#32)) (extractStridedSlice S16x1024x1024 ![0, 6, 0] P slices_S16x1032x1024_S16x1024x1024_0_6_0))) (mulf (broadcastInDim S16x1024x1024 ![] bcast_S_S16x1024x1024 (constant S_ .f32 0x3D800000#32)) (extractStridedSlice S16x1024x1024 ![0, 8, 0] P slices_S16x1032x1024_S16x1024x1024_0_8_0))

/-- Stage 2: pad, then sum the windows. -/
def stage2 (x : FVec F S16x1024x1024 .f32) : FVec F S16x1024x1024 .f32 := taps2 (pad2 x)

/-- Stage 3, front padding along axis 2: entries 1 … 4 of `x`, reversed, then `x`. -/
def padFront3 (x : FVec F S16x1024x1024 .f32) : FVec F S16x1024x1028 .f32 :=
  concatenate S16x1024x1028 2 [⟨S16x1024x4, Host.reverse [2] (extractStridedSlice S16x1024x4 ![0, 0, 1] x slices_S16x1024x1024_S16x1024x4_0_0_1)⟩, ⟨S16x1024x1024, x⟩] concatenates_S16x1024x4_S16x1024x1024_S16x1024x1028_d2

/-- Stage 3, both paddings along axis 2: the front-padded array, then its entries 1023 … 1026 (entries
    1019 … 1022 of `x`), reversed. -/
def pad3 (x : FVec F S16x1024x1024 .f32) : FVec F S16x1024x1032 .f32 :=
  concatenate S16x1024x1032 2 [⟨S16x1024x1028, padFront3 x⟩, ⟨S16x1024x4, Host.reverse [2] (extractStridedSlice S16x1024x4 ![0, 0, 1023] (padFront3 x) slices_S16x1024x1028_S16x1024x4_0_0_1023)⟩] concatenates_S16x1024x1028_S16x1024x4_S16x1024x1032_d2

/-- Stage 3, the weighted sum of the five windows of the padded array at offsets 0, 2, 4, 6, 8 along axis 2. -/
def taps3 (P : FVec F S16x1024x1032 .f32) : FVec F S16x1024x1024 .f32 :=
  addf (addf (addf (addf (mulf (broadcastInDim S16x1024x1024 ![] bcast_S_S16x1024x1024 (constant S_ .f32 0x3D800000#32)) (extractStridedSlice S16x1024x1024 ![0, 0, 0] P slices_S16x1024x1032_S16x1024x1024_0_0_0)) (mulf (broadcastInDim S16x1024x1024 ![] bcast_S_S16x1024x1024 (constant S_ .f32 0x3E800000#32)) (extractStridedSlice S16x1024x1024 ![0, 0, 2] P slices_S16x1024x1032_S16x1024x1024_0_0_2))) (mulf (broadcastInDim S16x1024x1024 ![] bcast_S_S16x1024x1024 (constant S_ .f32 0x3EC00000#32)) (extractStridedSlice S16x1024x1024 ![0, 0, 4] P slices_S16x1024x1032_S16x1024x1024_0_0_4))) (mulf (broadcastInDim S16x1024x1024 ![] bcast_S_S16x1024x1024 (constant S_ .f32 0x3E800000#32)) (extractStridedSlice S16x1024x1024 ![0, 0, 6] P slices_S16x1024x1032_S16x1024x1024_0_0_6))) (mulf (broadcastInDim S16x1024x1024 ![] bcast_S_S16x1024x1024 (constant S_ .f32 0x3D800000#32)) (extractStridedSlice S16x1024x1024 ![0, 0, 8] P slices_S16x1024x1032_S16x1024x1024_0_0_8))

/-- Stage 3: pad, then sum the windows. -/
def stage3 (x : FVec F S16x1024x1024 .f32) : FVec F S16x1024x1024 .f32 := taps3 (pad3 x)

/-- Stage 4, front padding along axis 1: entries 1 … 8 of `x`, reversed, then `x`. -/
def padFront4 (x : FVec F S16x1024x1024 .f32) : FVec F S16x1032x1024 .f32 :=
  concatenate S16x1032x1024 1 [⟨S16x8x1024, Host.reverse [1] (extractStridedSlice S16x8x1024 ![0, 1, 0] x slices_S16x1024x1024_S16x8x1024_0_1_0)⟩, ⟨S16x1024x1024, x⟩] concatenates_S16x8x1024_S16x1024x1024_S16x1032x1024_d1

/-- Stage 4, both paddings along axis 1: the front-padded array, then its entries 1023 … 1030 (entries
    1015 … 1022 of `x`), reversed. -/
def pad4 (x : FVec F S16x1024x1024 .f32) : FVec F S16x1040x1024 .f32 :=
  concatenate S16x1040x1024 1 [⟨S16x1032x1024, padFront4 x⟩, ⟨S16x8x1024, Host.reverse [1] (extractStridedSlice S16x8x1024 ![0, 1023, 0] (padFront4 x) slices_S16x1032x1024_S16x8x1024_0_1023_0)⟩] concatenates_S16x1032x1024_S16x8x1024_S16x1040x1024_d1

/-- Stage 4, the weighted sum of the five windows of the padded array at offsets 0, 4, 8, 12, 16 along axis 1. -/
def taps4 (P : FVec F S16x1040x1024 .f32) : FVec F S16x1024x1024 .f32 :=
  addf (addf (addf (addf (mulf (broadcastInDim S16x1024x1024 ![] bcast_S_S16x1024x1024 (constant S_ .f32 0x3D800000#32)) (extractStridedSlice S16x1024x1024 ![0, 0, 0] P slices_S16x1040x1024_S16x1024x1024_0_0_0)) (mulf (broadcastInDim S16x1024x1024 ![] bcast_S_S16x1024x1024 (constant S_ .f32 0x3E800000#32)) (extractStridedSlice S16x1024x1024 ![0, 4, 0] P slices_S16x1040x1024_S16x1024x1024_0_4_0))) (mulf (broadcastInDim S16x1024x1024 ![] bcast_S_S16x1024x1024 (constant S_ .f32 0x3EC00000#32)) (extractStridedSlice S16x1024x1024 ![0, 8, 0] P slices_S16x1040x1024_S16x1024x1024_0_8_0))) (mulf (broadcastInDim S16x1024x1024 ![] bcast_S_S16x1024x1024 (constant S_ .f32 0x3E800000#32)) (extractStridedSlice S16x1024x1024 ![0, 12, 0] P slices_S16x1040x1024_S16x1024x1024_0_12_0))) (mulf (broadcastInDim S16x1024x1024 ![] bcast_S_S16x1024x1024 (constant S_ .f32 0x3D800000#32)) (extractStridedSlice S16x1024x1024 ![0, 16, 0] P slices_S16x1040x1024_S16x1024x1024_0_16_0))

/-- Stage 4: pad, then sum the windows. -/
def stage4 (x : FVec F S16x1024x1024 .f32) : FVec F S16x1024x1024 .f32 := taps4 (pad4 x)

/-- Stage 5, front padding along axis 2: entries 1 … 8 of `x`, reversed, then `x`. -/
def padFront5 (x : FVec F S16x1024x1024 .f32) : FVec F S16x1024x1032 .f32 :=
  concatenate S16x1024x1032 2 [⟨S16x1024x8, Host.reverse [2] (extractStridedSlice S16x1024x8 ![0, 0, 1] x slices_S16x1024x1024_S16x1024x8_0_0_1)⟩, ⟨S16x1024x1024, x⟩] concatenates_S16x1024x8_S16x1024x1024_S16x1024x1032_d2

/-- Stage 5, both paddings along axis 2: the front-padded array, then its entries 1023 … 1030 (entries
    1015 … 1022 of `x`), reversed. -/
def pad5 (x : FVec F S16x1024x1024 .f32) : FVec F S16x1024x1040 .f32 :=
  concatenate S16x1024x1040 2 [⟨S16x1024x1032, padFront5 x⟩, ⟨S16x1024x8, Host.reverse [2] (extractStridedSlice S16x1024x8 ![0, 0, 1023] (padFront5 x) slices_S16x1024x1032_S16x1024x8_0_0_1023)⟩] concatenates_S16x1024x1032_S16x1024x8_S16x1024x1040_d2

/-- Stage 5, the weighted sum of the five windows of the padded array at offsets 0, 4, 8, 12, 16 along axis 2. -/
def taps5 (P : FVec F S16x1024x1040 .f32) : FVec F S16x1024x1024 .f32 :=
  addf (addf (addf (addf (mulf (broadcastInDim S16x1024x1024 ![] bcast_S_S16x1024x1024 (constant S_ .f32 0x3D800000#32)) (extractStridedSlice S16x1024x1024 ![0, 0, 0] P slices_S16x1024x1040_S16x1024x1024_0_0_0)) (mulf (broadcastInDim S16x1024x1024 ![] bcast_S_S16x1024x1024 (constant S_ .f32 0x3E800000#32)) (extractStridedSlice S16x1024x1024 ![0, 0, 4] P slices_S16x1024x1040_S16x1024x1024_0_0_4))) (mulf (broadcastInDim S16x1024x1024 ![] bcast_S_S16x1024x1024 (constant S_ .f32 0x3EC00000#32)) (extractStridedSlice S16x1024x1024 ![0, 0, 8] P slices_S16x1024x1040_S16x1024x1024_0_0_8))) (mulf (broadcastInDim S16x1024x1024 ![] bcast_S_S16x1024x1024 (constant S_ .f32 0x3E800000#32)) (extractStridedSlice S16x1024x1024 ![0, 0, 12] P slices_S16x1024x1040_S16x1024x1024_0_0_12))) (mulf (broadcastInDim S16x1024x1024 ![] bcast_S_S16x1024x1024 (constant S_ .f32 0x3D800000#32)) (extractStridedSlice S16x1024x1024 ![0, 0, 16] P slices_S16x1024x1040_S16x1024x1024_0_0_16))

/-- Stage 5: pad, then sum the windows. -/
def stage5 (x : FVec F S16x1024x1024 .f32) : FVec F S16x1024x1024 .f32 := taps5 (pad5 x)

/-- Four arrays, each given a new axis 1 of length one, stacked along it. -/
def resultOf (a b c d : FVec F S16x1024x1024 .f32) : FVec F S16x4x1024x1024 .f32 :=
  concatenate S16x4x1024x1024 1 [⟨S16x1x1024x1024, broadcastInDim S16x1x1024x1024 ![0, 2, 3] bcast_S16x1024x1024_S16x1x1024x1024_0_2_3 a⟩, ⟨S16x1x1024x1024, broadcastInDim S16x1x1024x1024 ![0, 2, 3] bcast_S16x1024x1024_S16x1x1024x1024_0_2_3 b⟩, ⟨S16x1x1024x1024, broadcastInDim S16x1x1024x1024 ![0, 2, 3] bcast_S16x1024x1024_S16x1x1024x1024_0_2_3 c⟩, ⟨S16x1x1024x1024, broadcastInDim S16x1x1024x1024 ![0, 2, 3] bcast_S16x1024x1024_S16x1x1024x1024_0_2_3 d⟩] concatenates_S16x1x1024x1024_S16x1x1024x1024_S16x1x1024x1024_S16x1x1024x1024_S16x4x1024x1024_d1

end Cert.ReferenceIdeal.RefRun

end
-- ==== Proof.RefValue.lean ====
/-
  The reference program's result as a composition of its stage functions. Each stage's fold leaves the stage
  function of its input buffer in its result buffer; a buffer a stage does not write is kept; so the result buffer
  holds the stack of the three successive differences and the last smoothed array, each a composition of stage
  functions of the argument's contents.
-/
import proofs.«167050_j34797825032658_1_alg».proof.Proof.RefKeep
import proofs.«167050_j34797825032658_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each stage's result buffer holds the stage function of its input buffer -/

set_option maxHeartbeats 1000000 in
theorem stage0_out (V : Valuation τ sig (Elt F)) :
    after st0 V (main_v19 : DevRef τ sig) = stage0 (V (main_arg0 : DevRef τ sig)) := by
  after_results_simp
  rfl

set_option maxHeartbeats 1000000 in
theorem stage1_out (V : Valuation τ sig (Elt F)) :
    after st1 V (main_v39 : DevRef τ sig) = stage1 (V (main_v19 : DevRef τ sig)) := by
  after_results_simp
  rfl

set_option maxHeartbeats 1000000 in
theorem stage2_out (V : Valuation τ sig (Elt F)) :
    after st2 V (main_v60 : DevRef τ sig) = stage2 (V (main_v39 : DevRef τ sig)) := by
  after_results_simp
  rfl

set_option maxHeartbeats 1000000 in
theorem stage3_out (V : Valuation τ sig (Elt F)) :
    after st3 V (main_v80 : DevRef τ sig) = stage3 (V (main_v60 : DevRef τ sig)) := by
  after_results_simp
  rfl

set_option maxHeartbeats 1000000 in
theorem stage4_out (V : Valuation τ sig (Elt F)) :
    after st4 V (main_v101 : DevRef τ sig) = stage4 (V (main_v80 : DevRef τ sig)) := by
  after_results_simp
  rfl

set_option maxHeartbeats 1000000 in
theorem stage5_out (V : Valuation τ sig (Elt F)) :
    after st5 V (main_v121 : DevRef τ sig) = stage5 (V (main_v101 : DevRef τ sig)) := by
  after_results_simp
  rfl

/-! ## The subtractions and the tail -/

theorem sub1_out (V : Valuation τ sig (Elt F)) :
    (sub1 (F := F)).result V (main_v40 : DevRef τ sig) = subf (V (main_arg0 : DevRef τ sig)) (V (main_v39 : DevRef τ sig)) :=
  binary_result _ _ _ _ _ _ _ V
theorem sub2_out (V : Valuation τ sig (Elt F)) :
    (sub2 (F := F)).result V (main_v81 : DevRef τ sig) = subf (V (main_v39 : DevRef τ sig)) (V (main_v80 : DevRef τ sig)) :=
  binary_result _ _ _ _ _ _ _ V
theorem sub3_out (V : Valuation τ sig (Elt F)) :
    (sub3 (F := F)).result V (main_v122 : DevRef τ sig) = subf (V (main_v80 : DevRef τ sig)) (V (main_v121 : DevRef τ sig)) :=
  binary_result _ _ _ _ _ _ _ V

/-- The tail stacks the contents of the four buffers it reads. -/
theorem tail_out (V : Valuation τ sig (Elt F)) :
    after tail V (main_v127 : DevRef τ sig)
      = resultOf (V (main_v40 : DevRef τ sig)) (V (main_v81 : DevRef τ sig)) (V (main_v122 : DevRef τ sig)) (V (main_v121 : DevRef τ sig)) := by
  after_results_simp
  rfl

/-! ## Three segments: two stages and the subtraction after them -/

theorem segA_v39 (V : Valuation τ sig (Elt F)) :
    (sub1 (F := F)).result (after st1 (after st0 V)) (main_v39 : DevRef τ sig) = stage1 (stage0 (V (main_arg0 : DevRef τ sig))) := by
  rw [sub1_keep _ main_v39 (by decide), stage1_out, stage0_out]
theorem segA_v40 (V : Valuation τ sig (Elt F)) :
    (sub1 (F := F)).result (after st1 (after st0 V)) (main_v40 : DevRef τ sig)
      = subf (V (main_arg0 : DevRef τ sig)) (stage1 (stage0 (V (main_arg0 : DevRef τ sig)))) := by
  rw [sub1_out, stage1_out, stage0_out, st1_keep _ main_arg0 (by decide), st0_keep _ main_arg0 (by decide)]

theorem segB_v80 (V : Valuation τ sig (Elt F)) :
    (sub2 (F := F)).result (after st3 (after st2 V)) (main_v80 : DevRef τ sig) = stage3 (stage2 (V (main_v39 : DevRef τ sig))) := by
  rw [sub2_keep _ main_v80 (by decide), stage3_out, stage2_out]
theorem segB_v81 (V : Valuation τ sig (Elt F)) :
    (sub2 (F := F)).result (after st3 (after st2 V)) (main_v81 : DevRef τ sig)
      = subf (V (main_v39 : DevRef τ sig)) (stage3 (stage2 (V (main_v39 : DevRef τ sig)))) := by
  rw [sub2_out, stage3_out, stage2_out, st3_keep _ main_v39 (by decide), st2_keep _ main_v39 (by decide)]
theorem segB_v40 (V : Valuation τ sig (Elt F)) :
    (sub2 (F := F)).result (after st3 (after st2 V)) (main_v40 : DevRef τ sig) = V (main_v40 : DevRef τ sig) := by
  rw [sub2_keep _ main_v40 (by decide), st3_keep _ main_v40 (by decide), st2_keep _ main_v40 (by decide)]

theorem segC_v121 (V : Valuation τ sig (Elt F)) :
    (sub3 (F := F)).result (after st5 (after st4 V)) (main_v121 : DevRef τ sig) = stage5 (stage4 (V (main_v80 : DevRef τ sig))) := by
  rw [sub3_keep _ main_v121 (by decide), stage5_out, stage4_out]
theorem segC_v122 (V : Valuation τ sig (Elt F)) :
    (sub3 (F := F)).result (after st5 (after st4 V)) (main_v122 : DevRef τ sig)
      = subf (V (main_v80 : DevRef τ sig)) (stage5 (stage4 (V (main_v80 : DevRef τ sig)))) := by
  rw [sub3_out, stage5_out, stage4_out, st5_keep _ main_v80 (by decide), st4_keep _ main_v80 (by decide)]
theorem segC_v40 (V : Valuation τ sig (Elt F)) :
    (sub3 (F := F)).result (after st5 (after st4 V)) (main_v40 : DevRef τ sig) = V (main_v40 : DevRef τ sig) := by
  rw [sub3_keep _ main_v40 (by decide), st5_keep _ main_v40 (by decide), st4_keep _ main_v40 (by decide)]
theorem segC_v81 (V : Valuation τ sig (Elt F)) :
    (sub3 (F := F)).result (after st5 (after st4 V)) (main_v81 : DevRef τ sig) = V (main_v81 : DevRef τ sig) := by
  rw [sub3_keep _ main_v81 (by decide), st5_keep _ main_v81 (by decide), st4_keep _ main_v81 (by decide)]

/-! ## The result -/

/-- The program's result from the argument's contents `X`: with `Y₁`, `Y₂`, `Y₃` the arrays after two, four and six
    stages, the stack of `X - Y₁`, `Y₁ - Y₂`, `Y₂ - Y₃` and `Y₃`. -/
theorem ref_out (V : Valuation τ sig (Elt F)) :
    after ops V (main_v127 : DevRef τ sig)
      = resultOf (subf (V (main_arg0 : DevRef τ sig)) (stage1 (stage0 (V (main_arg0 : DevRef τ sig)))))
          (subf (stage1 (stage0 (V (main_arg0 : DevRef τ sig)))) (stage3 (stage2 (stage1 (stage0 (V (main_arg0 : DevRef τ sig)))))))
          (subf (stage3 (stage2 (stage1 (stage0 (V (main_arg0 : DevRef τ sig))))))
            (stage5 (stage4 (stage3 (stage2 (stage1 (stage0 (V (main_arg0 : DevRef τ sig)))))))))
          (stage5 (stage4 (stage3 (stage2 (stage1 (stage0 (V (main_arg0 : DevRef τ sig)))))))) := by
  rw [after_ops, tail_out, segC_v40, segC_v81, segC_v122, segC_v121, segB_v40, segB_v81, segB_v80, segA_v40, segA_v39]

/-- On every device, for any float values, from any memory with zero counters: every weakly fair execution of @main
    terminates with the result buffer at `resultOf` of the differences of the staged arrays of the argument's launch
    contents, and the argument unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v127)
        = resultOf (subf (m ((c.tc : Thread nD τ).loc main_arg0)) (stage1 (stage0 (m ((c.tc : Thread nD τ).loc main_arg0)))))
            (subf (stage1 (stage0 (m ((c.tc : Thread nD τ).loc main_arg0))))
              (stage3 (stage2 (stage1 (stage0 (m ((c.tc : Thread nD τ).loc main_arg0)))))))
            (subf (stage3 (stage2 (stage1 (stage0 (m ((c.tc : Thread nD τ).loc main_arg0))))))
              (stage5 (stage4 (stage3 (stage2 (stage1 (stage0 (m ((c.tc : Thread nD τ).loc main_arg0)))))))))
            (stage5 (stage4 (stage3 (stage2 (stage1 (stage0 (m ((c.tc : Thread nD τ).loc main_arg0))))))))
      ∧ r.2.mem ((c.tc : Thread nD τ).loc main_arg0) = m ((c.tc : Thread nD τ).loc main_arg0) :=
  (θ_run defs _ _).mono (fun _ h c => ⟨(h c main_v127).trans (ref_out _), (h c main_arg0).trans (arg0_kept _)⟩)
    (run_main m ρ)

end Cert.ReferenceIdeal.RefRun

end
-- ==== Proof.KernelValue.lean ====
/- The kernel's result array as one function of its argument array, at the ideal instance, given the block
   mathematics as hypotheses.

   The call's grid has one point per image of the argument; point `t` reads image `t` and writes image `t` of each
   of the four result arrays, the sixteen images covering each array. So if `G` is a function of the whole
   argument whose image `t` is what the body stores from the argument's image `t` (for every `t`), the result
   array ends holding `G` of the argument. The five host operations after the call then give each result a unit
   axis and lay the four side by side: `resultOf`. -/
import proofs.«167050_j34797825032658_1_alg».proof.Proof.KernelIdealFrame
import Idealize.ShloMosaic.Lib.Pipeline.Value
import Idealize.ShloMosaic.Lib.ValueIdx
import Idealize.ShloMosaic.PureOps.Ideal

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Images and blocks

The argument is an array of sixteen 1024×1024 images. Grid point `t` works on image `t`: every window's index
map sends the point to block `(t, 0, 0)`, blocks being one image, so an index `y` of the block sits at
`(t, y₁, y₂)` of its array (`y₀` ranges over one value). -/

/-- The argument array on core `c`, as launched. -/
abbrev argOf (c : Dev nD) : S16x1024x1024.Idx → EReal := m ((c.tc : Thread nD τ).loc main_arg0)

/-- Image `t` of an array of sixteen images, as a one-image block. -/
abbrev imageOf (X : S16x1024x1024.Idx → EReal) (t : Fin 16) : S1x1024x1024.Idx → EReal :=
  fun y => X (ValueIdx.ix3 t (y 1) (y 2))

/-- A grid point as the number of its image. -/
abbrev pt (t : Fin cfg0.N) : Fin 16 := ⟨t.val, N_0 ▸ t.isLt⟩

/-- The zero offsets of the whole-buffer rectangle. -/
theorem hz : (![0, 0, 0] : Fin 3 → Nat) = fun _ => 0 := funext fun a => by fin_cases a <;> rfl

/-- Every window's block index at point `t` is `(t, 0, 0)`: decided over the sixteen points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- Where an index of point `t`'s block sits in the window's array, window by window. -/
theorem emb0 (t : Fin cfg0.N) (y : S1x1024x1024.Idx) :
    (((cfg0.win 0).blk t).view.emb y : S16x1024x1024.Idx) = ValueIdx.ix3 (pt t) (y 1) (y 2) := by
  obtain ⟨⟨e0, e1, e2⟩, -⟩ := idx_facts t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 1024 + 1 * (y 2).val = (y 2).val; omega
theorem emb1 (t : Fin cfg0.N) (y : S1x1024x1024.Idx) :
    (((cfg0.win 1).blk t).view.emb y : S16x1024x1024.Idx) = ValueIdx.ix3 (pt t) (y 1) (y 2) := by
  obtain ⟨-, ⟨e0, e1, e2⟩, -⟩ := idx_facts t
  funext a; apply Fin.ext
  match a with
  | ⟨0, _⟩ => show win0_1.index t (0 : Fin 3) * 1 + 1 * (y 0).val = t.val; have hy : (y 0).val < 1 := (y 0).isLt; omega
  | ⟨1, _⟩ => show win0_1.index t (1 : Fin 3) * 1024 + 1 * (y 1).val = (y 1).val; omega
  | ⟨2, _⟩ => show win0_1.index t (2 : Fin 3) * 1024 + 1 * (y 2).val = (y 2).val; omega
theorem emb2 (t : Fin cfg0.N) (y : S1x1024x1024.Idx) :
    (((cfg0.win 2).blk t).view.emb y : S16x1024x1024.Idx) = ValueIdx.ix3 (pt t) (y 1) (y 2) := by
  obtain ⟨-, -, ⟨e0, e1, e2⟩, -⟩ := idx_facts t
  funext a; apply Fin.ext
  match a with
  | ⟨0, _⟩ => show win0_2.index t (0 : Fin 3) * 1 + 1 * (y 0).val = t.val; have hy : (y 0).val < 1 := (y 0).isLt; omega
  | ⟨1, _⟩ => show win0_2.index t (1 : Fin 3) * 1024 + 1 * (y 1).val = (y 1).val; omega
  | ⟨2, _⟩ => show win0_2.index t (2 : Fin 3) * 1024 + 1 * (y 2).val = (y 2).val; omega
theorem emb3 (t : Fin cfg0.N) (y : S1x1024x1024.Idx) :
    (((cfg0.win 3).blk t).view.emb y : S16x1024x1024.Idx) = ValueIdx.ix3 (pt t) (y 1) (y 2) := by
  obtain ⟨-, -, -, ⟨e0, e1, e2⟩, -⟩ := idx_facts t
  funext a; apply Fin.ext
  match a with
  | ⟨0, _⟩ => show win0_3.index t (0 : Fin 3) * 1 + 1 * (y 0).val = t.val; have hy : (y 0).val < 1 := (y 0).isLt; omega
  | ⟨1, _⟩ => show win0_3.index t (1 : Fin 3) * 1024 + 1 * (y 1).val = (y 1).val; omega
  | ⟨2, _⟩ => show win0_3.index t (2 : Fin 3) * 1024 + 1 * (y 2).val = (y 2).val; omega
theorem emb4 (t : Fin cfg0.N) (y : S1x1024x1024.Idx) :
    (((cfg0.win 4).blk t).view.emb y : S16x1024x1024.Idx) = ValueIdx.ix3 (pt t) (y 1) (y 2) := by
  obtain ⟨-, -, -, -, e0, e1, e2⟩ := idx_facts t
  funext a; apply Fin.ext
  match a with
  | ⟨0, _⟩ => show win0_4.index t (0 : Fin 3) * 1 + 1 * (y 0).val = t.val; have hy : (y 0).val < 1 := (y 0).isLt; omega
  | ⟨1, _⟩ => show win0_4.index t (1 : Fin 3) * 1024 + 1 * (y 1).val = (y 1).val; omega
  | ⟨2, _⟩ => show win0_4.index t (2 : Fin 3) * 1024 + 1 * (y 2).val = (y 2).val; omega

/-- The input window's block at point `t` is image `t` of the argument. -/
theorem iblk_eq (c : Dev nD) (t : Fin cfg0.N) :
    (iblk m c 0 t : S1x1024x1024.Idx → EReal) = imageOf (argOf m c) (pt t) := by
  funext y
  unfold iblk
  rw [View.read_apply]
  show argOf m c (((cfg0.win 0).blk t).view.emb y) = _
  rw [emb0]
  rfl

/-! ## What a point writes back, given the block mathematics

`G` is a function of the whole argument array whose image `t` is the body's stored function of the argument's
image `t` (hypothesis `hG`, at every `t`); then what point `t` writes back through a result window is block `t` of
`G` of the argument. -/

section Blocks

variable (G1 G2 G3 G4 : (S16x1024x1024.Idx → EReal) → (S16x1024x1024.Idx → EReal))
variable (hG1 : ∀ (X : S16x1024x1024.Idx → EReal) (t : Fin 16),
    pay_w1 (F := Ideal) (fun y => X (ValueIdx.ix3 t (y 1) (y 2))) = fun y => G1 X (ValueIdx.ix3 t (y 1) (y 2)))
variable (hG2 : ∀ (X : S16x1024x1024.Idx → EReal) (t : Fin 16),
    pay_w2 (F := Ideal) (fun y => X (ValueIdx.ix3 t (y 1) (y 2))) = fun y => G2 X (ValueIdx.ix3 t (y 1) (y 2)))
variable (hG3 : ∀ (X : S16x1024x1024.Idx → EReal) (t : Fin 16),
    pay_w3 (F := Ideal) (fun y => X (ValueIdx.ix3 t (y 1) (y 2))) = fun y => G3 X (ValueIdx.ix3 t (y 1) (y 2)))
variable (hG4 : ∀ (X : S16x1024x1024.Idx → EReal) (t : Fin 16),
    pay_w4 (F := Ideal) (fun y => X (ValueIdx.ix3 t (y 1) (y 2))) = fun y => G4 X (ValueIdx.ix3 t (y 1) (y 2)))

include hG1 in
theorem flushed1_eq (c : Dev nD) (t : Fin cfg0.N) :
    (dats m 0 c).flushed 1 t = ((cfg0.win 1).blk t).view.read (Elt Ideal) (G1 (argOf m c)) := by
  show (cfg0.win 1).cut (grid0.coords t) ((dats m 0 c).after 1 t) = _
  rw [after0_1]
  unfold out0_1
  rw [View.canon_unit_zero hz]
  simp only [View.ld_unit_zero (S := S1x1024x1024) hz]
  rw [iblk_eq]
  funext y
  show pay_w1 (F := Ideal) (imageOf (argOf m c) (pt t)) y = G1 (argOf m c) (((cfg0.win 1).blk t).view.emb y)
  rw [emb1]
  exact congrFun (hG1 (argOf m c) (pt t)) y

include hG2 in
theorem flushed2_eq (c : Dev nD) (t : Fin cfg0.N) :
    (dats m 0 c).flushed 2 t = ((cfg0.win 2).blk t).view.read (Elt Ideal) (G2 (argOf m c)) := by
  show (cfg0.win 2).cut (grid0.coords t) ((dats m 0 c).after 2 t) = _
  rw [after0_2]
  unfold out0_2
  rw [View.canon_unit_zero hz]
  simp only [View.ld_unit_zero (S := S1x1024x1024) hz]
  rw [iblk_eq]
  funext y
  show pay_w2 (F := Ideal) (imageOf (argOf m c) (pt t)) y = G2 (argOf m c) (((cfg0.win 2).blk t).view.emb y)
  rw [emb2]
  exact congrFun (hG2 (argOf m c) (pt t)) y

include hG3 in
theorem flushed3_eq (c : Dev nD) (t : Fin cfg0.N) :
    (dats m 0 c).flushed 3 t = ((cfg0.win 3).blk t).view.read (Elt Ideal) (G3 (argOf m c)) := by
  show (cfg0.win 3).cut (grid0.coords t) ((dats m 0 c).after 3 t) = _
  rw [after0_3]
  unfold out0_3
  rw [View.canon_unit_zero hz]
  simp only [View.ld_unit_zero (S := S1x1024x1024) hz]
  rw [iblk_eq]
  funext y
  show pay_w3 (F := Ideal) (imageOf (argOf m c) (pt t)) y = G3 (argOf m c) (((cfg0.win 3).blk t).view.emb y)
  rw [emb3]
  exact congrFun (hG3 (argOf m c) (pt t)) y

include hG4 in
theorem flushed4_eq (c : Dev nD) (t : Fin cfg0.N) :
    (dats m 0 c).flushed 4 t = ((cfg0.win 4).blk t).view.read (Elt Ideal) (G4 (argOf m c)) := by
  show (cfg0.win 4).cut (grid0.coords t) ((dats m 0 c).after 4 t) = _
  rw [after0_4]
  unfold out0_4
  rw [View.canon_unit_zero hz]
  simp only [View.ld_unit_zero (S := S1x1024x1024) hz]
  rw [iblk_eq]
  funext y
  show pay_w4 (F := Ideal) (imageOf (argOf m c) (pt t)) y = G4 (argOf m c) (((cfg0.win 4).blk t).view.emb y)
  rw [emb4]
  exact congrFun (hG4 (argOf m c) (pt t)) y

/-! ## The sixteen blocks cover each result array -/

/-- An index is in point `t`'s block of result window 1 iff each coordinate lies in the block's range on its axis. -/
theorem mem_blk1 (t : Fin cfg0.N) (i : S16x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0_0).slice (win0_1.rect t)).set ↔ _
  rw [View.set_slice_whole, Rect.mem_set_unit]
  exact Iff.rfl

/-- Every index of result 1's array is in the block of the point numbered by its image. -/
theorem covered1 (i : S16x1024x1024.Idx) :
    ∃ t : Fin cfg0.N, (cfg0.win 1).flush t = true ∧ i ∈ ((cfg0.win 1).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by have hN : cfg0.N = 16 := N_0; omega⟩, rfl⟩
  obtain ⟨-, ⟨e0, e1, e2⟩, -⟩ := idx_facts t
  refine ⟨t, flush0_1 t, ?_⟩
  rw [mem_blk1]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 1024 ≤ (i 2).val ∧ (i 2).val < win0_1.index t (2 : Fin 3) * 1024 + 1024
    omega

/-- An index is in point `t`'s block of result window 2 iff each coordinate lies in the block's range on its axis. -/
theorem mem_blk2 (t : Fin cfg0.N) (i : S16x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0_1).slice (win0_2.rect t)).set ↔ _
  rw [View.set_slice_whole, Rect.mem_set_unit]
  exact Iff.rfl

/-- Every index of result 2's array is in the block of the point numbered by its image. -/
theorem covered2 (i : S16x1024x1024.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by have hN : cfg0.N = 16 := N_0; omega⟩, rfl⟩
  obtain ⟨-, -, ⟨e0, e1, e2⟩, -⟩ := idx_facts t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- An index is in point `t`'s block of result window 3 iff each coordinate lies in the block's range on its axis. -/
theorem mem_blk3 (t : Fin cfg0.N) (i : S16x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0_2).slice (win0_3.rect t)).set ↔ _
  rw [View.set_slice_whole, Rect.mem_set_unit]
  exact Iff.rfl

/-- Every index of result 3's array is in the block of the point numbered by its image. -/
theorem covered3 (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by have hN : cfg0.N = 16 := N_0; omega⟩, rfl⟩
  obtain ⟨-, -, -, ⟨e0, e1, e2⟩, -⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 1024 ≤ (i 2).val ∧ (i 2).val < win0_3.index t (2 : Fin 3) * 1024 + 1024
    omega

/-- An index is in point `t`'s block of result window 4 iff each coordinate lies in the block's range on its axis. -/
theorem mem_blk4 (t : Fin cfg0.N) (i : S16x1024x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v0_3).slice (win0_4.rect t)).set ↔ _
  rw [View.set_slice_whole, Rect.mem_set_unit]
  exact Iff.rfl

/-- Every index of result 4's array is in the block of the point numbered by its image. -/
theorem covered4 (i : S16x1024x1024.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val :=
    ⟨⟨(i 0).val, by have hN : cfg0.N = 16 := N_0; omega⟩, rfl⟩
  obtain ⟨-, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 1024 ≤ (i 2).val ∧ (i 2).val < win0_4.index t (2 : Fin 3) * 1024 + 1024
    omega

/-! ## The result arrays after the run -/

include hG1 in
/-- So result 1's array ends holding `G1` of the argument. -/
theorem final1 (c : Dev nD) : (dats m 0 c).arrAt 1 cfg0.N = G1 (argOf m c) :=
  (dats m 0 c).arrAt_eq_of_cover 1 (G1 (argOf m c)) (fun t _ => flushed1_eq m G1 hG1 c t) covered1

include hG2 in
/-- So result 2's array ends holding `G2` of the argument. -/
theorem final2 (c : Dev nD) : (dats m 0 c).arrAt 2 cfg0.N = G2 (argOf m c) :=
  (dats m 0 c).arrAt_eq_of_cover 2 (G2 (argOf m c)) (fun t _ => flushed2_eq m G2 hG2 c t) covered2

include hG3 in
/-- So result 3's array ends holding `G3` of the argument. -/
theorem final3 (c : Dev nD) : (dats m 0 c).arrAt 3 cfg0.N = G3 (argOf m c) :=
  (dats m 0 c).arrAt_eq_of_cover 3 (G3 (argOf m c)) (fun t _ => flushed3_eq m G3 hG3 c t) covered3

include hG4 in
/-- So result 4's array ends holding `G4` of the argument. -/
theorem final4 (c : Dev nD) : (dats m 0 c).arrAt 4 cfg0.N = G4 (argOf m c) :=
  (dats m 0 c).arrAt_eq_of_cover 4 (G4 (argOf m c)) (fun t _ => flushed4_eq m G4 hG4 c t) covered4

/-! ## The five host operations as one function -/

/-- Each result array given a unit axis after the batch axis, and the four laid side by side along it. -/
def resultOf (a b c d : S16x1024x1024.Idx → EReal) : S16x4x1024x1024.Idx → EReal :=
  concatenate S16x4x1024x1024 1
    [⟨S16x1x1024x1024, broadcastInDim S16x1x1024x1024 ![0, 2, 3] bcast_S16x1024x1024_S16x1x1024x1024_0_2_3 a⟩,
     ⟨S16x1x1024x1024, broadcastInDim S16x1x1024x1024 ![0, 2, 3] bcast_S16x1024x1024_S16x1x1024x1024_0_2_3 b⟩,
     ⟨S16x1x1024x1024, broadcastInDim S16x1x1024x1024 ![0, 2, 3] bcast_S16x1024x1024_S16x1x1024x1024_0_2_3 c⟩,
     ⟨S16x1x1024x1024, broadcastInDim S16x1x1024x1024 ![0, 2, 3] bcast_S16x1024x1024_S16x1x1024x1024_0_2_3 d⟩]
    concatenates_S16x1x1024x1024_S16x1x1024x1024_S16x1x1024x1024_S16x1x1024x1024_S16x4x1024x1024_d1

/-- From any buffer contents `W`, the five operations leave that function of the four result arrays in `main_v5`. -/
theorem tail_eq (W : Valuation τ sig (Elt Ideal)) :
    StableHlo.after (hostOps1 (F := Ideal)) W (Proc.devRef .tc main_v5)
      = resultOf (W (Proc.devRef .tc main_v0_0)) (W (Proc.devRef .tc main_v0_1))
          (W (Proc.devRef .tc main_v0_2)) (W (Proc.devRef .tc main_v0_3)) := by
  after_results
  rfl

include hG1 hG2 hG3 hG4 in
/-- What the host operations leave in `main_v5` after the call: the four arrays are the call's results, each
    `G` of the argument. -/
theorem result_eq (c : Dev nD) :
    Pipeline.afterTail₀ cfgs (dats m) 0 (V0 m) [hostOps1] c main_v5
      = resultOf (G1 (argOf m c)) (G2 (argOf m c)) (G3 (argOf m c)) (G4 (argOf m c)) := by
  unfold Pipeline.afterTail₀
  refine (tail_eq _).trans ?_
  have h1 := (Pipeline.withArrays_arr spec0 launch0.win.arr_inj c (V0 m c) (fun w => (dats m 0 c).arrAt w cfg0.N) 1).trans (final1 m G1 hG1 c)
  have h2 := (Pipeline.withArrays_arr spec0 launch0.win.arr_inj c (V0 m c) (fun w => (dats m 0 c).arrAt w cfg0.N) 2).trans (final2 m G2 hG2 c)
  have h3 := (Pipeline.withArrays_arr spec0 launch0.win.arr_inj c (V0 m c) (fun w => (dats m 0 c).arrAt w cfg0.N) 3).trans (final3 m G3 hG3 c)
  have h4 := (Pipeline.withArrays_arr spec0 launch0.win.arr_inj c (V0 m c) (fun w => (dats m 0 c).arrAt w cfg0.N) 4).trans (final4 m G4 hG4 c)
  exact congr (congr (congr (congrArg resultOf h1) h2) h3) h4

include hG1 hG2 hG3 hG4 in
/-- THE KERNEL'S VALUE: every weakly fair execution of @main terminates with `main_v5` at `resultOf` of the four
    functions of the argument array, and the argument array as launched. -/
theorem run_value :
    θ_run (defs (F := Ideal)) (onTc (τ := τ) (main (F := Ideal))) ⟨m, fun _ => 0, ρ⟩ fun r => ∀ c : Dev nD,
      r.2.mem ((c.tc : Thread nD τ).loc main_v5)
          = resultOf (G1 (argOf m c)) (G2 (argOf m c)) (G3 (argOf m c)) (G4 (argOf m c))
        ∧ r.2.mem ((c.tc : Thread nD τ).loc main_arg0) = argOf m c :=
  (θ_run defs _ _).mono (fun r h c =>
      ⟨((h c).2 main_v5 (Pipeline.mem_restRefs_of main_v5 (by decide) (by decide))).trans (result_eq m G1 G2 G3 G4 hG1 hG2 hG3 hG4 c),
       ((h c).1 0).trans (((dats m 0 c).arrAt_in 0 rfl _).trans (A_eq m c 0))⟩)
    (run_main m ρ)

end Blocks

end Cert.KernelIdeal.HandValue
end
-- ==== Proof.Wavelet.lean ====
/-
  The à-trous B3-spline wavelet transform of 1024 × 1024 images, three levels, as plain mathematics over the extended
  reals.  An image stack is a function of three naturals (image, row, column).  One level at spacing d smooths along
  the rows and then along the columns with the five taps 1/16, 1/4, 3/8, 1/4, 1/16 at spacing d, the image continued
  past its border by reflection about the border sample (the border itself not repeated); the planes are the
  differences of successive smoothings and the last smoothing.
-/
import Idealize.ShloMosaic.PureOps.Ideal

noncomputable section

namespace Cert.Wavelet

open Idealize.ShloMosaic

/-- A stack of images read at (image, row, column). -/
abbrev N3 : Type := Nat → Nat → Nat → EReal

/-- Reflection of a padded coordinate `j` in [0, L + 2p) back into [0, L): the pad of width `p` on either side mirrors
    the samples next to the border, the border sample itself not repeated. -/
def mirror (p L j : Nat) : Nat :=
  if j < p then p - j else if j < p + L then j - p else 2 * L + p - 2 - j

theorem mirror_lt (p L j : Nat) (hp : p < L) (hj : j < L + 2 * p) : mirror p L j < L := by
  unfold mirror; split_ifs <;> omega

/-- The taps' weights, as the exact values of their binary32 words. -/
def w16 : EReal := Ideal.ofBits .f32 0x3D800000#32
def w4 : EReal := Ideal.ofBits .f32 0x3E800000#32
def w38 : EReal := Ideal.ofBits .f32 0x3EC00000#32

/-- Five taps at spacing `d` of a sequence, from position `i`, summed left to right. -/
def tap5 (g : Nat → EReal) (d i : Nat) : EReal :=
  w16 * g i + w4 * g (i + d) + w38 * g (i + 2 * d) + w4 * g (i + 3 * d) + w16 * g (i + 4 * d)

/-- Smoothing along the rows at spacing `d`. -/
def smoothH (d : Nat) (f : N3) : N3 := fun a r c => tap5 (fun j => f a (mirror (2 * d) 1024 j) c) d r
/-- Smoothing along the columns at spacing `d`. -/
def smoothW (d : Nat) (f : N3) : N3 := fun a r c => tap5 (fun j => f a r (mirror (2 * d) 1024 j)) d c
/-- One level: rows, then columns. -/
def level (d : Nat) (f : N3) : N3 := smoothW d (smoothH d f)

def y1 (f : N3) : N3 := level 1 f
def y2 (f : N3) : N3 := level 2 (y1 f)
def y3 (f : N3) : N3 := level 4 (y2 f)

/-- The four planes: three detail planes and the coarse remainder. -/
def plane1 (f : N3) : N3 := fun a r c => f a r c - y1 f a r c
def plane2 (f : N3) : N3 := fun a r c => y1 f a r c - y2 f a r c
def plane3 (f : N3) : N3 := fun a r c => y2 f a r c - y3 f a r c
def plane4 (f : N3) : N3 := y3 f

end Cert.Wavelet

end
-- ==== Proof.LibGrid3.lean ====
/-
  Rank-3 arrays read at natural-number coordinates.  An array over the shape [n0, n1, n2] is read as a total function
  of three naturals (a default value outside the box), so that a shifted, reflected or concatenated array is stated
  by plain arithmetic on the coordinates: a slice shifts them, a concatenation along an axis reads the piece the
  coordinate falls in, a reversal mirrors one coordinate.
-/
import Idealize.ShloMosaic.Lib.ValueIdx
import Idealize.ShloMosaic.Lib.Pipeline.Value

noncomputable section

namespace Cert.Grid3

open Idealize.ShloMosaic Idealize.ShloMosaic.ValueIdx

variable {α : Type} [Inhabited α]

/-- The shape [n0, n1, n2]. -/
abbrev Sh (n0 n1 n2 : Nat) : Shape := ⟨3, ![n0, n1, n2]⟩

/-- The array read at three naturals: its entry inside the box, the default value outside. -/
def at3 {n0 n1 n2 : Nat} (x : (Sh n0 n1 n2).Idx → α) (a r c : Nat) : α :=
  if h : a < n0 ∧ r < n1 ∧ c < n2 then x (ix3 ⟨a, h.1⟩ ⟨r, h.2.1⟩ ⟨c, h.2.2⟩) else default

/-- Reading at the coordinates of an index is the entry at that index. -/
theorem at3_eq {n0 n1 n2 : Nat} (x : (Sh n0 n1 n2).Idx → α) (k : (Sh n0 n1 n2).Idx) (a r c : Nat)
    (h0 : (k 0).val = a) (h1 : (k 1).val = r) (h2 : (k 2).val = c) : at3 x a r c = x k := by
  have ha : a < n0 := h0 ▸ (k 0).isLt
  have hr : r < n1 := h1 ▸ (k 1).isLt
  have hc : c < n2 := h2 ▸ (k 2).isLt
  unfold at3
  rw [dif_pos ⟨ha, hr, hc⟩]
  refine congrArg x (funext fun d => ?_)
  match d with
  | ⟨0, _⟩ => exact Fin.ext h0.symm
  | ⟨1, _⟩ => exact Fin.ext h1.symm
  | ⟨2, _⟩ => exact Fin.ext h2.symm

/-- The entry at an index is the reading at its coordinates. -/
theorem at3_idx {n0 n1 n2 : Nat} (x : (Sh n0 n1 n2).Idx → α) (k : (Sh n0 n1 n2).Idx) :
    x k = at3 x (k 0).val (k 1).val (k 2).val := (at3_eq x k _ _ _ rfl rfl rfl).symm

/-- Two arrays with the same readings inside the box are equal. -/
theorem ext_at3 {n0 n1 n2 : Nat} (x y : (Sh n0 n1 n2).Idx → α)
    (h : ∀ a r c, a < n0 → r < n1 → c < n2 → at3 x a r c = at3 y a r c) : x = y := by
  funext k
  rw [at3_idx x k, at3_idx y k]
  exact h _ _ _ (k 0).isLt (k 1).isLt (k 2).isLt

/-- A unit-stride slice read inside its box is the operand read at the shifted coordinates. -/
theorem at3_slice {n0 n1 n2 m0 m1 m2 : Nat} (off : Fin 3 → Nat) (x : (Sh n0 n1 n2).Idx → α)
    (h : (Sh n0 n1 n2).Slices off (Sh m0 m1 m2)) (a r c : Nat) (ha : a < m0) (hr : r < m1) (hc : c < m2) :
    at3 (extractStridedSlice (Sh m0 m1 m2) off x h) a r c = at3 x (off 0 + a) (off 1 + r) (off 2 + c) := by
  rw [at3_eq (extractStridedSlice (Sh m0 m1 m2) off x h) (ix3 ⟨a, ha⟩ ⟨r, hr⟩ ⟨c, hc⟩) a r c rfl rfl rfl]
  unfold extractStridedSlice
  exact (at3_eq x _ _ _ _ rfl rfl rfl).symm

/-- A reversal along axis 1 mirrors the middle coordinate. -/
theorem at3_reverse1 {n0 n1 n2 : Nat} (x : (Sh n0 n1 n2).Idx → α) (a r c : Nat) (ha : a < n0) (hr : r < n1) (hc : c < n2) :
    at3 (Host.reverse (s := Sh n0 n1 n2) [1] x) a r c = at3 x a (n1 - 1 - r) c := by
  rw [at3_eq (Host.reverse (s := Sh n0 n1 n2) [1] x) (ix3 ⟨a, ha⟩ ⟨r, hr⟩ ⟨c, hc⟩) a r c rfl rfl rfl]
  unfold Host.reverse
  refine (at3_eq x _ _ _ _ ?_ ?_ ?_).symm
  · rfl
  · show (Fin.rev (⟨r, hr⟩ : Fin n1)).val = n1 - 1 - r
    rw [Fin.val_rev]; show n1 - (r + 1) = n1 - 1 - r; omega
  · rfl

/-- A reversal along axis 2 mirrors the last coordinate. -/
theorem at3_reverse2 {n0 n1 n2 : Nat} (x : (Sh n0 n1 n2).Idx → α) (a r c : Nat) (ha : a < n0) (hr : r < n1) (hc : c < n2) :
    at3 (Host.reverse (s := Sh n0 n1 n2) [2] x) a r c = at3 x a r (n2 - 1 - c) := by
  rw [at3_eq (Host.reverse (s := Sh n0 n1 n2) [2] x) (ix3 ⟨a, ha⟩ ⟨r, hr⟩ ⟨c, hc⟩) a r c rfl rfl rfl]
  unfold Host.reverse
  refine (at3_eq x _ _ _ _ ?_ ?_ ?_).symm
  · rfl
  · rfl
  · show (Fin.rev (⟨c, hc⟩ : Fin n2)).val = n2 - 1 - c
    rw [Fin.val_rev]; show n2 - (c + 1) = n2 - 1 - c; omega

end Cert.Grid3

end
-- ==== Proof.Planes.lean ====
/-
  The transform acts image by image and only looks inside the 1024 × 1024 box: two stacks that agree on one image
  (possibly under different image numbers) have the same smoothings, levels and planes there.  And the four planes
  of a stack of sixteen images, as arrays.
-/
import proofs.«167050_j34797825032658_1_alg».proof.Proof.Wavelet
import proofs.«167050_j34797825032658_1_alg».proof.Proof.LibGrid3

noncomputable section

namespace Cert.Wavelet

open Idealize.ShloMosaic Cert.Grid3

theorem smoothH_congr (d : Nat) (hd : 2 * d < 1024) (f g : N3) (a b r c : Nat) (hr : r < 1024)
    (h : ∀ j, j < 1024 → f a j c = g b j c) : smoothH d f a r c = smoothH d g b r c := by
  unfold smoothH tap5
  simp only []
  rw [h _ (mirror_lt (2 * d) 1024 r hd (by omega)), h _ (mirror_lt (2 * d) 1024 (r + d) hd (by omega)),
    h _ (mirror_lt (2 * d) 1024 (r + 2 * d) hd (by omega)), h _ (mirror_lt (2 * d) 1024 (r + 3 * d) hd (by omega)),
    h _ (mirror_lt (2 * d) 1024 (r + 4 * d) hd (by omega))]

theorem smoothW_congr (d : Nat) (hd : 2 * d < 1024) (f g : N3) (a b r c : Nat) (hc : c < 1024)
    (h : ∀ j, j < 1024 → f a r j = g b r j) : smoothW d f a r c = smoothW d g b r c := by
  unfold smoothW tap5
  simp only []
  rw [h _ (mirror_lt (2 * d) 1024 c hd (by omega)), h _ (mirror_lt (2 * d) 1024 (c + d) hd (by omega)),
    h _ (mirror_lt (2 * d) 1024 (c + 2 * d) hd (by omega)), h _ (mirror_lt (2 * d) 1024 (c + 3 * d) hd (by omega)),
    h _ (mirror_lt (2 * d) 1024 (c + 4 * d) hd (by omega))]

theorem level_congr (d : Nat) (hd : 2 * d < 1024) (f g : N3) (a b r c : Nat) (hr : r < 1024) (hc : c < 1024)
    (h : ∀ r c, r < 1024 → c < 1024 → f a r c = g b r c) : level d f a r c = level d g b r c := by
  unfold level
  exact smoothW_congr d hd _ _ a b r c hc fun j hj => smoothH_congr d hd f g a b r j hr fun i hi => h i j hi hj

theorem y1_congr (f g : N3) (a b r c : Nat) (hr : r < 1024) (hc : c < 1024)
    (h : ∀ r c, r < 1024 → c < 1024 → f a r c = g b r c) : y1 f a r c = y1 g b r c :=
  level_congr 1 (by omega) f g a b r c hr hc h

theorem y2_congr (f g : N3) (a b r c : Nat) (hr : r < 1024) (hc : c < 1024)
    (h : ∀ r c, r < 1024 → c < 1024 → f a r c = g b r c) : y2 f a r c = y2 g b r c :=
  level_congr 2 (by omega) _ _ a b r c hr hc fun r' c' hr' hc' => y1_congr f g a b r' c' hr' hc' h

theorem y3_congr (f g : N3) (a b r c : Nat) (hr : r < 1024) (hc : c < 1024)
    (h : ∀ r c, r < 1024 → c < 1024 → f a r c = g b r c) : y3 f a r c = y3 g b r c :=
  level_congr 4 (by omega) _ _ a b r c hr hc fun r' c' hr' hc' => y2_congr f g a b r' c' hr' hc' h

theorem plane1_congr (f g : N3) (a b r c : Nat) (hr : r < 1024) (hc : c < 1024)
    (h : ∀ r c, r < 1024 → c < 1024 → f a r c = g b r c) : plane1 f a r c = plane1 g b r c := by
  unfold plane1; rw [h r c hr hc, y1_congr f g a b r c hr hc h]

theorem plane2_congr (f g : N3) (a b r c : Nat) (hr : r < 1024) (hc : c < 1024)
    (h : ∀ r c, r < 1024 → c < 1024 → f a r c = g b r c) : plane2 f a r c = plane2 g b r c := by
  unfold plane2; rw [y1_congr f g a b r c hr hc h, y2_congr f g a b r c hr hc h]

theorem plane3_congr (f g : N3) (a b r c : Nat) (hr : r < 1024) (hc : c < 1024)
    (h : ∀ r c, r < 1024 → c < 1024 → f a r c = g b r c) : plane3 f a r c = plane3 g b r c := by
  unfold plane3; rw [y2_congr f g a b r c hr hc h, y3_congr f g a b r c hr hc h]

theorem plane4_congr (f g : N3) (a b r c : Nat) (hr : r < 1024) (hc : c < 1024)
    (h : ∀ r c, r < 1024 → c < 1024 → f a r c = g b r c) : plane4 f a r c = plane4 g b r c :=
  y3_congr f g a b r c hr hc h

/-- The planes of a stack of sixteen images, as arrays over [16, 1024, 1024]. -/
def G1 (X : (Sh 16 1024 1024).Idx → EReal) : (Sh 16 1024 1024).Idx → EReal :=
  fun i => plane1 (at3 X) (i 0).val (i 1).val (i 2).val
def G2 (X : (Sh 16 1024 1024).Idx → EReal) : (Sh 16 1024 1024).Idx → EReal :=
  fun i => plane2 (at3 X) (i 0).val (i 1).val (i 2).val
def G3 (X : (Sh 16 1024 1024).Idx → EReal) : (Sh 16 1024 1024).Idx → EReal :=
  fun i => plane3 (at3 X) (i 0).val (i 1).val (i 2).val
def G4 (X : (Sh 16 1024 1024).Idx → EReal) : (Sh 16 1024 1024).Idx → EReal :=
  fun i => plane4 (at3 X) (i 0).val (i 1).val (i 2).val

end Cert.Wavelet

end
-- ==== Proof.LibConcatRead.lean ====
/-
  A concatenation read at an index: SOME piece of the list holds the index's coordinate along the axis, and the
  concatenation there is that piece read at the same coordinates off the axis and, on the axis, at the coordinate
  less the extents of the pieces before it.
-/
import Idealize.ShloMosaic.Lib.Pipeline.Value

noncomputable section

namespace Cert.ConcatRead

open Idealize.ShloMosaic

/-- Where a position falls among sizes laid end to end: the sizes before its piece and its offset in the piece add
    up to the position. -/
theorem locate_spec' : ∀ (ns : List Nat) (c : Nat) (h : c < ns.sum) (kr : (k : Fin ns.length) × Fin ns[k]),
    locate ns c h = kr → (ns.take kr.1.val).sum + kr.2.val = c
  | [], _, h, _, _ => absurd h (Nat.not_lt_zero _)
  | n :: ns, c, h, kr, hkr => by
    rw [locate] at hkr
    split at hkr
    · subst hkr; simp
    · next hc =>
      subst hkr
      have ih := locate_spec' ns (c - n) (by rw [List.sum_cons] at h; omega) _ rfl
      simp only [Fin.val_succ, List.take_succ_cons, List.sum_cons]
      omega

theorem locate_spec (ns : List Nat) (c : Nat) (h : c < ns.sum) :
    (ns.take (locate ns c h).1.val).sum + (locate ns c h).2.val = c := locate_spec' ns c h _ rfl

variable {α : Type}

/-- The concatenation of `xs` along axis `a`, read at `j`, is one of the pieces read at an index that agrees with
    `j` off the axis and sits, on the axis, at `j`'s coordinate less the extents of the earlier pieces. -/
theorem concat_read {t : Shape} (a : Fin t.rank) (xs : List ((s : Shape) × (s.Idx → α)))
    (h : Shape.Concatenates (xs.map (·.1)) t a) (j : t.Idx) :
    ∃ (k : Nat) (hk : k < xs.length) (hr : (xs[k]).1.rank = t.rank) (i : (xs[k]).1.Idx),
      concatenate t a xs h j = (xs[k]).2 i
      ∧ (∀ b : Fin (xs[k]).1.rank, b.cast hr ≠ a → (i b).val = (j (b.cast hr)).val)
      ∧ (((xs.take k).map (·.1)).map fun s => if h : s.rank = t.rank then s.size (a.cast h.symm) else 0).sum
          + (i (a.cast hr.symm)).val = (j a).val := by
  let ns : List Nat := (xs.map (·.1)).map fun s => if h : s.rank = t.rank then s.size (a.cast h.symm) else 0
  have PF : (j a).val < ns.sum := by rw [h.2.2]; exact (j a).isLt
  let kr := locate ns (j a).val PF
  have hk : kr.1.val < xs.length := by simpa [ns] using kr.1.isLt
  have hp : (xs[kr.1.val]).1 ∈ xs.map (·.1) := List.mem_map.2 ⟨xs[kr.1.val], List.getElem_mem hk, rfl⟩
  have hr : (xs[kr.1.val]).1.rank = t.rank := (h.2.1 _ hp).1
  have hns : ns[kr.1.val]'(by simpa [ns] using hk) = (xs[kr.1.val]).1.size (a.cast hr.symm) := by
    simp [ns, dif_pos hr]
  refine ⟨kr.1.val, hk, hr, fun b =>
      if hb : b.cast hr = a then
        kr.2.cast (by rw [Fin.getElem_fin, hns, ← hb]; rfl)
      else (j (b.cast hr)).cast ((h.2.1 _ hp).2 (b.cast hr) hb).symm, rfl, ?_, ?_⟩
  · intro b hb
    beta_reduce
    rw [dif_neg hb]; rfl
  · have hs := locate_spec ns (j a).val PF
    beta_reduce
    rw [dif_pos (show (a.cast hr.symm).cast hr = a from rfl)]
    have e : (((xs.take kr.1.val).map (·.1)).map fun s => if h : s.rank = t.rank then s.size (a.cast h.symm) else 0)
        = ns.take kr.1.val := by simp only [ns, List.map_take]
    rw [e]
    exact hs

end Cert.ConcatRead

end
-- ==== Proof.LibPieces.lean ====
/-
  Reading, at natural-number coordinates, an array assembled from pieces along axis 1 or axis 2 of a rank-3 shape:
  if every piece, read at an index of its own, is a given function `G` of the coordinates — the coordinate on the
  axis counted from the extents of the pieces before it — then the concatenation is `G` at every place of the box.
  And the slices, pointwise products, sums and differences such pieces are made of, read the same way.
-/
import proofs.«167050_j34797825032658_1_alg».proof.Proof.LibGrid3
import proofs.«167050_j34797825032658_1_alg».proof.Proof.LibConcatRead

noncomputable section

namespace Cert.Grid3

open Idealize.ShloMosaic Idealize.ShloMosaic.ValueIdx Cert.ConcatRead

variable {α : Type} [Inhabited α]

/-- A slice read at an index of its own shape is the operand read at the shifted coordinates. -/
theorem slice_idx {n0 n1 n2 m0 m1 m2 : Nat} (o0 o1 o2 : Nat) (x : (Sh n0 n1 n2).Idx → α)
    (h : (Sh n0 n1 n2).Slices ![o0, o1, o2] (Sh m0 m1 m2)) (i : (Sh m0 m1 m2).Idx) :
    extractStridedSlice (Sh m0 m1 m2) ![o0, o1, o2] x h i = at3 x (o0 + (i 0).val) (o1 + (i 1).val) (o2 + (i 2).val) := by
  unfold extractStridedSlice
  exact (at3_eq x _ _ _ _ rfl rfl rfl).symm

/-- The extents, along axis `ax` of `t`, of the first `k` pieces. -/
def preExt (t : Shape) (ax : Fin t.rank) (xs : List ((s : Shape) × (s.Idx → α))) (k : Nat) : Nat :=
  (((xs.take k).map (·.1)).map fun s => if h : s.rank = t.rank then s.size (ax.cast h.symm) else 0).sum

/-- Pieces laid along axis 1: if each piece read at its own index is `G` of the coordinates (the middle one counted
    from the earlier pieces' extents), the concatenation read inside the box is `G`. -/
theorem concat_at3_axis1 {n0 n1 n2 : Nat} (xs : List ((s : Shape) × (s.Idx → α)))
    (h : Shape.Concatenates (xs.map (·.1)) (Sh n0 n1 n2) (1 : Fin 3)) (G : Nat → Nat → Nat → α)
    (hG : ∀ (k : Nat) (hk : k < xs.length) (hr : (xs[k]).1.rank = 3) (i : (xs[k]).1.Idx),
        (xs[k]).2 i = G (i ((0 : Fin 3).cast hr.symm)).val
          (preExt (Sh n0 n1 n2) 1 xs k + (i ((1 : Fin 3).cast hr.symm)).val) (i ((2 : Fin 3).cast hr.symm)).val)
    (a r c : Nat) (ha : a < n0) (hr : r < n1) (hc : c < n2) :
    at3 (concatenate (Sh n0 n1 n2) 1 xs h) a r c = G a r c := by
  rw [at3_eq _ (ix3 ⟨a, ha⟩ ⟨r, hr⟩ ⟨c, hc⟩) a r c rfl rfl rfl]
  obtain ⟨k, hk, hrk, i, e, hoff, hax⟩ := concat_read (1 : Fin 3) xs h (ix3 ⟨a, ha⟩ ⟨r, hr⟩ ⟨c, hc⟩)
  rw [e, hG k hk hrk i]
  have h0 := hoff ((0 : Fin 3).cast hrk.symm) (fun h => absurd (show (0 : Nat) = 1 from congrArg Fin.val h) (by decide))
  have h2 := hoff ((2 : Fin 3).cast hrk.symm) (fun h => absurd (show (2 : Nat) = 1 from congrArg Fin.val h) (by decide))
  have h1 : preExt (Sh n0 n1 n2) 1 xs k + (i ((1 : Fin 3).cast hrk.symm)).val = r := hax
  rw [h0, h1, h2]; rfl

/-- Pieces laid along axis 2, likewise. -/
theorem concat_at3_axis2 {n0 n1 n2 : Nat} (xs : List ((s : Shape) × (s.Idx → α)))
    (h : Shape.Concatenates (xs.map (·.1)) (Sh n0 n1 n2) (2 : Fin 3)) (G : Nat → Nat → Nat → α)
    (hG : ∀ (k : Nat) (hk : k < xs.length) (hr : (xs[k]).1.rank = 3) (i : (xs[k]).1.Idx),
        (xs[k]).2 i = G (i ((0 : Fin 3).cast hr.symm)).val (i ((1 : Fin 3).cast hr.symm)).val
          (preExt (Sh n0 n1 n2) 2 xs k + (i ((2 : Fin 3).cast hr.symm)).val))
    (a r c : Nat) (ha : a < n0) (hr : r < n1) (hc : c < n2) :
    at3 (concatenate (Sh n0 n1 n2) 2 xs h) a r c = G a r c := by
  rw [at3_eq _ (ix3 ⟨a, ha⟩ ⟨r, hr⟩ ⟨c, hc⟩) a r c rfl rfl rfl]
  obtain ⟨k, hk, hrk, i, e, hoff, hax⟩ := concat_read (2 : Fin 3) xs h (ix3 ⟨a, ha⟩ ⟨r, hr⟩ ⟨c, hc⟩)
  rw [e, hG k hk hrk i]
  have h0 := hoff ((0 : Fin 3).cast hrk.symm) (fun h => absurd (show (0 : Nat) = 2 from congrArg Fin.val h) (by decide))
  have h1 := hoff ((1 : Fin 3).cast hrk.symm) (fun h => absurd (show (1 : Nat) = 2 from congrArg Fin.val h) (by decide))
  have h2 : preExt (Sh n0 n1 n2) 2 xs k + (i ((2 : Fin 3).cast hrk.symm)).val = c := hax
  rw [h0, h1, h2]; rfl

end Cert.Grid3

end
-- ==== Proof.Pads.lean ====
/-
  The mirrored border as the kernel assembles it: the image with p single rows (or columns) in front — rows p, p-1, …, 1 —
  and p behind — rows L-2, L-3, …, L-1-p — is the image read at the reflected coordinate.  One case per piece: a piece
  that is row o of the image, standing at padded row j, is the image at row o, and o is the reflection of j.
-/
import proofs.«167050_j34797825032658_1_alg».proof.Proof.LibPieces
import proofs.«167050_j34797825032658_1_alg».proof.Proof.Wavelet

noncomputable section

namespace Cert.Pads

open Idealize.ShloMosaic Idealize.ShloMosaic.ValueIdx Cert.Grid3 Cert.Wavelet

/-- Equal coordinates, equal readings. -/
theorem at3_congr {n0 n1 n2 : Nat} (x : (Sh n0 n1 n2).Idx → EReal) {a a' r r' c c' : Nat}
    (ha : a = a') (hr : r = r') (hc : c = c') : at3 x a r c = at3 x a' r' c' := by subst ha hr hc; rfl

/-- The image with 2 mirrored rows on either side, assembled from single rows and the image itself. -/
abbrev pieces_kpadH2 {n0 : Nat} (v : (Sh n0 1024 1024).Idx → EReal) (h0 : (Sh n0 1024 1024).Slices ![0, 2, 0] (Sh n0 1 1024)) (h1 : (Sh n0 1024 1024).Slices ![0, 1, 0] (Sh n0 1 1024)) (h2 : (Sh n0 1024 1024).Slices ![0, 1022, 0] (Sh n0 1 1024)) (h3 : (Sh n0 1024 1024).Slices ![0, 1021, 0] (Sh n0 1 1024)) :
    List ((s : Shape) × (s.Idx → EReal)) :=
  [⟨Sh n0 1 1024, extractStridedSlice (Sh n0 1 1024) ![0, 2, 0] v h0⟩,
    ⟨Sh n0 1 1024, extractStridedSlice (Sh n0 1 1024) ![0, 1, 0] v h1⟩,
    ⟨Sh n0 1024 1024, v⟩,
    ⟨Sh n0 1 1024, extractStridedSlice (Sh n0 1 1024) ![0, 1022, 0] v h2⟩,
    ⟨Sh n0 1 1024, extractStridedSlice (Sh n0 1 1024) ![0, 1021, 0] v h3⟩]

set_option maxHeartbeats 1600000 in
theorem kpadH2 {n0 : Nat} (v : (Sh n0 1024 1024).Idx → EReal) (h0 : (Sh n0 1024 1024).Slices ![0, 2, 0] (Sh n0 1 1024)) (h1 : (Sh n0 1024 1024).Slices ![0, 1, 0] (Sh n0 1 1024)) (h2 : (Sh n0 1024 1024).Slices ![0, 1022, 0] (Sh n0 1 1024)) (h3 : (Sh n0 1024 1024).Slices ![0, 1021, 0] (Sh n0 1 1024))
    (hc : Shape.Concatenates [Sh n0 1 1024, Sh n0 1 1024, Sh n0 1024 1024, Sh n0 1 1024, Sh n0 1 1024] (Sh n0 1028 1024) 1)
    (a r c : Nat) (ha : a < n0) (hr : r < 1028) (hcc : c < 1024) :
    at3 (concatenate (Sh n0 1028 1024) 1 (pieces_kpadH2 v h0 h1 h2 h3) hc) a r c = at3 v a (mirror 2 1024 r) c := by
  refine concat_at3_axis1 (pieces_kpadH2 v h0 h1 h2 h3) hc (fun a r c => at3 v a (mirror 2 1024 r) c) ?_ a r c ha hr hcc
  intro k hk hrk
  match k, hk, hrk with
  | 0, _, _ =>
    intro (i : (Sh n0 1 1024).Idx)
    rw [show (pieces_kpadH2 v h0 h1 h2 h3)[0].2 i = at3 v (0 + (i 0).val) (2 + (i 1).val) (0 + (i 2).val) from slice_idx 0 2 0 v h0 i]
    have hb : (i 1).val < 1 := (i 1).isLt
    have hp : preExt (Sh n0 1028 1024) 1 (pieces_kpadH2 v h0 h1 h2 h3) 0 = 0 := by simp [preExt, Shape.size]
    refine at3_congr v (Nat.zero_add _) ?_ (Nat.zero_add _)
    show 2 + (i 1).val = mirror 2 1024 (preExt (Sh n0 1028 1024) 1 (pieces_kpadH2 v h0 h1 h2 h3) 0 + (i 1).val)
    rw [hp]; unfold mirror; split_ifs <;> omega
  | 1, _, _ =>
    intro (i : (Sh n0 1 1024).Idx)
    rw [show (pieces_kpadH2 v h0 h1 h2 h3)[1].2 i = at3 v (0 + (i 0).val) (1 + (i 1).val) (0 + (i 2).val) from slice_idx 0 1 0 v h1 i]
    have hb : (i 1).val < 1 := (i 1).isLt
    have hp : preExt (Sh n0 1028 1024) 1 (pieces_kpadH2 v h0 h1 h2 h3) 1 = 1 := by simp [preExt, Shape.size]
    refine at3_congr v (Nat.zero_add _) ?_ (Nat.zero_add _)
    show 1 + (i 1).val = mirror 2 1024 (preExt (Sh n0 1028 1024) 1 (pieces_kpadH2 v h0 h1 h2 h3) 1 + (i 1).val)
    rw [hp]; unfold mirror; split_ifs <;> omega
  | 2, _, _ =>
    intro (i : (Sh n0 1024 1024).Idx)
    rw [show (pieces_kpadH2 v h0 h1 h2 h3)[2].2 i = at3 v (i 0).val (i 1).val (i 2).val from at3_idx v i]
    have hb : (i 1).val < 1024 := (i 1).isLt
    have hp : preExt (Sh n0 1028 1024) 1 (pieces_kpadH2 v h0 h1 h2 h3) 2 = 2 := by simp [preExt, Shape.size]
    refine at3_congr v rfl ?_ rfl
    show (i 1).val = mirror 2 1024 (preExt (Sh n0 1028 1024) 1 (pieces_kpadH2 v h0 h1 h2 h3) 2 + (i 1).val)
    rw [hp]; unfold mirror; split_ifs <;> omega
  | 3, _, _ =>
    intro (i : (Sh n0 1 1024).Idx)
    rw [show (pieces_kpadH2 v h0 h1 h2 h3)[3].2 i = at3 v (0 + (i 0).val) (1022 + (i 1).val) (0 + (i 2).val) from slice_idx 0 1022 0 v h2 i]
    have hb : (i 1).val < 1 := (i 1).isLt
    have hp : preExt (Sh n0 1028 1024) 1 (pieces_kpadH2 v h0 h1 h2 h3) 3 = 1026 := by simp [preExt, Shape.size]
    refine at3_congr v (Nat.zero_add _) ?_ (Nat.zero_add _)
    show 1022 + (i 1).val = mirror 2 1024 (preExt (Sh n0 1028 1024) 1 (pieces_kpadH2 v h0 h1 h2 h3) 3 + (i 1).val)
    rw [hp]; unfold mirror; split_ifs <;> omega
  | 4, _, _ =>
    intro (i : (Sh n0 1 1024).Idx)
    rw [show (pieces_kpadH2 v h0 h1 h2 h3)[4].2 i = at3 v (0 + (i 0).val) (1021 + (i 1).val) (0 + (i 2).val) from slice_idx 0 1021 0 v h3 i]
    have hb : (i 1).val < 1 := (i 1).isLt
    have hp : preExt (Sh n0 1028 1024) 1 (pieces_kpadH2 v h0 h1 h2 h3) 4 = 1027 := by simp [preExt, Shape.size]
    refine at3_congr v (Nat.zero_add _) ?_ (Nat.zero_add _)
    show 1021 + (i 1).val = mirror 2 1024 (preExt (Sh n0 1028 1024) 1 (pieces_kpadH2 v h0 h1 h2 h3) 4 + (i 1).val)
    rw [hp]; unfold mirror; split_ifs <;> omega
  | k + 5, hk, _ => exact absurd hk (by simp)

/-- The image with 2 mirrored columns on either side, assembled from single columns and the image itself. -/
abbrev pieces_kpadW2 {n0 : Nat} (v : (Sh n0 1024 1024).Idx → EReal) (h0 : (Sh n0 1024 1024).Slices ![0, 0, 2] (Sh n0 1024 1)) (h1 : (Sh n0 1024 1024).Slices ![0, 0, 1] (Sh n0 1024 1)) (h2 : (Sh n0 1024 1024).Slices ![0, 0, 1022] (Sh n0 1024 1)) (h3 : (Sh n0 1024 1024).Slices ![0, 0, 1021] (Sh n0 1024 1)) :
    List ((s : Shape) × (s.Idx → EReal)) :=
  [⟨Sh n0 1024 1, extractStridedSlice (Sh n0 1024 1) ![0, 0, 2] v h0⟩,
    ⟨Sh n0 1024 1, extractStridedSlice (Sh n0 1024 1) ![0, 0, 1] v h1⟩,
    ⟨Sh n0 1024 1024, v⟩,
    ⟨Sh n0 1024 1, extractStridedSlice (Sh n0 1024 1) ![0, 0, 1022] v h2⟩,
    ⟨Sh n0 1024 1, extractStridedSlice (Sh n0 1024 1) ![0, 0, 1021] v h3⟩]

set_option maxHeartbeats 1600000 in
theorem kpadW2 {n0 : Nat} (v : (Sh n0 1024 1024).Idx → EReal) (h0 : (Sh n0 1024 1024).Slices ![0, 0, 2] (Sh n0 1024 1)) (h1 : (Sh n0 1024 1024).Slices ![0, 0, 1] (Sh n0 1024 1)) (h2 : (Sh n0 1024 1024).Slices ![0, 0, 1022] (Sh n0 1024 1)) (h3 : (Sh n0 1024 1024).Slices ![0, 0, 1021] (Sh n0 1024 1))
    (hc : Shape.Concatenates [Sh n0 1024 1, Sh n0 1024 1, Sh n0 1024 1024, Sh n0 1024 1, Sh n0 1024 1] (Sh n0 1024 1028) 2)
    (a r c : Nat) (ha : a < n0) (hr : r < 1024) (hcc : c < 1028) :
    at3 (concatenate (Sh n0 1024 1028) 2 (pieces_kpadW2 v h0 h1 h2 h3) hc) a r c = at3 v a r (mirror 2 1024 c) := by
  refine concat_at3_axis2 (pieces_kpadW2 v h0 h1 h2 h3) hc (fun a r c => at3 v a r (mirror 2 1024 c)) ?_ a r c ha hr hcc
  intro k hk hrk
  match k, hk, hrk with
  | 0, _, _ =>
    intro (i : (Sh n0 1024 1).Idx)
    rw [show (pieces_kpadW2 v h0 h1 h2 h3)[0].2 i = at3 v (0 + (i 0).val) (0 + (i 1).val) (2 + (i 2).val) from slice_idx 0 0 2 v h0 i]
    have hb : (i 2).val < 1 := (i 2).isLt
    have hp : preExt (Sh n0 1024 1028) 2 (pieces_kpadW2 v h0 h1 h2 h3) 0 = 0 := by simp [preExt, Shape.size]
    refine at3_congr v (Nat.zero_add _) (Nat.zero_add _) ?_
    show 2 + (i 2).val = mirror 2 1024 (preExt (Sh n0 1024 1028) 2 (pieces_kpadW2 v h0 h1 h2 h3) 0 + (i 2).val)
    rw [hp]; unfold mirror; split_ifs <;> omega
  | 1, _, _ =>
    intro (i : (Sh n0 1024 1).Idx)
    rw [show (pieces_kpadW2 v h0 h1 h2 h3)[1].2 i = at3 v (0 + (i 0).val) (0 + (i 1).val) (1 + (i 2).val) from slice_idx 0 0 1 v h1 i]
    have hb : (i 2).val < 1 := (i 2).isLt
    have hp : preExt (Sh n0 1024 1028) 2 (pieces_kpadW2 v h0 h1 h2 h3) 1 = 1 := by simp [preExt, Shape.size]
    refine at3_congr v (Nat.zero_add _) (Nat.zero_add _) ?_
    show 1 + (i 2).val = mirror 2 1024 (preExt (Sh n0 1024 1028) 2 (pieces_kpadW2 v h0 h1 h2 h3) 1 + (i 2).val)
    rw [hp]; unfold mirror; split_ifs <;> omega
  | 2, _, _ =>
    intro (i : (Sh n0 1024 1024).Idx)
    rw [show (pieces_kpadW2 v h0 h1 h2 h3)[2].2 i = at3 v (i 0).val (i 1).val (i 2).val from at3_idx v i]
    have hb : (i 2).val < 1024 := (i 2).isLt
    have hp : preExt (Sh n0 1024 1028) 2 (pieces_kpadW2 v h0 h1 h2 h3) 2 = 2 := by simp [preExt, Shape.size]
    refine at3_congr v rfl rfl ?_
    show (i 2).val = mirror 2 1024 (preExt (Sh n0 1024 1028) 2 (pieces_kpadW2 v h0 h1 h2 h3) 2 + (i 2).val)
    rw [hp]; unfold mirror; split_ifs <;> omega
  | 3, _, _ =>
    intro (i : (Sh n0 1024 1).Idx)
    rw [show (pieces_kpadW2 v h0 h1 h2 h3)[3].2 i = at3 v (0 + (i 0).val) (0 + (i 1).val) (1022 + (i 2).val) from slice_idx 0 0 1022 v h2 i]
    have hb : (i 2).val < 1 := (i 2).isLt
    have hp : preExt (Sh n0 1024 1028) 2 (pieces_kpadW2 v h0 h1 h2 h3) 3 = 1026 := by simp [preExt, Shape.size]
    refine at3_congr v (Nat.zero_add _) (Nat.zero_add _) ?_
    show 1022 + (i 2).val = mirror 2 1024 (preExt (Sh n0 1024 1028) 2 (pieces_kpadW2 v h0 h1 h2 h3) 3 + (i 2).val)
    rw [hp]; unfold mirror; split_ifs <;> omega
  | 4, _, _ =>
    intro (i : (Sh n0 1024 1).Idx)
    rw [show (pieces_kpadW2 v h0 h1 h2 h3)[4].2 i = at3 v (0 + (i 0).val) (0 + (i 1).val) (1021 + (i 2).val) from slice_idx 0 0 1021 v h3 i]
    have hb : (i 2).val < 1 := (i 2).isLt
    have hp : preExt (Sh n0 1024 1028) 2 (pieces_kpadW2 v h0 h1 h2 h3) 4 = 1027 := by simp [preExt, Shape.size]
    refine at3_congr v (Nat.zero_add _) (Nat.zero_add _) ?_
    show 1021 + (i 2).val = mirror 2 1024 (preExt (Sh n0 1024 1028) 2 (pieces_kpadW2 v h0 h1 h2 h3) 4 + (i 2).val)
    rw [hp]; unfold mirror; split_ifs <;> omega
  | k + 5, hk, _ => exact absurd hk (by simp)

/-- The image with 4 mirrored rows on either side, assembled from single rows and the image itself. -/
abbrev pieces_kpadH4 {n0 : Nat} (v : (Sh n0 1024 1024).Idx → EReal) (h0 : (Sh n0 1024 1024).Slices ![0, 4, 0] (Sh n0 1 1024)) (h1 : (Sh n0 1024 1024).Slices ![0, 3, 0] (Sh n0 1 1024)) (h2 : (Sh n0 1024 1024).Slices ![0, 2, 0] (Sh n0 1 1024)) (h3 : (Sh n0 1024 1024).Slices ![0, 1, 0] (Sh n0 1 1024)) (h4 : (Sh n0 1024 1024).Slices ![0, 1022, 0] (Sh n0 1 1024)) (h5 : (Sh n0 1024 1024).Slices ![0, 1021, 0] (Sh n0 1 1024)) (h6 : (Sh n0 1024 1024).Slices ![0, 1020, 0] (Sh n0 1 1024)) (h7 : (Sh n0 1024 1024).Slices ![0, 1019, 0] (Sh n0 1 1024)) :
    List ((s : Shape) × (s.Idx → EReal)) :=
  [⟨Sh n0 1 1024, extractStridedSlice (Sh n0 1 1024) ![0, 4, 0] v h0⟩,
    ⟨Sh n0 1 1024, extractStridedSlice (Sh n0 1 1024) ![0, 3, 0] v h1⟩,
    ⟨Sh n0 1 1024, extractStridedSlice (Sh n0 1 1024) ![0, 2, 0] v h2⟩,
    ⟨Sh n0 1 1024, extractStridedSlice (Sh n0 1 1024) ![0, 1, 0] v h3⟩,
    ⟨Sh n0 1024 1024, v⟩,
    ⟨Sh n0 1 1024, extractStridedSlice (Sh n0 1 1024) ![0, 1022, 0] v h4⟩,
    ⟨Sh n0 1 1024, extractStridedSlice (Sh n0 1 1024) ![0, 1021, 0] v h5⟩,
    ⟨Sh n0 1 1024, extractStridedSlice (Sh n0 1 1024) ![0, 1020, 0] v h6⟩,
    ⟨Sh n0 1 1024, extractStridedSlice (Sh n0 1 1024) ![0, 1019, 0] v h7⟩]

set_option maxHeartbeats 1600000 in
theorem kpadH4 {n0 : Nat} (v : (Sh n0 1024 1024).Idx → EReal) (h0 : (Sh n0 1024 1024).Slices ![0, 4, 0] (Sh n0 1 1024)) (h1 : (Sh n0 1024 1024).Slices ![0, 3, 0] (Sh n0 1 1024)) (h2 : (Sh n0 1024 1024).Slices ![0, 2, 0] (Sh n0 1 1024)) (h3 : (Sh n0 1024 1024).Slices ![0, 1, 0] (Sh n0 1 1024)) (h4 : (Sh n0 1024 1024).Slices ![0, 1022, 0] (Sh n0 1 1024)) (h5 : (Sh n0 1024 1024).Slices ![0, 1021, 0] (Sh n0 1 1024)) (h6 : (Sh n0 1024 1024).Slices ![0, 1020, 0] (Sh n0 1 1024)) (h7 : (Sh n0 1024 1024).Slices ![0, 1019, 0] (Sh n0 1 1024))
    (hc : Shape.Concatenates [Sh n0 1 1024, Sh n0 1 1024, Sh n0 1 1024, Sh n0 1 1024, Sh n0 1024 1024, Sh n0 1 1024, Sh n0 1 1024, Sh n0 1 1024, Sh n0 1 1024] (Sh n0 1032 1024) 1)
    (a r c : Nat) (ha : a < n0) (hr : r < 1032) (hcc : c < 1024) :
    at3 (concatenate (Sh n0 1032 1024) 1 (pieces_kpadH4 v h0 h1 h2 h3 h4 h5 h6 h7) hc) a r c = at3 v a (mirror 4 1024 r) c := by
  refine concat_at3_axis1 (pieces_kpadH4 v h0 h1 h2 h3 h4 h5 h6 h7) hc (fun a r c => at3 v a (mirror 4 1024 r) c) ?_ a r c ha hr hcc
  intro k hk hrk
  match k, hk, hrk with
  | 0, _, _ =>
    intro (i : (Sh n0 1 1024).Idx)
    rw [show (pieces_kpadH4 v h0 h1 h2 h3 h4 h5 h6 h7)[0].2 i = at3 v (0 + (i 0).val) (4 + (i 1).val) (0 + (i 2).val) from slice_idx 0 4 0 v h0 i]
    have hb : (i 1).val < 1 := (i 1).isLt
    have hp : preExt (Sh n0 1032 1024) 1 (pieces_kpadH4 v h0 h1 h2 h3 h4 h5 h6 h7) 0 = 0 := by simp [preExt, Shape.size]
    refine at3_congr v (Nat.zero_add _) ?_ (Nat.zero_add _)
    show 4 + (i 1).val = mirror 4 1024 (preExt (Sh n0 1032 1024) 1 (pieces_kpadH4 v h0 h1 h2 h3 h4 h5 h6 h7) 0 + (i 1).val)
    rw [hp]; unfold mirror; split_ifs <;> omega
  | 1, _, _ =>
    intro (i : (Sh n0 1 1024).Idx)
    rw [show (pieces_kpadH4 v h0 h1 h2 h3 h4 h5 h6 h7)[1].2 i = at3 v (0 + (i 0).val) (3 + (i 1).val) (0 + (i 2).val) from slice_idx 0 3 0 v h1 i]
    have hb : (i 1).val < 1 := (i 1).isLt
    have hp : preExt (Sh n0 1032 1024) 1 (pieces_kpadH4 v h0 h1 h2 h3 h4 h5 h6 h7) 1 = 1 := by simp [preExt, Shape.size]
    refine at3_congr v (Nat.zero_add _) ?_ (Nat.zero_add _)
    show 3 + (i 1).val = mirror 4 1024 (preExt (Sh n0 1032 1024) 1 (pieces_kpadH4 v h0 h1 h2 h3 h4 h5 h6 h7) 1 + (i 1).val)
    rw [hp]; unfold mirror; split_ifs <;> omega
  | 2, _, _ =>
    intro (i : (Sh n0 1 1024).Idx)
    rw [show (pieces_kpadH4 v h0 h1 h2 h3 h4 h5 h6 h7)[2].2 i = at3 v (0 + (i 0).val) (2 + (i 1).val) (0 + (i 2).val) from slice_idx 0 2 0 v h2 i]
    have hb : (i 1).val < 1 := (i 1).isLt
    have hp : preExt (Sh n0 1032 1024) 1 (pieces_kpadH4 v h0 h1 h2 h3 h4 h5 h6 h7) 2 = 2 := by simp [preExt, Shape.size]
    refine at3_congr v (Nat.zero_add _) ?_ (Nat.zero_add _)
    show 2 + (i 1).val = mirror 4 1024 (preExt (Sh n0 1032 1024) 1 (pieces_kpadH4 v h0 h1 h2 h3 h4 h5 h6 h7) 2 + (i 1).val)
    rw [hp]; unfold mirror; split_ifs <;> omega
  | 3, _, _ =>
    intro (i : (Sh n0 1 1024).Idx)
    rw [show (pieces_kpadH4 v h0 h1 h2 h3 h4 h5 h6 h7)[3].2 i = at3 v (0 + (i 0).val) (1 + (i 1).val) (0 + (i 2).val) from slice_idx 0 1 0 v h3 i]
    have hb : (i 1).val < 1 := (i 1).isLt
    have hp : preExt (Sh n0 1032 1024) 1 (pieces_kpadH4 v h0 h1 h2 h3 h4 h5 h6 h7) 3 = 3 := by simp [preExt, Shape.size]
    refine at3_congr v (Nat.zero_add _) ?_ (Nat.zero_add _)
    show 1 + (i 1).val = mirror 4 1024 (preExt (Sh n0 1032 1024) 1 (pieces_kpadH4 v h0 h1 h2 h3 h4 h5 h6 h7) 3 + (i 1).val)
    rw [hp]; unfold mirror; split_ifs <;> omega
  | 4, _, _ =>
    intro (i : (Sh n0 1024 1024).Idx)
    rw [show (pieces_kpadH4 v h0 h1 h2 h3 h4 h5 h6 h7)[4].2 i = at3 v (i 0).val (i 1).val (i 2).val from at3_idx v i]
    have hb : (i 1).val < 1024 := (i 1).isLt
    have hp : preExt (Sh n0 1032 1024) 1 (pieces_kpadH4 v h0 h1 h2 h3 h4 h5 h6 h7) 4 = 4 := by simp [preExt, Shape.size]
    refine at3_congr v rfl ?_ rfl
    show (i 1).val = mirror 4 1024 (preExt (Sh n0 1032 1024) 1 (pieces_kpadH4 v h0 h1 h2 h3 h4 h5 h6 h7) 4 + (i 1).val)
    rw [hp]; unfold mirror; split_ifs <;> omega
  | 5, _, _ =>
    intro (i : (Sh n0 1 1024).Idx)
    rw [show (pieces_kpadH4 v h0 h1 h2 h3 h4 h5 h6 h7)[5].2 i = at3 v (0 + (i 0).val) (1022 + (i 1).val) (0 + (i 2).val) from slice_idx 0 1022 0 v h4 i]
    have hb : (i 1).val < 1 := (i 1).isLt
    have hp : preExt (Sh n0 1032 1024) 1 (pieces_kpadH4 v h0 h1 h2 h3 h4 h5 h6 h7) 5 = 1028 := by simp [preExt, Shape.size]
    refine at3_congr v (Nat.zero_add _) ?_ (Nat.zero_add _)
    show 1022 + (i 1).val = mirror 4 1024 (preExt (Sh n0 1032 1024) 1 (pieces_kpadH4 v h0 h1 h2 h3 h4 h5 h6 h7) 5 + (i 1).val)
    rw [hp]; unfold mirror; split_ifs <;> omega
  | 6, _, _ =>
    intro (i : (Sh n0 1 1024).Idx)
    rw [show (pieces_kpadH4 v h0 h1 h2 h3 h4 h5 h6 h7)[6].2 i = at3 v (0 + (i 0).val) (1021 + (i 1).val) (0 + (i 2).val) from slice_idx 0 1021 0 v h5 i]
    have hb : (i 1).val < 1 := (i 1).isLt
    have hp : preExt (Sh n0 1032 1024) 1 (pieces_kpadH4 v h0 h1 h2 h3 h4 h5 h6 h7) 6 = 1029 := by simp [preExt, Shape.size]
    refine at3_congr v (Nat.zero_add _) ?_ (Nat.zero_add _)
    show 1021 + (i 1).val = mirror 4 1024 (preExt (Sh n0 1032 1024) 1 (pieces_kpadH4 v h0 h1 h2 h3 h4 h5 h6 h7) 6 + (i 1).val)
    rw [hp]; unfold mirror; split_ifs <;> omega
  | 7, _, _ =>
    intro (i : (Sh n0 1 1024).Idx)
    rw [show (pieces_kpadH4 v h0 h1 h2 h3 h4 h5 h6 h7)[7].2 i = at3 v (0 + (i 0).val) (1020 + (i 1).val) (0 + (i 2).val) from slice_idx 0 1020 0 v h6 i]
    have hb : (i 1).val < 1 := (i 1).isLt
    have hp : preExt (Sh n0 1032 1024) 1 (pieces_kpadH4 v h0 h1 h2 h3 h4 h5 h6 h7) 7 = 1030 := by simp [preExt, Shape.size]
    refine at3_congr v (Nat.zero_add _) ?_ (Nat.zero_add _)
    show 1020 + (i 1).val = mirror 4 1024 (preExt (Sh n0 1032 1024) 1 (pieces_kpadH4 v h0 h1 h2 h3 h4 h5 h6 h7) 7 + (i 1).val)
    rw [hp]; unfold mirror; split_ifs <;> omega
  | 8, _, _ =>
    intro (i : (Sh n0 1 1024).Idx)
    rw [show (pieces_kpadH4 v h0 h1 h2 h3 h4 h5 h6 h7)[8].2 i = at3 v (0 + (i 0).val) (1019 + (i 1).val) (0 + (i 2).val) from slice_idx 0 1019 0 v h7 i]
    have hb : (i 1).val < 1 := (i 1).isLt
    have hp : preExt (Sh n0 1032 1024) 1 (pieces_kpadH4 v h0 h1 h2 h3 h4 h5 h6 h7) 8 = 1031 := by simp [preExt, Shape.size]
    refine at3_congr v (Nat.zero_add _) ?_ (Nat.zero_add _)
    show 1019 + (i 1).val = mirror 4 1024 (preExt (Sh n0 1032 1024) 1 (pieces_kpadH4 v h0 h1 h2 h3 h4 h5 h6 h7) 8 + (i 1).val)
    rw [hp]; unfold mirror; split_ifs <;> omega
  | k + 9, hk, _ => exact absurd hk (by simp)

/-- The image with 4 mirrored columns on either side, assembled from single columns and the image itself. -/
abbrev pieces_kpadW4 {n0 : Nat} (v : (Sh n0 1024 1024).Idx → EReal) (h0 : (Sh n0 1024 1024).Slices ![0, 0, 4] (Sh n0 1024 1)) (h1 : (Sh n0 1024 1024).Slices ![0, 0, 3] (Sh n0 1024 1)) (h2 : (Sh n0 1024 1024).Slices ![0, 0, 2] (Sh n0 1024 1)) (h3 : (Sh n0 1024 1024).Slices ![0, 0, 1] (Sh n0 1024 1)) (h4 : (Sh n0 1024 1024).Slices ![0, 0, 1022] (Sh n0 1024 1)) (h5 : (Sh n0 1024 1024).Slices ![0, 0, 1021] (Sh n0 1024 1)) (h6 : (Sh n0 1024 1024).Slices ![0, 0, 1020] (Sh n0 1024 1)) (h7 : (Sh n0 1024 1024).Slices ![0, 0, 1019] (Sh n0 1024 1)) :
    List ((s : Shape) × (s.Idx → EReal)) :=
  [⟨Sh n0 1024 1, extractStridedSlice (Sh n0 1024 1) ![0, 0, 4] v h0⟩,
    ⟨Sh n0 1024 1, extractStridedSlice (Sh n0 1024 1) ![0, 0, 3] v h1⟩,
    ⟨Sh n0 1024 1, extractStridedSlice (Sh n0 1024 1) ![0, 0, 2] v h2⟩,
    ⟨Sh n0 1024 1, extractStridedSlice (Sh n0 1024 1) ![0, 0, 1] v h3⟩,
    ⟨Sh n0 1024 1024, v⟩,
    ⟨Sh n0 1024 1, extractStridedSlice (Sh n0 1024 1) ![0, 0, 1022] v h4⟩,
    ⟨Sh n0 1024 1, extractStridedSlice (Sh n0 1024 1) ![0, 0, 1021] v h5⟩,
    ⟨Sh n0 1024 1, extractStridedSlice (Sh n0 1024 1) ![0, 0, 1020] v h6⟩,
    ⟨Sh n0 1024 1, extractStridedSlice (Sh n0 1024 1) ![0, 0, 1019] v h7⟩]

set_option maxHeartbeats 1600000 in
theorem kpadW4 {n0 : Nat} (v : (Sh n0 1024 1024).Idx → EReal) (h0 : (Sh n0 1024 1024).Slices ![0, 0, 4] (Sh n0 1024 1)) (h1 : (Sh n0 1024 1024).Slices ![0, 0, 3] (Sh n0 1024 1)) (h2 : (Sh n0 1024 1024).Slices ![0, 0, 2] (Sh n0 1024 1)) (h3 : (Sh n0 1024 1024).Slices ![0, 0, 1] (Sh n0 1024 1)) (h4 : (Sh n0 1024 1024).Slices ![0, 0, 1022] (Sh n0 1024 1)) (h5 : (Sh n0 1024 1024).Slices ![0, 0, 1021] (Sh n0 1024 1)) (h6 : (Sh n0 1024 1024).Slices ![0, 0, 1020] (Sh n0 1024 1)) (h7 : (Sh n0 1024 1024).Slices ![0, 0, 1019] (Sh n0 1024 1))
    (hc : Shape.Concatenates [Sh n0 1024 1, Sh n0 1024 1, Sh n0 1024 1, Sh n0 1024 1, Sh n0 1024 1024, Sh n0 1024 1, Sh n0 1024 1, Sh n0 1024 1, Sh n0 1024 1] (Sh n0 1024 1032) 2)
    (a r c : Nat) (ha : a < n0) (hr : r < 1024) (hcc : c < 1032) :
    at3 (concatenate (Sh n0 1024 1032) 2 (pieces_kpadW4 v h0 h1 h2 h3 h4 h5 h6 h7) hc) a r c = at3 v a r (mirror 4 1024 c) := by
  refine concat_at3_axis2 (pieces_kpadW4 v h0 h1 h2 h3 h4 h5 h6 h7) hc (fun a r c => at3 v a r (mirror 4 1024 c)) ?_ a r c ha hr hcc
  intro k hk hrk
  match k, hk, hrk with
  | 0, _, _ =>
    intro (i : (Sh n0 1024 1).Idx)
    rw [show (pieces_kpadW4 v h0 h1 h2 h3 h4 h5 h6 h7)[0].2 i = at3 v (0 + (i 0).val) (0 + (i 1).val) (4 + (i 2).val) from slice_idx 0 0 4 v h0 i]
    have hb : (i 2).val < 1 := (i 2).isLt
    have hp : preExt (Sh n0 1024 1032) 2 (pieces_kpadW4 v h0 h1 h2 h3 h4 h5 h6 h7) 0 = 0 := by simp [preExt, Shape.size]
    refine at3_congr v (Nat.zero_add _) (Nat.zero_add _) ?_
    show 4 + (i 2).val = mirror 4 1024 (preExt (Sh n0 1024 1032) 2 (pieces_kpadW4 v h0 h1 h2 h3 h4 h5 h6 h7) 0 + (i 2).val)
    rw [hp]; unfold mirror; split_ifs <;> omega
  | 1, _, _ =>
    intro (i : (Sh n0 1024 1).Idx)
    rw [show (pieces_kpadW4 v h0 h1 h2 h3 h4 h5 h6 h7)[1].2 i = at3 v (0 + (i 0).val) (0 + (i 1).val) (3 + (i 2).val) from slice_idx 0 0 3 v h1 i]
    have hb : (i 2).val < 1 := (i 2).isLt
    have hp : preExt (Sh n0 1024 1032) 2 (pieces_kpadW4 v h0 h1 h2 h3 h4 h5 h6 h7) 1 = 1 := by simp [preExt, Shape.size]
    refine at3_congr v (Nat.zero_add _) (Nat.zero_add _) ?_
    show 3 + (i 2).val = mirror 4 1024 (preExt (Sh n0 1024 1032) 2 (pieces_kpadW4 v h0 h1 h2 h3 h4 h5 h6 h7) 1 + (i 2).val)
    rw [hp]; unfold mirror; split_ifs <;> omega
  | 2, _, _ =>
    intro (i : (Sh n0 1024 1).Idx)
    rw [show (pieces_kpadW4 v h0 h1 h2 h3 h4 h5 h6 h7)[2].2 i = at3 v (0 + (i 0).val) (0 + (i 1).val) (2 + (i 2).val) from slice_idx 0 0 2 v h2 i]
    have hb : (i 2).val < 1 := (i 2).isLt
    have hp : preExt (Sh n0 1024 1032) 2 (pieces_kpadW4 v h0 h1 h2 h3 h4 h5 h6 h7) 2 = 2 := by simp [preExt, Shape.size]
    refine at3_congr v (Nat.zero_add _) (Nat.zero_add _) ?_
    show 2 + (i 2).val = mirror 4 1024 (preExt (Sh n0 1024 1032) 2 (pieces_kpadW4 v h0 h1 h2 h3 h4 h5 h6 h7) 2 + (i 2).val)
    rw [hp]; unfold mirror; split_ifs <;> omega
  | 3, _, _ =>
    intro (i : (Sh n0 1024 1).Idx)
    rw [show (pieces_kpadW4 v h0 h1 h2 h3 h4 h5 h6 h7)[3].2 i = at3 v (0 + (i 0).val) (0 + (i 1).val) (1 + (i 2).val) from slice_idx 0 0 1 v h3 i]
    have hb : (i 2).val < 1 := (i 2).isLt
    have hp : preExt (Sh n0 1024 1032) 2 (pieces_kpadW4 v h0 h1 h2 h3 h4 h5 h6 h7) 3 = 3 := by simp [preExt, Shape.size]
    refine at3_congr v (Nat.zero_add _) (Nat.zero_add _) ?_
    show 1 + (i 2).val = mirror 4 1024 (preExt (Sh n0 1024 1032) 2 (pieces_kpadW4 v h0 h1 h2 h3 h4 h5 h6 h7) 3 + (i 2).val)
    rw [hp]; unfold mirror; split_ifs <;> omega
  | 4, _, _ =>
    intro (i : (Sh n0 1024 1024).Idx)
    rw [show (pieces_kpadW4 v h0 h1 h2 h3 h4 h5 h6 h7)[4].2 i = at3 v (i 0).val (i 1).val (i 2).val from at3_idx v i]
    have hb : (i 2).val < 1024 := (i 2).isLt
    have hp : preExt (Sh n0 1024 1032) 2 (pieces_kpadW4 v h0 h1 h2 h3 h4 h5 h6 h7) 4 = 4 := by simp [preExt, Shape.size]
    refine at3_congr v rfl rfl ?_
    show (i 2).val = mirror 4 1024 (preExt (Sh n0 1024 1032) 2 (pieces_kpadW4 v h0 h1 h2 h3 h4 h5 h6 h7) 4 + (i 2).val)
    rw [hp]; unfold mirror; split_ifs <;> omega
  | 5, _, _ =>
    intro (i : (Sh n0 1024 1).Idx)
    rw [show (pieces_kpadW4 v h0 h1 h2 h3 h4 h5 h6 h7)[5].2 i = at3 v (0 + (i 0).val) (0 + (i 1).val) (1022 + (i 2).val) from slice_idx 0 0 1022 v h4 i]
    have hb : (i 2).val < 1 := (i 2).isLt
    have hp : preExt (Sh n0 1024 1032) 2 (pieces_kpadW4 v h0 h1 h2 h3 h4 h5 h6 h7) 5 = 1028 := by simp [preExt, Shape.size]
    refine at3_congr v (Nat.zero_add _) (Nat.zero_add _) ?_
    show 1022 + (i 2).val = mirror 4 1024 (preExt (Sh n0 1024 1032) 2 (pieces_kpadW4 v h0 h1 h2 h3 h4 h5 h6 h7) 5 + (i 2).val)
    rw [hp]; unfold mirror; split_ifs <;> omega
  | 6, _, _ =>
    intro (i : (Sh n0 1024 1).Idx)
    rw [show (pieces_kpadW4 v h0 h1 h2 h3 h4 h5 h6 h7)[6].2 i = at3 v (0 + (i 0).val) (0 + (i 1).val) (1021 + (i 2).val) from slice_idx 0 0 1021 v h5 i]
    have hb : (i 2).val < 1 := (i 2).isLt
    have hp : preExt (Sh n0 1024 1032) 2 (pieces_kpadW4 v h0 h1 h2 h3 h4 h5 h6 h7) 6 = 1029 := by simp [preExt, Shape.size]
    refine at3_congr v (Nat.zero_add _) (Nat.zero_add _) ?_
    show 1021 + (i 2).val = mirror 4 1024 (preExt (Sh n0 1024 1032) 2 (pieces_kpadW4 v h0 h1 h2 h3 h4 h5 h6 h7) 6 + (i 2).val)
    rw [hp]; unfold mirror; split_ifs <;> omega
  | 7, _, _ =>
    intro (i : (Sh n0 1024 1).Idx)
    rw [show (pieces_kpadW4 v h0 h1 h2 h3 h4 h5 h6 h7)[7].2 i = at3 v (0 + (i 0).val) (0 + (i 1).val) (1020 + (i 2).val) from slice_idx 0 0 1020 v h6 i]
    have hb : (i 2).val < 1 := (i 2).isLt
    have hp : preExt (Sh n0 1024 1032) 2 (pieces_kpadW4 v h0 h1 h2 h3 h4 h5 h6 h7) 7 = 1030 := by simp [preExt, Shape.size]
    refine at3_congr v (Nat.zero_add _) (Nat.zero_add _) ?_
    show 1020 + (i 2).val = mirror 4 1024 (preExt (Sh n0 1024 1032) 2 (pieces_kpadW4 v h0 h1 h2 h3 h4 h5 h6 h7) 7 + (i 2).val)
    rw [hp]; unfold mirror; split_ifs <;> omega
  | 8, _, _ =>
    intro (i : (Sh n0 1024 1).Idx)
    rw [show (pieces_kpadW4 v h0 h1 h2 h3 h4 h5 h6 h7)[8].2 i = at3 v (0 + (i 0).val) (0 + (i 1).val) (1019 + (i 2).val) from slice_idx 0 0 1019 v h7 i]
    have hb : (i 2).val < 1 := (i 2).isLt
    have hp : preExt (Sh n0 1024 1032) 2 (pieces_kpadW4 v h0 h1 h2 h3 h4 h5 h6 h7) 8 = 1031 := by simp [preExt, Shape.size]
    refine at3_congr v (Nat.zero_add _) (Nat.zero_add _) ?_
    show 1019 + (i 2).val = mirror 4 1024 (preExt (Sh n0 1024 1032) 2 (pieces_kpadW4 v h0 h1 h2 h3 h4 h5 h6 h7) 8 + (i 2).val)
    rw [hp]; unfold mirror; split_ifs <;> omega
  | k + 9, hk, _ => exact absurd hk (by simp)

/-- The image with 8 mirrored rows on either side, assembled from single rows and the image itself. -/
abbrev pieces_kpadH8 {n0 : Nat} (v : (Sh n0 1024 1024).Idx → EReal) (h0 : (Sh n0 1024 1024).Slices ![0, 8, 0] (Sh n0 1 1024)) (h1 : (Sh n0 1024 1024).Slices ![0, 7, 0] (Sh n0 1 1024)) (h2 : (Sh n0 1024 1024).Slices ![0, 6, 0] (Sh n0 1 1024)) (h3 : (Sh n0 1024 1024).Slices ![0, 5, 0] (Sh n0 1 1024)) (h4 : (Sh n0 1024 1024).Slices ![0, 4, 0] (Sh n0 1 1024)) (h5 : (Sh n0 1024 1024).Slices ![0, 3, 0] (Sh n0 1 1024)) (h6 : (Sh n0 1024 1024).Slices ![0, 2, 0] (Sh n0 1 1024)) (h7 : (Sh n0 1024 1024).Slices ![0, 1, 0] (Sh n0 1 1024)) (h8 : (Sh n0 1024 1024).Slices ![0, 1022, 0] (Sh n0 1 1024)) (h9 : (Sh n0 1024 1024).Slices ![0, 1021, 0] (Sh n0 1 1024)) (h10 : (Sh n0 1024 1024).Slices ![0, 1020, 0] (Sh n0 1 1024)) (h11 : (Sh n0 1024 1024).Slices ![0, 1019, 0] (Sh n0 1 1024)) (h12 : (Sh n0 1024 1024).Slices ![0, 1018, 0] (Sh n0 1 1024)) (h13 : (Sh n0 1024 1024).Slices ![0, 1017, 0] (Sh n0 1 1024)) (h14 : (Sh n0 1024 1024).Slices ![0, 1016, 0] (Sh n0 1 1024)) (h15 : (Sh n0 1024 1024).Slices ![0, 1015, 0] (Sh n0 1 1024)) :
    List ((s : Shape) × (s.Idx → EReal)) :=
  [⟨Sh n0 1 1024, extractStridedSlice (Sh n0 1 1024) ![0, 8, 0] v h0⟩,
    ⟨Sh n0 1 1024, extractStridedSlice (Sh n0 1 1024) ![0, 7, 0] v h1⟩,
    ⟨Sh n0 1 1024, extractStridedSlice (Sh n0 1 1024) ![0, 6, 0] v h2⟩,
    ⟨Sh n0 1 1024, extractStridedSlice (Sh n0 1 1024) ![0, 5, 0] v h3⟩,
    ⟨Sh n0 1 1024, extractStridedSlice (Sh n0 1 1024) ![0, 4, 0] v h4⟩,
    ⟨Sh n0 1 1024, extractStridedSlice (Sh n0 1 1024) ![0, 3, 0] v h5⟩,
    ⟨Sh n0 1 1024, extractStridedSlice (Sh n0 1 1024) ![0, 2, 0] v h6⟩,
    ⟨Sh n0 1 1024, extractStridedSlice (Sh n0 1 1024) ![0, 1, 0] v h7⟩,
    ⟨Sh n0 1024 1024, v⟩,
    ⟨Sh n0 1 1024, extractStridedSlice (Sh n0 1 1024) ![0, 1022, 0] v h8⟩,
    ⟨Sh n0 1 1024, extractStridedSlice (Sh n0 1 1024) ![0, 1021, 0] v h9⟩,
    ⟨Sh n0 1 1024, extractStridedSlice (Sh n0 1 1024) ![0, 1020, 0] v h10⟩,
    ⟨Sh n0 1 1024, extractStridedSlice (Sh n0 1 1024) ![0, 1019, 0] v h11⟩,
    ⟨Sh n0 1 1024, extractStridedSlice (Sh n0 1 1024) ![0, 1018, 0] v h12⟩,
    ⟨Sh n0 1 1024, extractStridedSlice (Sh n0 1 1024) ![0, 1017, 0] v h13⟩,
    ⟨Sh n0 1 1024, extractStridedSlice (Sh n0 1 1024) ![0, 1016, 0] v h14⟩,
    ⟨Sh n0 1 1024, extractStridedSlice (Sh n0 1 1024) ![0, 1015, 0] v h15⟩]

set_option maxHeartbeats 1600000 in
theorem kpadH8 {n0 : Nat} (v : (Sh n0 1024 1024).Idx → EReal) (h0 : (Sh n0 1024 1024).Slices ![0, 8, 0] (Sh n0 1 1024)) (h1 : (Sh n0 1024 1024).Slices ![0, 7, 0] (Sh n0 1 1024)) (h2 : (Sh n0 1024 1024).Slices ![0, 6, 0] (Sh n0 1 1024)) (h3 : (Sh n0 1024 1024).Slices ![0, 5, 0] (Sh n0 1 1024)) (h4 : (Sh n0 1024 1024).Slices ![0, 4, 0] (Sh n0 1 1024)) (h5 : (Sh n0 1024 1024).Slices ![0, 3, 0] (Sh n0 1 1024)) (h6 : (Sh n0 1024 1024).Slices ![0, 2, 0] (Sh n0 1 1024)) (h7 : (Sh n0 1024 1024).Slices ![0, 1, 0] (Sh n0 1 1024)) (h8 : (Sh n0 1024 1024).Slices ![0, 1022, 0] (Sh n0 1 1024)) (h9 : (Sh n0 1024 1024).Slices ![0, 1021, 0] (Sh n0 1 1024)) (h10 : (Sh n0 1024 1024).Slices ![0, 1020, 0] (Sh n0 1 1024)) (h11 : (Sh n0 1024 1024).Slices ![0, 1019, 0] (Sh n0 1 1024)) (h12 : (Sh n0 1024 1024).Slices ![0, 1018, 0] (Sh n0 1 1024)) (h13 : (Sh n0 1024 1024).Slices ![0, 1017, 0] (Sh n0 1 1024)) (h14 : (Sh n0 1024 1024).Slices ![0, 1016, 0] (Sh n0 1 1024)) (h15 : (Sh n0 1024 1024).Slices ![0, 1015, 0] (Sh n0 1 1024))
    (hc : Shape.Concatenates [Sh n0 1 1024, Sh n0 1 1024, Sh n0 1 1024, Sh n0 1 1024, Sh n0 1 1024, Sh n0 1 1024, Sh n0 1 1024, Sh n0 1 1024, Sh n0 1024 1024, Sh n0 1 1024, Sh n0 1 1024, Sh n0 1 1024, Sh n0 1 1024, Sh n0 1 1024, Sh n0 1 1024, Sh n0 1 1024, Sh n0 1 1024] (Sh n0 1040 1024) 1)
    (a r c : Nat) (ha : a < n0) (hr : r < 1040) (hcc : c < 1024) :
    at3 (concatenate (Sh n0 1040 1024) 1 (pieces_kpadH8 v h0 h1 h2 h3 h4 h5 h6 h7 h8 h9 h10 h11 h12 h13 h14 h15) hc) a r c = at3 v a (mirror 8 1024 r) c := by
  refine concat_at3_axis1 (pieces_kpadH8 v h0 h1 h2 h3 h4 h5 h6 h7 h8 h9 h10 h11 h12 h13 h14 h15) hc (fun a r c => at3 v a (mirror 8 1024 r) c) ?_ a r c ha hr hcc
  intro k hk hrk
  match k, hk, hrk with
  | 0, _, _ =>
    intro (i : (Sh n0 1 1024).Idx)
    rw [show (pieces_kpadH8 v h0 h1 h2 h3 h4 h5 h6 h7 h8 h9 h10 h11 h12 h13 h14 h15)[0].2 i = at3 v (0 + (i 0).val) (8 + (i 1).val) (0 + (i 2).val) from slice_idx 0 8 0 v h0 i]
    have hb : (i 1).val < 1 := (i 1).isLt
    have hp : preExt (Sh n0 1040 1024) 1 (pieces_kpadH8 v h0 h1 h2 h3 h4 h5 h6 h7 h8 h9 h10 h11 h12 h13 h14 h15) 0 = 0 := by simp [preExt, Shape.size]
    refine at3_congr v (Nat.zero_add _) ?_ (Nat.zero_add _)
    show 8 + (i 1).val = mirror 8 1024 (preExt (Sh n0 1040 1024) 1 (pieces_kpadH8 v h0 h1 h2 h3 h4 h5 h6 h7 h8 h9 h10 h11 h12 h13 h14 h15) 0 + (i 1).val)
    rw [hp]; unfold mirror; split_ifs <;> omega
  | 1, _, _ =>
    intro (i : (Sh n0 1 1024).Idx)
    rw [show (pieces_kpadH8 v h0 h1 h2 h3 h4 h5 h6 h7 h8 h9 h10 h11 h12 h13 h14 h15)[1].2 i = at3 v (0 + (i 0).val) (7 + (i 1).val) (0 + (i 2).val) from slice_idx 0 7 0 v h1 i]
    have hb : (i 1).val < 1 := (i 1).isLt
    have hp : preExt (Sh n0 1040 1024) 1 (pieces_kpadH8 v h0 h1 h2 h3 h4 h5 h6 h7 h8 h9 h10 h11 h12 h13 h14 h15) 1 = 1 := by simp [preExt, Shape.size]
    refine at3_congr v (Nat.zero_add _) ?_ (Nat.zero_add _)
    show 7 + (i 1).val = mirror 8 1024 (preExt (Sh n0 1040 1024) 1 (pieces_kpadH8 v h0 h1 h2 h3 h4 h5 h6 h7 h8 h9 h10 h11 h12 h13 h14 h15) 1 + (i 1).val)
    rw [hp]; unfold mirror; split_ifs <;> omega
  | 2, _, _ =>
    intro (i : (Sh n0 1 1024).Idx)
    rw [show (pieces_kpadH8 v h0 h1 h2 h3 h4 h5 h6 h7 h8 h9 h10 h11 h12 h13 h14 h15)[2].2 i = at3 v (0 + (i 0).val) (6 + (i 1).val) (0 + (i 2).val) from slice_idx 0 6 0 v h2 i]
    have hb : (i 1).val < 1 := (i 1).isLt
    have hp : preExt (Sh n0 1040 1024) 1 (pieces_kpadH8 v h0 h1 h2 h3 h4 h5 h6 h7 h8 h9 h10 h11 h12 h13 h14 h15) 2 = 2 := by simp [preExt, Shape.size]
    refine at3_congr v (Nat.zero_add _) ?_ (Nat.zero_add _)
    show 6 + (i 1).val = mirror 8 1024 (preExt (Sh n0 1040 1024) 1 (pieces_kpadH8 v h0 h1 h2 h3 h4 h5 h6 h7 h8 h9 h10 h11 h12 h13 h14 h15) 2 + (i 1).val)
    rw [hp]; unfold mirror; split_ifs <;> omega
  | 3, _, _ =>
    intro (i : (Sh n0 1 1024).Idx)
    rw [show (pieces_kpadH8 v h0 h1 h2 h3 h4 h5 h6 h7 h8 h9 h10 h11 h12 h13 h14 h15)[3].2 i = at3 v (0 + (i 0).val) (5 + (i 1).val) (0 + (i 2).val) from slice_idx 0 5 0 v h3 i]
    have hb : (i 1).val < 1 := (i 1).isLt
    have hp : preExt (Sh n0 1040 1024) 1 (pieces_kpadH8 v h0 h1 h2 h3 h4 h5 h6 h7 h8 h9 h10 h11 h12 h13 h14 h15) 3 = 3 := by simp [preExt, Shape.size]
    refine at3_congr v (Nat.zero_add _) ?_ (Nat.zero_add _)
    show 5 + (i 1).val = mirror 8 1024 (preExt (Sh n0 1040 1024) 1 (pieces_kpadH8 v h0 h1 h2 h3 h4 h5 h6 h7 h8 h9 h10 h11 h12 h13 h14 h15) 3 + (i 1).val)
    rw [hp]; unfold mirror; split_ifs <;> omega
  | 4, _, _ =>
    intro (i : (Sh n0 1 1024).Idx)
    rw [show (pieces_kpadH8 v h0 h1 h2 h3 h4 h5 h6 h7 h8 h9 h10 h11 h12 h13 h14 h15)[4].2 i = at3 v (0 + (i 0).val) (4 + (i 1).val) (0 + (i 2).val) from slice_idx 0 4 0 v h4 i]
    have hb : (i 1).val < 1 := (i 1).isLt
    have hp : preExt (Sh n0 1040 1024) 1 (pieces_kpadH8 v h0 h1 h2 h3 h4 h5 h6 h7 h8 h9 h10 h11 h12 h13 h14 h15) 4 = 4 := by simp [preExt, Shape.size]
    refine at3_congr v (Nat.zero_add _) ?_ (Nat.zero_add _)
    show 4 + (i 1).val = mirror 8 1024 (preExt (Sh n0 1040 1024) 1 (pieces_kpadH8 v h0 h1 h2 h3 h4 h5 h6 h7 h8 h9 h10 h11 h12 h13 h14 h15) 4 + (i 1).val)
    rw [hp]; unfold mirror; split_ifs <;> omega
  | 5, _, _ =>
    intro (i : (Sh n0 1 1024).Idx)
    rw [show (pieces_kpadH8 v h0 h1 h2 h3 h4 h5 h6 h7 h8 h9 h10 h11 h12 h13 h14 h15)[5].2 i = at3 v (0 + (i 0).val) (3 + (i 1).val) (0 + (i 2).val) from slice_idx 0 3 0 v h5 i]
    have hb : (i 1).val < 1 := (i 1).isLt
    have hp : preExt (Sh n0 1040 1024) 1 (pieces_kpadH8 v h0 h1 h2 h3 h4 h5 h6 h7 h8 h9 h10 h11 h12 h13 h14 h15) 5 = 5 := by simp [preExt, Shape.size]
    refine at3_congr v (Nat.zero_add _) ?_ (Nat.zero_add _)
    show 3 + (i 1).val = mirror 8 1024 (preExt (Sh n0 1040 1024) 1 (pieces_kpadH8 v h0 h1 h2 h3 h4 h5 h6 h7 h8 h9 h10 h11 h12 h13 h14 h15) 5 + (i 1).val)
    rw [hp]; unfold mirror; split_ifs <;> omega
  | 6, _, _ =>
    intro (i : (Sh n0 1 1024).Idx)
    rw [show (pieces_kpadH8 v h0 h1 h2 h3 h4 h5 h6 h7 h8 h9 h10 h11 h12 h13 h14 h15)[6].2 i = at3 v (0 + (i 0).val) (2 + (i 1).val) (0 + (i 2).val) from slice_idx 0 2 0 v h6 i]
    have hb : (i 1).val < 1 := (i 1).isLt
    have hp : preExt (Sh n0 1040 1024) 1 (pieces_kpadH8 v h0 h1 h2 h3 h4 h5 h6 h7 h8 h9 h10 h11 h12 h13 h14 h15) 6 = 6 := by simp [preExt, Shape.size]
    refine at3_congr v (Nat.zero_add _) ?_ (Nat.zero_add _)
    show 2 + (i 1).val = mirror 8 1024 (preExt (Sh n0 1040 1024) 1 (pieces_kpadH8 v h0 h1 h2 h3 h4 h5 h6 h7 h8 h9 h10 h11 h12 h13 h14 h15) 6 + (i 1).val)
    rw [hp]; unfold mirror; split_ifs <;> omega
  | 7, _, _ =>
    intro (i : (Sh n0 1 1024).Idx)
    rw [show (pieces_kpadH8 v h0 h1 h2 h3 h4 h5 h6 h7 h8 h9 h10 h11 h12 h13 h14 h15)[7].2 i = at3 v (0 + (i 0).val) (1 + (i 1).val) (0 + (i 2).val) from slice_idx 0 1 0 v h7 i]
    have hb : (i 1).val < 1 := (i 1).isLt
    have hp : preExt (Sh n0 1040 1024) 1 (pieces_kpadH8 v h0 h1 h2 h3 h4 h5 h6 h7 h8 h9 h10 h11 h12 h13 h14 h15) 7 = 7 := by simp [preExt, Shape.size]
    refine at3_congr v (Nat.zero_add _) ?_ (Nat.zero_add _)
    show 1 + (i 1).val = mirror 8 1024 (preExt (Sh n0 1040 1024) 1 (pieces_kpadH8 v h0 h1 h2 h3 h4 h5 h6 h7 h8 h9 h10 h11 h12 h13 h14 h15) 7 + (i 1).val)
    rw [hp]; unfold mirror; split_ifs <;> omega
  | 8, _, _ =>
    intro (i : (Sh n0 1024 1024).Idx)
    rw [show (pieces_kpadH8 v h0 h1 h2 h3 h4 h5 h6 h7 h8 h9 h10 h11 h12 h13 h14 h15)[8].2 i = at3 v (i 0).val (i 1).val (i 2).val from at3_idx v i]
    have hb : (i 1).val < 1024 := (i 1).isLt
    have hp : preExt (Sh n0 1040 1024) 1 (pieces_kpadH8 v h0 h1 h2 h3 h4 h5 h6 h7 h8 h9 h10 h11 h12 h13 h14 h15) 8 = 8 := by simp [preExt, Shape.size]
    refine at3_congr v rfl ?_ rfl
    show (i 1).val = mirror 8 1024 (preExt (Sh n0 1040 1024) 1 (pieces_kpadH8 v h0 h1 h2 h3 h4 h5 h6 h7 h8 h9 h10 h11 h12 h13 h14 h15) 8 + (i 1).val)
    rw [hp]; unfold mirror; split_ifs <;> omega
  | 9, _, _ =>
    intro (i : (Sh n0 1 1024).Idx)
    rw [show (pieces_kpadH8 v h0 h1 h2 h3 h4 h5 h6 h7 h8 h9 h10 h11 h12 h13 h14 h15)[9].2 i = at3 v (0 + (i 0).val) (1022 + (i 1).val) (0 + (i 2).val) from slice_idx 0 1022 0 v h8 i]
    have hb : (i 1).val < 1 := (i 1).isLt
    have hp : preExt (Sh n0 1040 1024) 1 (pieces_kpadH8 v h0 h1 h2 h3 h4 h5 h6 h7 h8 h9 h10 h11 h12 h13 h14 h15) 9 = 1032 := by simp [preExt, Shape.size]
    refine at3_congr v (Nat.zero_add _) ?_ (Nat.zero_add _)
    show 1022 + (i 1).val = mirror 8 1024 (preExt (Sh n0 1040 1024) 1 (pieces_kpadH8 v h0 h1 h2 h3 h4 h5 h6 h7 h8 h9 h10 h11 h12 h13 h14 h15) 9 + (i 1).val)
    rw [hp]; unfold mirror; split_ifs <;> omega
  | 10, _, _ =>
    intro (i : (Sh n0 1 1024).Idx)
    rw [show (pieces_kpadH8 v h0 h1 h2 h3 h4 h5 h6 h7 h8 h9 h10 h11 h12 h13 h14 h15)[10].2 i = at3 v (0 + (i 0).val) (1021 + (i 1).val) (0 + (i 2).val) from slice_idx 0 1021 0 v h9 i]
    have hb : (i 1).val < 1 := (i 1).isLt
    have hp : preExt (Sh n0 1040 1024) 1 (pieces_kpadH8 v h0 h1 h2 h3 h4 h5 h6 h7 h8 h9 h10 h11 h12 h13 h14 h15) 10 = 1033 := by simp [preExt, Shape.size]
    refine at3_congr v (Nat.zero_add _) ?_ (Nat.zero_add _)
    show 1021 + (i 1).val = mirror 8 1024 (preExt (Sh n0 1040 1024) 1 (pieces_kpadH8 v h0 h1 h2 h3 h4 h5 h6 h7 h8 h9 h10 h11 h12 h13 h14 h15) 10 + (i 1).val)
    rw [hp]; unfold mirror; split_ifs <;> omega
  | 11, _, _ =>
    intro (i : (Sh n0 1 1024).Idx)
    rw [show (pieces_kpadH8 v h0 h1 h2 h3 h4 h5 h6 h7 h8 h9 h10 h11 h12 h13 h14 h15)[11].2 i = at3 v (0 + (i 0).val) (1020 + (i 1).val) (0 + (i 2).val) from slice_idx 0 1020 0 v h10 i]
    have hb : (i 1).val < 1 := (i 1).isLt
    have hp : preExt (Sh n0 1040 1024) 1 (pieces_kpadH8 v h0 h1 h2 h3 h4 h5 h6 h7 h8 h9 h10 h11 h12 h13 h14 h15) 11 = 1034 := by simp [preExt, Shape.size]
    refine at3_congr v (Nat.zero_add _) ?_ (Nat.zero_add _)
    show 1020 + (i 1).val = mirror 8 1024 (preExt (Sh n0 1040 1024) 1 (pieces_kpadH8 v h0 h1 h2 h3 h4 h5 h6 h7 h8 h9 h10 h11 h12 h13 h14 h15) 11 + (i 1).val)
    rw [hp]; unfold mirror; split_ifs <;> omega
  | 12, _, _ =>
    intro (i : (Sh n0 1 1024).Idx)
    rw [show (pieces_kpadH8 v h0 h1 h2 h3 h4 h5 h6 h7 h8 h9 h10 h11 h12 h13 h14 h15)[12].2 i = at3 v (0 + (i 0).val) (1019 + (i 1).val) (0 + (i 2).val) from slice_idx 0 1019 0 v h11 i]
    have hb : (i 1).val < 1 := (i 1).isLt
    have hp : preExt (Sh n0 1040 1024) 1 (pieces_kpadH8 v h0 h1 h2 h3 h4 h5 h6 h7 h8 h9 h10 h11 h12 h13 h14 h15) 12 = 1035 := by simp [preExt, Shape.size]
    refine at3_congr v (Nat.zero_add _) ?_ (Nat.zero_add _)
    show 1019 + (i 1).val = mirror 8 1024 (preExt (Sh n0 1040 1024) 1 (pieces_kpadH8 v h0 h1 h2 h3 h4 h5 h6 h7 h8 h9 h10 h11 h12 h13 h14 h15) 12 + (i 1).val)
    rw [hp]; unfold mirror; split_ifs <;> omega
  | 13, _, _ =>
    intro (i : (Sh n0 1 1024).Idx)
    rw [show (pieces_kpadH8 v h0 h1 h2 h3 h4 h5 h6 h7 h8 h9 h10 h11 h12 h13 h14 h15)[13].2 i = at3 v (0 + (i 0).val) (1018 + (i 1).val) (0 + (i 2).val) from slice_idx 0 1018 0 v h12 i]
    have hb : (i 1).val < 1 := (i 1).isLt
    have hp : preExt (Sh n0 1040 1024) 1 (pieces_kpadH8 v h0 h1 h2 h3 h4 h5 h6 h7 h8 h9 h10 h11 h12 h13 h14 h15) 13 = 1036 := by simp [preExt, Shape.size]
    refine at3_congr v (Nat.zero_add _) ?_ (Nat.zero_add _)
    show 1018 + (i 1).val = mirror 8 1024 (preExt (Sh n0 1040 1024) 1 (pieces_kpadH8 v h0 h1 h2 h3 h4 h5 h6 h7 h8 h9 h10 h11 h12 h13 h14 h15) 13 + (i 1).val)
    rw [hp]; unfold mirror; split_ifs <;> omega
  | 14, _, _ =>
    intro (i : (Sh n0 1 1024).Idx)
    rw [show (pieces_kpadH8 v h0 h1 h2 h3 h4 h5 h6 h7 h8 h9 h10 h11 h12 h13 h14 h15)[14].2 i = at3 v (0 + (i 0).val) (1017 + (i 1).val) (0 + (i 2).val) from slice_idx 0 1017 0 v h13 i]
    have hb : (i 1).val < 1 := (i 1).isLt
    have hp : preExt (Sh n0 1040 1024) 1 (pieces_kpadH8 v h0 h1 h2 h3 h4 h5 h6 h7 h8 h9 h10 h11 h12 h13 h14 h15) 14 = 1037 := by simp [preExt, Shape.size]
    refine at3_congr v (Nat.zero_add _) ?_ (Nat.zero_add _)
    show 1017 + (i 1).val = mirror 8 1024 (preExt (Sh n0 1040 1024) 1 (pieces_kpadH8 v h0 h1 h2 h3 h4 h5 h6 h7 h8 h9 h10 h11 h12 h13 h14 h15) 14 + (i 1).val)
    rw [hp]; unfold mirror; split_ifs <;> omega
  | 15, _, _ =>
    intro (i : (Sh n0 1 1024).Idx)
    rw [show (pieces_kpadH8 v h0 h1 h2 h3 h4 h5 h6 h7 h8 h9 h10 h11 h12 h13 h14 h15)[15].2 i = at3 v (0 + (i 0).val) (1016 + (i 1).val) (0 + (i 2).val) from slice_idx 0 1016 0 v h14 i]
    have hb : (i 1).val < 1 := (i 1).isLt
    have hp : preExt (Sh n0 1040 1024) 1 (pieces_kpadH8 v h0 h1 h2 h3 h4 h5 h6 h7 h8 h9 h10 h11 h12 h13 h14 h15) 15 = 1038 := by simp [preExt, Shape.size]
    refine at3_congr v (Nat.zero_add _) ?_ (Nat.zero_add _)
    show 1016 + (i 1).val = mirror 8 1024 (preExt (Sh n0 1040 1024) 1 (pieces_kpadH8 v h0 h1 h2 h3 h4 h5 h6 h7 h8 h9 h10 h11 h12 h13 h14 h15) 15 + (i 1).val)
    rw [hp]; unfold mirror; split_ifs <;> omega
  | 16, _, _ =>
    intro (i : (Sh n0 1 1024).Idx)
    rw [show (pieces_kpadH8 v h0 h1 h2 h3 h4 h5 h6 h7 h8 h9 h10 h11 h12 h13 h14 h15)[16].2 i = at3 v (0 + (i 0).val) (1015 + (i 1).val) (0 + (i 2).val) from slice_idx 0 1015 0 v h15 i]
    have hb : (i 1).val < 1 := (i 1).isLt
    have hp : preExt (Sh n0 1040 1024) 1 (pieces_kpadH8 v h0 h1 h2 h3 h4 h5 h6 h7 h8 h9 h10 h11 h12 h13 h14 h15) 16 = 1039 := by simp [preExt, Shape.size]
    refine at3_congr v (Nat.zero_add _) ?_ (Nat.zero_add _)
    show 1015 + (i 1).val = mirror 8 1024 (preExt (Sh n0 1040 1024) 1 (pieces_kpadH8 v h0 h1 h2 h3 h4 h5 h6 h7 h8 h9 h10 h11 h12 h13 h14 h15) 16 + (i 1).val)
    rw [hp]; unfold mirror; split_ifs <;> omega
  | k + 17, hk, _ => exact absurd hk (by simp)

/-- The image with 8 mirrored columns on either side, assembled from single columns and the image itself. -/
abbrev pieces_kpadW8 {n0 : Nat} (v : (Sh n0 1024 1024).Idx → EReal) (h0 : (Sh n0 1024 1024).Slices ![0, 0, 8] (Sh n0 1024 1)) (h1 : (Sh n0 1024 1024).Slices ![0, 0, 7] (Sh n0 1024 1)) (h2 : (Sh n0 1024 1024).Slices ![0, 0, 6] (Sh n0 1024 1)) (h3 : (Sh n0 1024 1024).Slices ![0, 0, 5] (Sh n0 1024 1)) (h4 : (Sh n0 1024 1024).Slices ![0, 0, 4] (Sh n0 1024 1)) (h5 : (Sh n0 1024 1024).Slices ![0, 0, 3] (Sh n0 1024 1)) (h6 : (Sh n0 1024 1024).Slices ![0, 0, 2] (Sh n0 1024 1)) (h7 : (Sh n0 1024 1024).Slices ![0, 0, 1] (Sh n0 1024 1)) (h8 : (Sh n0 1024 1024).Slices ![0, 0, 1022] (Sh n0 1024 1)) (h9 : (Sh n0 1024 1024).Slices ![0, 0, 1021] (Sh n0 1024 1)) (h10 : (Sh n0 1024 1024).Slices ![0, 0, 1020] (Sh n0 1024 1)) (h11 : (Sh n0 1024 1024).Slices ![0, 0, 1019] (Sh n0 1024 1)) (h12 : (Sh n0 1024 1024).Slices ![0, 0, 1018] (Sh n0 1024 1)) (h13 : (Sh n0 1024 1024).Slices ![0, 0, 1017] (Sh n0 1024 1)) (h14 : (Sh n0 1024 1024).Slices ![0, 0, 1016] (Sh n0 1024 1)) (h15 : (Sh n0 1024 1024).Slices ![0, 0, 1015] (Sh n0 1024 1)) :
    List ((s : Shape) × (s.Idx → EReal)) :=
  [⟨Sh n0 1024 1, extractStridedSlice (Sh n0 1024 1) ![0, 0, 8] v h0⟩,
    ⟨Sh n0 1024 1, extractStridedSlice (Sh n0 1024 1) ![0, 0, 7] v h1⟩,
    ⟨Sh n0 1024 1, extractStridedSlice (Sh n0 1024 1) ![0, 0, 6] v h2⟩,
    ⟨Sh n0 1024 1, extractStridedSlice (Sh n0 1024 1) ![0, 0, 5] v h3⟩,
    ⟨Sh n0 1024 1, extractStridedSlice (Sh n0 1024 1) ![0, 0, 4] v h4⟩,
    ⟨Sh n0 1024 1, extractStridedSlice (Sh n0 1024 1) ![0, 0, 3] v h5⟩,
    ⟨Sh n0 1024 1, extractStridedSlice (Sh n0 1024 1) ![0, 0, 2] v h6⟩,
    ⟨Sh n0 1024 1, extractStridedSlice (Sh n0 1024 1) ![0, 0, 1] v h7⟩,
    ⟨Sh n0 1024 1024, v⟩,
    ⟨Sh n0 1024 1, extractStridedSlice (Sh n0 1024 1) ![0, 0, 1022] v h8⟩,
    ⟨Sh n0 1024 1, extractStridedSlice (Sh n0 1024 1) ![0, 0, 1021] v h9⟩,
    ⟨Sh n0 1024 1, extractStridedSlice (Sh n0 1024 1) ![0, 0, 1020] v h10⟩,
    ⟨Sh n0 1024 1, extractStridedSlice (Sh n0 1024 1) ![0, 0, 1019] v h11⟩,
    ⟨Sh n0 1024 1, extractStridedSlice (Sh n0 1024 1) ![0, 0, 1018] v h12⟩,
    ⟨Sh n0 1024 1, extractStridedSlice (Sh n0 1024 1) ![0, 0, 1017] v h13⟩,
    ⟨Sh n0 1024 1, extractStridedSlice (Sh n0 1024 1) ![0, 0, 1016] v h14⟩,
    ⟨Sh n0 1024 1, extractStridedSlice (Sh n0 1024 1) ![0, 0, 1015] v h15⟩]

set_option maxHeartbeats 1600000 in
theorem kpadW8 {n0 : Nat} (v : (Sh n0 1024 1024).Idx → EReal) (h0 : (Sh n0 1024 1024).Slices ![0, 0, 8] (Sh n0 1024 1)) (h1 : (Sh n0 1024 1024).Slices ![0, 0, 7] (Sh n0 1024 1)) (h2 : (Sh n0 1024 1024).Slices ![0, 0, 6] (Sh n0 1024 1)) (h3 : (Sh n0 1024 1024).Slices ![0, 0, 5] (Sh n0 1024 1)) (h4 : (Sh n0 1024 1024).Slices ![0, 0, 4] (Sh n0 1024 1)) (h5 : (Sh n0 1024 1024).Slices ![0, 0, 3] (Sh n0 1024 1)) (h6 : (Sh n0 1024 1024).Slices ![0, 0, 2] (Sh n0 1024 1)) (h7 : (Sh n0 1024 1024).Slices ![0, 0, 1] (Sh n0 1024 1)) (h8 : (Sh n0 1024 1024).Slices ![0, 0, 1022] (Sh n0 1024 1)) (h9 : (Sh n0 1024 1024).Slices ![0, 0, 1021] (Sh n0 1024 1)) (h10 : (Sh n0 1024 1024).Slices ![0, 0, 1020] (Sh n0 1024 1)) (h11 : (Sh n0 1024 1024).Slices ![0, 0, 1019] (Sh n0 1024 1)) (h12 : (Sh n0 1024 1024).Slices ![0, 0, 1018] (Sh n0 1024 1)) (h13 : (Sh n0 1024 1024).Slices ![0, 0, 1017] (Sh n0 1024 1)) (h14 : (Sh n0 1024 1024).Slices ![0, 0, 1016] (Sh n0 1024 1)) (h15 : (Sh n0 1024 1024).Slices ![0, 0, 1015] (Sh n0 1024 1))
    (hc : Shape.Concatenates [Sh n0 1024 1, Sh n0 1024 1, Sh n0 1024 1, Sh n0 1024 1, Sh n0 1024 1, Sh n0 1024 1, Sh n0 1024 1, Sh n0 1024 1, Sh n0 1024 1024, Sh n0 1024 1, Sh n0 1024 1, Sh n0 1024 1, Sh n0 1024 1, Sh n0 1024 1, Sh n0 1024 1, Sh n0 1024 1, Sh n0 1024 1] (Sh n0 1024 1040) 2)
    (a r c : Nat) (ha : a < n0) (hr : r < 1024) (hcc : c < 1040) :
    at3 (concatenate (Sh n0 1024 1040) 2 (pieces_kpadW8 v h0 h1 h2 h3 h4 h5 h6 h7 h8 h9 h10 h11 h12 h13 h14 h15) hc) a r c = at3 v a r (mirror 8 1024 c) := by
  refine concat_at3_axis2 (pieces_kpadW8 v h0 h1 h2 h3 h4 h5 h6 h7 h8 h9 h10 h11 h12 h13 h14 h15) hc (fun a r c => at3 v a r (mirror 8 1024 c)) ?_ a r c ha hr hcc
  intro k hk hrk
  match k, hk, hrk with
  | 0, _, _ =>
    intro (i : (Sh n0 1024 1).Idx)
    rw [show (pieces_kpadW8 v h0 h1 h2 h3 h4 h5 h6 h7 h8 h9 h10 h11 h12 h13 h14 h15)[0].2 i = at3 v (0 + (i 0).val) (0 + (i 1).val) (8 + (i 2).val) from slice_idx 0 0 8 v h0 i]
    have hb : (i 2).val < 1 := (i 2).isLt
    have hp : preExt (Sh n0 1024 1040) 2 (pieces_kpadW8 v h0 h1 h2 h3 h4 h5 h6 h7 h8 h9 h10 h11 h12 h13 h14 h15) 0 = 0 := by simp [preExt, Shape.size]
    refine at3_congr v (Nat.zero_add _) (Nat.zero_add _) ?_
    show 8 + (i 2).val = mirror 8 1024 (preExt (Sh n0 1024 1040) 2 (pieces_kpadW8 v h0 h1 h2 h3 h4 h5 h6 h7 h8 h9 h10 h11 h12 h13 h14 h15) 0 + (i 2).val)
    rw [hp]; unfold mirror; split_ifs <;> omega
  | 1, _, _ =>
    intro (i : (Sh n0 1024 1).Idx)
    rw [show (pieces_kpadW8 v h0 h1 h2 h3 h4 h5 h6 h7 h8 h9 h10 h11 h12 h13 h14 h15)[1].2 i = at3 v (0 + (i 0).val) (0 + (i 1).val) (7 + (i 2).val) from slice_idx 0 0 7 v h1 i]
    have hb : (i 2).val < 1 := (i 2).isLt
    have hp : preExt (Sh n0 1024 1040) 2 (pieces_kpadW8 v h0 h1 h2 h3 h4 h5 h6 h7 h8 h9 h10 h11 h12 h13 h14 h15) 1 = 1 := by simp [preExt, Shape.size]
    refine at3_congr v (Nat.zero_add _) (Nat.zero_add _) ?_
    show 7 + (i 2).val = mirror 8 1024 (preExt (Sh n0 1024 1040) 2 (pieces_kpadW8 v h0 h1 h2 h3 h4 h5 h6 h7 h8 h9 h10 h11 h12 h13 h14 h15) 1 + (i 2).val)
    rw [hp]; unfold mirror; split_ifs <;> omega
  | 2, _, _ =>
    intro (i : (Sh n0 1024 1).Idx)
    rw [show (pieces_kpadW8 v h0 h1 h2 h3 h4 h5 h6 h7 h8 h9 h10 h11 h12 h13 h14 h15)[2].2 i = at3 v (0 + (i 0).val) (0 + (i 1).val) (6 + (i 2).val) from slice_idx 0 0 6 v h2 i]
    have hb : (i 2).val < 1 := (i 2).isLt
    have hp : preExt (Sh n0 1024 1040) 2 (pieces_kpadW8 v h0 h1 h2 h3 h4 h5 h6 h7 h8 h9 h10 h11 h12 h13 h14 h15) 2 = 2 := by simp [preExt, Shape.size]
    refine at3_congr v (Nat.zero_add _) (Nat.zero_add _) ?_
    show 6 + (i 2).val = mirror 8 1024 (preExt (Sh n0 1024 1040) 2 (pieces_kpadW8 v h0 h1 h2 h3 h4 h5 h6 h7 h8 h9 h10 h11 h12 h13 h14 h15) 2 + (i 2).val)
    rw [hp]; unfold mirror; split_ifs <;> omega
  | 3, _, _ =>
    intro (i : (Sh n0 1024 1).Idx)
    rw [show (pieces_kpadW8 v h0 h1 h2 h3 h4 h5 h6 h7 h8 h9 h10 h11 h12 h13 h14 h15)[3].2 i = at3 v (0 + (i 0).val) (0 + (i 1).val) (5 + (i 2).val) from slice_idx 0 0 5 v h3 i]
    have hb : (i 2).val < 1 := (i 2).isLt
    have hp : preExt (Sh n0 1024 1040) 2 (pieces_kpadW8 v h0 h1 h2 h3 h4 h5 h6 h7 h8 h9 h10 h11 h12 h13 h14 h15) 3 = 3 := by simp [preExt, Shape.size]
    refine at3_congr v (Nat.zero_add _) (Nat.zero_add _) ?_
    show 5 + (i 2).val = mirror 8 1024 (preExt (Sh n0 1024 1040) 2 (pieces_kpadW8 v h0 h1 h2 h3 h4 h5 h6 h7 h8 h9 h10 h11 h12 h13 h14 h15) 3 + (i 2).val)
    rw [hp]; unfold mirror; split_ifs <;> omega
  | 4, _, _ =>
    intro (i : (Sh n0 1024 1).Idx)
    rw [show (pieces_kpadW8 v h0 h1 h2 h3 h4 h5 h6 h7 h8 h9 h10 h11 h12 h13 h14 h15)[4].2 i = at3 v (0 + (i 0).val) (0 + (i 1).val) (4 + (i 2).val) from slice_idx 0 0 4 v h4 i]
    have hb : (i 2).val < 1 := (i 2).isLt
    have hp : preExt (Sh n0 1024 1040) 2 (pieces_kpadW8 v h0 h1 h2 h3 h4 h5 h6 h7 h8 h9 h10 h11 h12 h13 h14 h15) 4 = 4 := by simp [preExt, Shape.size]
    refine at3_congr v (Nat.zero_add _) (Nat.zero_add _) ?_
    show 4 + (i 2).val = mirror 8 1024 (preExt (Sh n0 1024 1040) 2 (pieces_kpadW8 v h0 h1 h2 h3 h4 h5 h6 h7 h8 h9 h10 h11 h12 h13 h14 h15) 4 + (i 2).val)
    rw [hp]; unfold mirror; split_ifs <;> omega
  | 5, _, _ =>
    intro (i : (Sh n0 1024 1).Idx)
    rw [show (pieces_kpadW8 v h0 h1 h2 h3 h4 h5 h6 h7 h8 h9 h10 h11 h12 h13 h14 h15)[5].2 i = at3 v (0 + (i 0).val) (0 + (i 1).val) (3 + (i 2).val) from slice_idx 0 0 3 v h5 i]
    have hb : (i 2).val < 1 := (i 2).isLt
    have hp : preExt (Sh n0 1024 1040) 2 (pieces_kpadW8 v h0 h1 h2 h3 h4 h5 h6 h7 h8 h9 h10 h11 h12 h13 h14 h15) 5 = 5 := by simp [preExt, Shape.size]
    refine at3_congr v (Nat.zero_add _) (Nat.zero_add _) ?_
    show 3 + (i 2).val = mirror 8 1024 (preExt (Sh n0 1024 1040) 2 (pieces_kpadW8 v h0 h1 h2 h3 h4 h5 h6 h7 h8 h9 h10 h11 h12 h13 h14 h15) 5 + (i 2).val)
    rw [hp]; unfold mirror; split_ifs <;> omega
  | 6, _, _ =>
    intro (i : (Sh n0 1024 1).Idx)
    rw [show (pieces_kpadW8 v h0 h1 h2 h3 h4 h5 h6 h7 h8 h9 h10 h11 h12 h13 h14 h15)[6].2 i = at3 v (0 + (i 0).val) (0 + (i 1).val) (2 + (i 2).val) from slice_idx 0 0 2 v h6 i]
    have hb : (i 2).val < 1 := (i 2).isLt
    have hp : preExt (Sh n0 1024 1040) 2 (pieces_kpadW8 v h0 h1 h2 h3 h4 h5 h6 h7 h8 h9 h10 h11 h12 h13 h14 h15) 6 = 6 := by simp [preExt, Shape.size]
    refine at3_congr v (Nat.zero_add _) (Nat.zero_add _) ?_
    show 2 + (i 2).val = mirror 8 1024 (preExt (Sh n0 1024 1040) 2 (pieces_kpadW8 v h0 h1 h2 h3 h4 h5 h6 h7 h8 h9 h10 h11 h12 h13 h14 h15) 6 + (i 2).val)
    rw [hp]; unfold mirror; split_ifs <;> omega
  | 7, _, _ =>
    intro (i : (Sh n0 1024 1).Idx)
    rw [show (pieces_kpadW8 v h0 h1 h2 h3 h4 h5 h6 h7 h8 h9 h10 h11 h12 h13 h14 h15)[7].2 i = at3 v (0 + (i 0).val) (0 + (i 1).val) (1 + (i 2).val) from slice_idx 0 0 1 v h7 i]
    have hb : (i 2).val < 1 := (i 2).isLt
    have hp : preExt (Sh n0 1024 1040) 2 (pieces_kpadW8 v h0 h1 h2 h3 h4 h5 h6 h7 h8 h9 h10 h11 h12 h13 h14 h15) 7 = 7 := by simp [preExt, Shape.size]
    refine at3_congr v (Nat.zero_add _) (Nat.zero_add _) ?_
    show 1 + (i 2).val = mirror 8 1024 (preExt (Sh n0 1024 1040) 2 (pieces_kpadW8 v h0 h1 h2 h3 h4 h5 h6 h7 h8 h9 h10 h11 h12 h13 h14 h15) 7 + (i 2).val)
    rw [hp]; unfold mirror; split_ifs <;> omega
  | 8, _, _ =>
    intro (i : (Sh n0 1024 1024).Idx)
    rw [show (pieces_kpadW8 v h0 h1 h2 h3 h4 h5 h6 h7 h8 h9 h10 h11 h12 h13 h14 h15)[8].2 i = at3 v (i 0).val (i 1).val (i 2).val from at3_idx v i]
    have hb : (i 2).val < 1024 := (i 2).isLt
    have hp : preExt (Sh n0 1024 1040) 2 (pieces_kpadW8 v h0 h1 h2 h3 h4 h5 h6 h7 h8 h9 h10 h11 h12 h13 h14 h15) 8 = 8 := by simp [preExt, Shape.size]
    refine at3_congr v rfl rfl ?_
    show (i 2).val = mirror 8 1024 (preExt (Sh n0 1024 1040) 2 (pieces_kpadW8 v h0 h1 h2 h3 h4 h5 h6 h7 h8 h9 h10 h11 h12 h13 h14 h15) 8 + (i 2).val)
    rw [hp]; unfold mirror; split_ifs <;> omega
  | 9, _, _ =>
    intro (i : (Sh n0 1024 1).Idx)
    rw [show (pieces_kpadW8 v h0 h1 h2 h3 h4 h5 h6 h7 h8 h9 h10 h11 h12 h13 h14 h15)[9].2 i = at3 v (0 + (i 0).val) (0 + (i 1).val) (1022 + (i 2).val) from slice_idx 0 0 1022 v h8 i]
    have hb : (i 2).val < 1 := (i 2).isLt
    have hp : preExt (Sh n0 1024 1040) 2 (pieces_kpadW8 v h0 h1 h2 h3 h4 h5 h6 h7 h8 h9 h10 h11 h12 h13 h14 h15) 9 = 1032 := by simp [preExt, Shape.size]
    refine at3_congr v (Nat.zero_add _) (Nat.zero_add _) ?_
    show 1022 + (i 2).val = mirror 8 1024 (preExt (Sh n0 1024 1040) 2 (pieces_kpadW8 v h0 h1 h2 h3 h4 h5 h6 h7 h8 h9 h10 h11 h12 h13 h14 h15) 9 + (i 2).val)
    rw [hp]; unfold mirror; split_ifs <;> omega
  | 10, _, _ =>
    intro (i : (Sh n0 1024 1).Idx)
    rw [show (pieces_kpadW8 v h0 h1 h2 h3 h4 h5 h6 h7 h8 h9 h10 h11 h12 h13 h14 h15)[10].2 i = at3 v (0 + (i 0).val) (0 + (i 1).val) (1021 + (i 2).val) from slice_idx 0 0 1021 v h9 i]
    have hb : (i 2).val < 1 := (i 2).isLt
    have hp : preExt (Sh n0 1024 1040) 2 (pieces_kpadW8 v h0 h1 h2 h3 h4 h5 h6 h7 h8 h9 h10 h11 h12 h13 h14 h15) 10 = 1033 := by simp [preExt, Shape.size]
    refine at3_congr v (Nat.zero_add _) (Nat.zero_add _) ?_
    show 1021 + (i 2).val = mirror 8 1024 (preExt (Sh n0 1024 1040) 2 (pieces_kpadW8 v h0 h1 h2 h3 h4 h5 h6 h7 h8 h9 h10 h11 h12 h13 h14 h15) 10 + (i 2).val)
    rw [hp]; unfold mirror; split_ifs <;> omega
  | 11, _, _ =>
    intro (i : (Sh n0 1024 1).Idx)
    rw [show (pieces_kpadW8 v h0 h1 h2 h3 h4 h5 h6 h7 h8 h9 h10 h11 h12 h13 h14 h15)[11].2 i = at3 v (0 + (i 0).val) (0 + (i 1).val) (1020 + (i 2).val) from slice_idx 0 0 1020 v h10 i]
    have hb : (i 2).val < 1 := (i 2).isLt
    have hp : preExt (Sh n0 1024 1040) 2 (pieces_kpadW8 v h0 h1 h2 h3 h4 h5 h6 h7 h8 h9 h10 h11 h12 h13 h14 h15) 11 = 1034 := by simp [preExt, Shape.size]
    refine at3_congr v (Nat.zero_add _) (Nat.zero_add _) ?_
    show 1020 + (i 2).val = mirror 8 1024 (preExt (Sh n0 1024 1040) 2 (pieces_kpadW8 v h0 h1 h2 h3 h4 h5 h6 h7 h8 h9 h10 h11 h12 h13 h14 h15) 11 + (i 2).val)
    rw [hp]; unfold mirror; split_ifs <;> omega
  | 12, _, _ =>
    intro (i : (Sh n0 1024 1).Idx)
    rw [show (pieces_kpadW8 v h0 h1 h2 h3 h4 h5 h6 h7 h8 h9 h10 h11 h12 h13 h14 h15)[12].2 i = at3 v (0 + (i 0).val) (0 + (i 1).val) (1019 + (i 2).val) from slice_idx 0 0 1019 v h11 i]
    have hb : (i 2).val < 1 := (i 2).isLt
    have hp : preExt (Sh n0 1024 1040) 2 (pieces_kpadW8 v h0 h1 h2 h3 h4 h5 h6 h7 h8 h9 h10 h11 h12 h13 h14 h15) 12 = 1035 := by simp [preExt, Shape.size]
    refine at3_congr v (Nat.zero_add _) (Nat.zero_add _) ?_
    show 1019 + (i 2).val = mirror 8 1024 (preExt (Sh n0 1024 1040) 2 (pieces_kpadW8 v h0 h1 h2 h3 h4 h5 h6 h7 h8 h9 h10 h11 h12 h13 h14 h15) 12 + (i 2).val)
    rw [hp]; unfold mirror; split_ifs <;> omega
  | 13, _, _ =>
    intro (i : (Sh n0 1024 1).Idx)
    rw [show (pieces_kpadW8 v h0 h1 h2 h3 h4 h5 h6 h7 h8 h9 h10 h11 h12 h13 h14 h15)[13].2 i = at3 v (0 + (i 0).val) (0 + (i 1).val) (1018 + (i 2).val) from slice_idx 0 0 1018 v h12 i]
    have hb : (i 2).val < 1 := (i 2).isLt
    have hp : preExt (Sh n0 1024 1040) 2 (pieces_kpadW8 v h0 h1 h2 h3 h4 h5 h6 h7 h8 h9 h10 h11 h12 h13 h14 h15) 13 = 1036 := by simp [preExt, Shape.size]
    refine at3_congr v (Nat.zero_add _) (Nat.zero_add _) ?_
    show 1018 + (i 2).val = mirror 8 1024 (preExt (Sh n0 1024 1040) 2 (pieces_kpadW8 v h0 h1 h2 h3 h4 h5 h6 h7 h8 h9 h10 h11 h12 h13 h14 h15) 13 + (i 2).val)
    rw [hp]; unfold mirror; split_ifs <;> omega
  | 14, _, _ =>
    intro (i : (Sh n0 1024 1).Idx)
    rw [show (pieces_kpadW8 v h0 h1 h2 h3 h4 h5 h6 h7 h8 h9 h10 h11 h12 h13 h14 h15)[14].2 i = at3 v (0 + (i 0).val) (0 + (i 1).val) (1017 + (i 2).val) from slice_idx 0 0 1017 v h13 i]
    have hb : (i 2).val < 1 := (i 2).isLt
    have hp : preExt (Sh n0 1024 1040) 2 (pieces_kpadW8 v h0 h1 h2 h3 h4 h5 h6 h7 h8 h9 h10 h11 h12 h13 h14 h15) 14 = 1037 := by simp [preExt, Shape.size]
    refine at3_congr v (Nat.zero_add _) (Nat.zero_add _) ?_
    show 1017 + (i 2).val = mirror 8 1024 (preExt (Sh n0 1024 1040) 2 (pieces_kpadW8 v h0 h1 h2 h3 h4 h5 h6 h7 h8 h9 h10 h11 h12 h13 h14 h15) 14 + (i 2).val)
    rw [hp]; unfold mirror; split_ifs <;> omega
  | 15, _, _ =>
    intro (i : (Sh n0 1024 1).Idx)
    rw [show (pieces_kpadW8 v h0 h1 h2 h3 h4 h5 h6 h7 h8 h9 h10 h11 h12 h13 h14 h15)[15].2 i = at3 v (0 + (i 0).val) (0 + (i 1).val) (1016 + (i 2).val) from slice_idx 0 0 1016 v h14 i]
    have hb : (i 2).val < 1 := (i 2).isLt
    have hp : preExt (Sh n0 1024 1040) 2 (pieces_kpadW8 v h0 h1 h2 h3 h4 h5 h6 h7 h8 h9 h10 h11 h12 h13 h14 h15) 15 = 1038 := by simp [preExt, Shape.size]
    refine at3_congr v (Nat.zero_add _) (Nat.zero_add _) ?_
    show 1016 + (i 2).val = mirror 8 1024 (preExt (Sh n0 1024 1040) 2 (pieces_kpadW8 v h0 h1 h2 h3 h4 h5 h6 h7 h8 h9 h10 h11 h12 h13 h14 h15) 15 + (i 2).val)
    rw [hp]; unfold mirror; split_ifs <;> omega
  | 16, _, _ =>
    intro (i : (Sh n0 1024 1).Idx)
    rw [show (pieces_kpadW8 v h0 h1 h2 h3 h4 h5 h6 h7 h8 h9 h10 h11 h12 h13 h14 h15)[16].2 i = at3 v (0 + (i 0).val) (0 + (i 1).val) (1015 + (i 2).val) from slice_idx 0 0 1015 v h15 i]
    have hb : (i 2).val < 1 := (i 2).isLt
    have hp : preExt (Sh n0 1024 1040) 2 (pieces_kpadW8 v h0 h1 h2 h3 h4 h5 h6 h7 h8 h9 h10 h11 h12 h13 h14 h15) 16 = 1039 := by simp [preExt, Shape.size]
    refine at3_congr v (Nat.zero_add _) (Nat.zero_add _) ?_
    show 1015 + (i 2).val = mirror 8 1024 (preExt (Sh n0 1024 1040) 2 (pieces_kpadW8 v h0 h1 h2 h3 h4 h5 h6 h7 h8 h9 h10 h11 h12 h13 h14 h15) 16 + (i 2).val)
    rw [hp]; unfold mirror; split_ifs <;> omega
  | k + 17, hk, _ => exact absurd hk (by simp)

end Cert.Pads

end
-- ==== Proof.LibReads.lean ====
/-
  Pointwise operations on rank-3 arrays of extended reals read at natural-number coordinates inside the box: a
  product, sum or difference of arrays is the product, sum or difference of the readings; a splat is its value.
-/
import proofs.«167050_j34797825032658_1_alg».proof.Proof.LibPieces
import Idealize.ShloMosaic.Lib.ValueIdx

noncomputable section

namespace Cert.Grid3

open Idealize.ShloMosaic Idealize.ShloMosaic.ValueIdx

variable {n0 n1 n2 : Nat}

/-- A pointwise binary operation read inside the box. -/
theorem at3_fun2 (f : EReal → EReal → EReal) (x y : (Sh n0 n1 n2).Idx → EReal) (a r c : Nat)
    (ha : a < n0) (hr : r < n1) (hc : c < n2) :
    at3 (fun i => f (x i) (y i)) a r c = f (at3 x a r c) (at3 y a r c) := by
  rw [at3_eq (fun i => f (x i) (y i)) (ix3 ⟨a, ha⟩ ⟨r, hr⟩ ⟨c, hc⟩) a r c rfl rfl rfl,
    at3_eq x (ix3 ⟨a, ha⟩ ⟨r, hr⟩ ⟨c, hc⟩) a r c rfl rfl rfl,
    at3_eq y (ix3 ⟨a, ha⟩ ⟨r, hr⟩ ⟨c, hc⟩) a r c rfl rfl rfl]

theorem at3_mulf (x y : FVec Ideal (Sh n0 n1 n2) .f32) (a r c : Nat) (ha : a < n0) (hr : r < n1) (hc : c < n2) :
    at3 (α := EReal) (mulf x y) a r c = at3 (α := EReal) x a r c * at3 (α := EReal) y a r c :=
  at3_fun2 (· * ·) x y a r c ha hr hc

theorem at3_addf (x y : FVec Ideal (Sh n0 n1 n2) .f32) (a r c : Nat) (ha : a < n0) (hr : r < n1) (hc : c < n2) :
    at3 (α := EReal) (addf x y) a r c = at3 (α := EReal) x a r c + at3 (α := EReal) y a r c :=
  at3_fun2 (· + ·) x y a r c ha hr hc

theorem at3_subf (x y : FVec Ideal (Sh n0 n1 n2) .f32) (a r c : Nat) (ha : a < n0) (hr : r < n1) (hc : c < n2) :
    at3 (α := EReal) (subf x y) a r c = at3 (α := EReal) x a r c - at3 (α := EReal) y a r c :=
  at3_fun2 (· - ·) x y a r c ha hr hc

/-- A constant array read inside the box is the constant. -/
theorem at3_const (w : EReal) (x : (Sh n0 n1 n2).Idx → EReal) (hx : ∀ i, x i = w) (a r c : Nat)
    (ha : a < n0) (hr : r < n1) (hc : c < n2) : at3 x a r c = w := by
  rw [at3_eq x (ix3 ⟨a, ha⟩ ⟨r, hr⟩ ⟨c, hc⟩) a r c rfl rfl rfl]; exact hx _

/-- The vector unit's splat of the word `b`. -/
theorem at3_splat (b : BitVec 32) (a r c : Nat) (ha : a < n0) (hr : r < n1) (hc : c < n2) :
    at3 (α := EReal) (broadcast (Sh n0 n1 n2) (Scalar.ofBits (F := Ideal) .f32 b)) a r c = Ideal.ofBits .f32 b :=
  at3_const _ _ (fun _ => rfl) a r c ha hr hc

/-- The host's splat of the word `b`. -/
theorem at3_hsplat (b : BitVec 32) (h : (⟨0, ![]⟩ : Shape).BroadcastsInDim (Sh n0 n1 n2) ![]) (a r c : Nat)
    (ha : a < n0) (hr : r < n1) (hc : c < n2) :
    at3 (α := EReal) (broadcastInDim (Sh n0 n1 n2) ![] h (constant (F := Ideal) ⟨0, ![]⟩ .f32 b)) a r c = Ideal.ofBits .f32 b :=
  at3_const _ _ (fun _ => rfl) a r c ha hr hc

/-- A slice, in the spelling with the three offsets in a literal vector. -/
theorem at3_slice' {m0 m1 m2 : Nat} (o0 o1 o2 : Nat) (x : (Sh n0 n1 n2).Idx → EReal)
    (h : (Sh n0 n1 n2).Slices ![o0, o1, o2] (Sh m0 m1 m2)) (a r c : Nat) (ha : a < m0) (hr : r < m1) (hc : c < m2) :
    at3 (extractStridedSlice (Sh m0 m1 m2) ![o0, o1, o2] x h) a r c = at3 x (a + o0) (r + o1) (c + o2) := by
  refine (at3_slice ![o0, o1, o2] x h a r c ha hr hc).trans ?_
  show at3 x (o0 + a) (o1 + r) (o2 + c) = _
  rw [Nat.add_comm o0 a, Nat.add_comm o1 r, Nat.add_comm o2 c]

end Cert.Grid3

end
-- ==== Proof.KernelMath.lean ====
/-
  What the kernel body stores, as mathematics.  Over the input block `v0` (one image, read as a function of three
  naturals) each of the four stored vectors is a plane of the three-level à-trous transform of that image: the
  intermediate vectors are, in turn, the row smoothing under a mirrored column border, partial sums of the five
  column taps, the finished level, and so on down the three levels; each is read here at natural coordinates.
-/
import proofs.«167050_j34797825032658_1_alg».proof.Proof.KernelIdealData
import proofs.«167050_j34797825032658_1_alg».proof.Proof.Pads
import proofs.«167050_j34797825032658_1_alg».proof.Proof.LibReads
import proofs.«167050_j34797825032658_1_alg».proof.Proof.Planes

noncomputable section

namespace Cert.KernelIdeal.Math

open Idealize.ShloMosaic Cert.Grid3 Cert.Wavelet Cert.Pads Cert.KernelIdeal Cert.KernelIdeal.Gen Cert.KernelIdeal.Hand

variable [Facts] (v0 : Vec Ideal S1x1024x1024 .f32)

/-- Level 1, rows smoothed, under the two-wide mirrored column border. -/
theorem pay3_at3 (a r c : Nat) (ha : a < 1) (hr : r < 1024) (hc : c < 1028) :
    at3 (α := EReal) (k0_pay3 (F := Ideal) v0) a r c = smoothH 1 (at3 (α := EReal) v0) a r (mirror 2 1024 c) := by
  unfold k0_pay3
  refine (kpadW2 _ _ _ _ _ _ a r c ha hr hc).trans ?_
  have hm := mirror_lt 2 1024 c (by omega) (by omega)
  generalize mirror 2 1024 c = c' at hm ⊢
  simp (disch := omega) only [at3_addf, at3_mulf, at3_splat, at3_slice', kpadH2]
  rfl

/-- Level 1 finished: the first smoothing of the image. -/
theorem low1_at3 (a r c : Nat) (ha : a < 1) (hr : r < 1024) (hc : c < 1024) :
    at3 (α := EReal) (low1 (F := Ideal) v0) a r c = y1 (at3 (α := EReal) v0) a r c := by
  unfold low1 k0_pay6 k0_pay4 k0_pay5
  simp (disch := omega) only [at3_addf, at3_mulf, at3_splat, at3_slice', pay3_at3]
  rfl

/-- First stored vector: the image less its first smoothing. -/
theorem w1_at3 (a r c : Nat) (ha : a < 1) (hr : r < 1024) (hc : c < 1024) :
    at3 (α := EReal) (pay_w1 (F := Ideal) v0) a r c = plane1 (at3 (α := EReal) v0) a r c := by
  unfold pay_w1 k0_pay7
  rw [at3_subf _ _ a r c ha hr hc, low1_at3 v0 a r c ha hr hc]
  rfl

/-- Level 2, rows smoothed at spacing 2, under the four-wide mirrored column border. -/
theorem pad2_at3 (a r c : Nat) (ha : a < 1) (hr : r < 1024) (hc : c < 1032) :
    at3 (α := EReal) (pad2 (F := Ideal) v0) a r c = smoothH 2 (y1 (at3 (α := EReal) v0)) a r (mirror 4 1024 c) := by
  unfold pad2 k0_pay8
  refine (kpadW4 _ _ _ _ _ _ _ _ _ _ a r c ha hr hc).trans ?_
  have hm := mirror_lt 4 1024 c (by omega) (by omega)
  generalize mirror 4 1024 c = c' at hm ⊢
  simp (disch := first | omega | (apply mirror_lt <;> omega)) only
    [at3_addf, at3_mulf, at3_splat, at3_slice', kpadH4, low1_at3]
  rfl

/-- Level 2 finished: the second smoothing. -/
theorem low2_at3 (a r c : Nat) (ha : a < 1) (hr : r < 1024) (hc : c < 1024) :
    at3 (α := EReal) (k0_pay10 (F := Ideal) (pad2 v0) (sum2 v0)) a r c = y2 (at3 (α := EReal) v0) a r c := by
  unfold sum2 k0_pay10 k0_pay9
  simp (disch := omega) only [at3_addf, at3_mulf, at3_splat, at3_slice', pad2_at3]
  rfl

/-- Second stored vector: the first smoothing less the second. -/
theorem w2_at3 (a r c : Nat) (ha : a < 1) (hr : r < 1024) (hc : c < 1024) :
    at3 (α := EReal) (pay_w2 (F := Ideal) v0) a r c = plane2 (at3 (α := EReal) v0) a r c := by
  unfold pay_w2 k0_pay11
  rw [at3_subf _ _ a r c ha hr hc, low1_at3 v0 a r c ha hr hc, low2_at3 v0 a r c ha hr hc]
  rfl

/-- The second smoothing under the eight-wide mirrored row border. -/
theorem pad3_at3 (a r c : Nat) (ha : a < 1) (hr : r < 1040) (hc : c < 1024) :
    at3 (α := EReal) (k0_pay12 (F := Ideal) (pad2 v0) (sum2 v0)) a r c = y2 (at3 (α := EReal) v0) a (mirror 8 1024 r) c := by
  unfold k0_pay12
  refine (kpadH8 _ _ _ _ _ _ _ _ _ _ _ _ _ _ _ _ _ _ a r c ha hr hc).trans ?_
  exact low2_at3 v0 a _ c ha (mirror_lt 8 1024 r (by omega) (by omega)) hc

/-- Level 3 finished: the third smoothing. -/
theorem low3_at3 (a r c : Nat) (ha : a < 1) (hr : r < 1024) (hc : c < 1024) :
    at3 (α := EReal) (k0_pay1 (F := Ideal) (k0_pay13 (pad2 v0) (sum2 v0)) (k0_pay14 (pad2 v0) (sum2 v0)) k0_pay15) a r c
      = y3 (at3 (α := EReal) v0) a r c := by
  unfold k0_pay1
  refine (at3_addf _ _ a r c ha hr hc).trans ?_
  simp (disch := first | omega | (apply mirror_lt <;> omega)) only
    [at3_addf, at3_mulf, at3_splat, at3_slice', kpadW8]
  unfold k0_pay13 k0_pay14 k0_pay15
  simp (disch := first | omega | (apply mirror_lt <;> omega)) only
    [at3_addf, at3_mulf, at3_splat, at3_slice', Nat.add_zero]
  simp (disch := first | omega | (apply mirror_lt <;> omega)) only [pad3_at3]
  rfl

/-- Third stored vector: the second smoothing less the third. -/
theorem w3_at3 (a r c : Nat) (ha : a < 1) (hr : r < 1024) (hc : c < 1024) :
    at3 (α := EReal) (pay_w3 (F := Ideal) v0) a r c = plane3 (at3 (α := EReal) v0) a r c := by
  unfold pay_w3 k0_pay2
  rw [at3_subf _ _ a r c ha hr hc, low2_at3 v0 a r c ha hr hc, low3_at3 v0 a r c ha hr hc]
  rfl

/-- Fourth stored vector: the third smoothing. -/
theorem w4_at3 (a r c : Nat) (ha : a < 1) (hr : r < 1024) (hc : c < 1024) :
    at3 (α := EReal) (pay_w4 (F := Ideal) v0) a r c = plane4 (at3 (α := EReal) v0) a r c := by
  unfold pay_w4
  exact low3_at3 v0 a r c ha hr hc

/-! ## The stored vectors of image `t` are the planes of the stack at image `t` -/

open Idealize.ShloMosaic.ValueIdx

/-- One image of a stack of sixteen, read inside the box, is the stack read at that image. -/
theorem image_at3 (X : S16x1024x1024.Idx → EReal) (t : Fin 16) (y0 : Nat) (hy0 : y0 < 1) (r c : Nat)
    (hr : r < 1024) (hc : c < 1024) :
    at3 (α := EReal) (fun y : S1x1024x1024.Idx => X (ix3 t (y 1) (y 2))) y0 r c = at3 (α := EReal) X t.val r c := by
  rw [at3_eq (fun y : S1x1024x1024.Idx => X (ix3 t (y 1) (y 2))) (ix3 ⟨y0, hy0⟩ ⟨r, hr⟩ ⟨c, hc⟩) y0 r c rfl rfl rfl]
  exact (at3_eq X _ _ _ _ rfl rfl rfl).symm

theorem hG1 (X : S16x1024x1024.Idx → EReal) (t : Fin 16) :
    pay_w1 (F := Ideal) (fun y => X (ix3 t (y 1) (y 2))) = fun y => G1 X (ix3 t (y 1) (y 2)) := by
  funext y
  rw [at3_idx (pay_w1 (F := Ideal) (fun y => X (ix3 t (y 1) (y 2)))) y, w1_at3 _ _ _ _ (y 0).isLt (y 1).isLt (y 2).isLt]
  exact plane1_congr _ _ _ t.val _ _ (y 1).isLt (y 2).isLt (fun r c hr hc => image_at3 X t _ (y 0).isLt r c hr hc)

theorem hG2 (X : S16x1024x1024.Idx → EReal) (t : Fin 16) :
    pay_w2 (F := Ideal) (fun y => X (ix3 t (y 1) (y 2))) = fun y => G2 X (ix3 t (y 1) (y 2)) := by
  funext y
  rw [at3_idx (pay_w2 (F := Ideal) (fun y => X (ix3 t (y 1) (y 2)))) y, w2_at3 _ _ _ _ (y 0).isLt (y 1).isLt (y 2).isLt]
  exact plane2_congr _ _ _ t.val _ _ (y 1).isLt (y 2).isLt (fun r c hr hc => image_at3 X t _ (y 0).isLt r c hr hc)

theorem hG3 (X : S16x1024x1024.Idx → EReal) (t : Fin 16) :
    pay_w3 (F := Ideal) (fun y => X (ix3 t (y 1) (y 2))) = fun y => G3 X (ix3 t (y 1) (y 2)) := by
  funext y
  rw [at3_idx (pay_w3 (F := Ideal) (fun y => X (ix3 t (y 1) (y 2)))) y, w3_at3 _ _ _ _ (y 0).isLt (y 1).isLt (y 2).isLt]
  exact plane3_congr _ _ _ t.val _ _ (y 1).isLt (y 2).isLt (fun r c hr hc => image_at3 X t _ (y 0).isLt r c hr hc)

theorem hG4 (X : S16x1024x1024.Idx → EReal) (t : Fin 16) :
    pay_w4 (F := Ideal) (fun y => X (ix3 t (y 1) (y 2))) = fun y => G4 X (ix3 t (y 1) (y 2)) := by
  funext y
  rw [at3_idx (pay_w4 (F := Ideal) (fun y => X (ix3 t (y 1) (y 2)))) y, w4_at3 _ _ _ _ (y 0).isLt (y 1).isLt (y 2).isLt]
  exact plane4_congr _ _ _ t.val _ _ (y 1).isLt (y 2).isLt (fun r c hr hc => image_at3 X t _ (y 0).isLt r c hr hc)

end Cert.KernelIdeal.Math

end
-- ==== Proof.RefPads.lean ====
/-
  The mirrored border as the host program assembles it: the rows (columns) 1 … p reversed in front of the image, then
  the last p rows before the far border reversed behind it.  Read at any coordinate of the padded box this is the
  image at the reflected coordinate — the same array the kernel assembles row by row.
-/
import proofs.«167050_j34797825032658_1_alg».proof.Proof.Pads
import proofs.«167050_j34797825032658_1_alg».proof.Proof.LibReads

noncomputable section

namespace Cert.Pads

open Idealize.ShloMosaic Idealize.ShloMosaic.ValueIdx Cert.Grid3 Cert.Wavelet

/-- The host's first step along axis 1: the rows 1 … p mirrored in front of the image. -/
theorem rpadH_front {n0 p Lp : Nat} (hLp : Lp = 1024 + p) (hp : p < 1024) (X : (Sh n0 1024 1024).Idx → EReal)
    (hs : (Sh n0 1024 1024).Slices ![0, 1, 0] (Sh n0 p 1024))
    (hc : Shape.Concatenates [Sh n0 p 1024, Sh n0 1024 1024] (Sh n0 Lp 1024) 1)
    (a r c : Nat) (ha : a < n0) (hr : r < Lp) (hcc : c < 1024) :
    at3 (concatenate (Sh n0 Lp 1024) 1 [⟨Sh n0 p 1024, Host.reverse (s := Sh n0 p 1024) [1] (extractStridedSlice (Sh n0 p 1024) ![0, 1, 0] X hs)⟩, ⟨Sh n0 1024 1024, X⟩] hc) a r c = at3 X a (if r < p then p - r else r - p) c := by
  refine concat_at3_axis1 [⟨Sh n0 p 1024, Host.reverse (s := Sh n0 p 1024) [1] (extractStridedSlice (Sh n0 p 1024) ![0, 1, 0] X hs)⟩, ⟨Sh n0 1024 1024, X⟩] hc (fun a r c => at3 X a (if r < p then p - r else r - p) c) ?_ a r c ha hr hcc
  intro k hk hrk
  match k, hk, hrk with
  | 0, _, _ =>
    intro (i : (Sh n0 p 1024).Idx)
    have hb : (i 1).val < p := (i 1).isLt
    refine (at3_idx (Host.reverse (s := Sh n0 p 1024) [1] (extractStridedSlice (Sh n0 p 1024) ![0, 1, 0] X hs)) i).trans ?_
    refine (at3_reverse1 _ (i 0).val (i 1).val (i 2).val (i 0).isLt hb (i 2).isLt).trans ?_
    refine (at3_slice' 0 1 0 X hs (i 0).val (p - 1 - (i 1).val) (i 2).val (i 0).isLt (by omega) (i 2).isLt).trans ?_
    refine at3_congr _ rfl ?_ rfl
    show (p - 1 - (i 1).val) + 1 = if (0 + (i 1).val) < p then p - (0 + (i 1).val) else (0 + (i 1).val) - p
    split_ifs <;> omega
  | 1, _, _ =>
    intro (i : (Sh n0 1024 1024).Idx)
    refine (at3_idx X i).trans ?_
    have hpe : preExt (Sh n0 Lp 1024) 1 [⟨Sh n0 p 1024, Host.reverse (s := Sh n0 p 1024) [1] (extractStridedSlice (Sh n0 p 1024) ![0, 1, 0] X hs)⟩, ⟨Sh n0 1024 1024, X⟩] 1 = p := by simp [preExt, Shape.size]
    refine at3_congr _ rfl ?_ rfl
    show (i 1).val = if (preExt (Sh n0 Lp 1024) 1 [⟨Sh n0 p 1024, Host.reverse (s := Sh n0 p 1024) [1] (extractStridedSlice (Sh n0 p 1024) ![0, 1, 0] X hs)⟩, ⟨Sh n0 1024 1024, X⟩] 1 + (i 1).val) < p then p - (preExt (Sh n0 Lp 1024) 1 [⟨Sh n0 p 1024, Host.reverse (s := Sh n0 p 1024) [1] (extractStridedSlice (Sh n0 p 1024) ![0, 1, 0] X hs)⟩, ⟨Sh n0 1024 1024, X⟩] 1 + (i 1).val) else (preExt (Sh n0 Lp 1024) 1 [⟨Sh n0 p 1024, Host.reverse (s := Sh n0 p 1024) [1] (extractStridedSlice (Sh n0 p 1024) ![0, 1, 0] X hs)⟩, ⟨Sh n0 1024 1024, X⟩] 1 + (i 1).val) - p
    rw [hpe]; split_ifs <;> omega
  | k + 2, hk, _ => exact absurd hk (by simp)

/-- The host's second step along axis 1, over ANY front-padded array `Fr` that reads as above: the last p
    rows before the far border mirrored behind it.  The result is the image at the reflected coordinate. -/
theorem rpadH_back {n0 p Lp Lq : Nat} (hLp : Lp = 1024 + p) (hLq : Lq = 1024 + 2 * p) (hp0 : 0 < p) (hp : p < 1023)
    (X : (Sh n0 1024 1024).Idx → EReal) (Fr : (Sh n0 Lp 1024).Idx → EReal)
    (hFr : ∀ a r c, a < n0 → r < Lp → c < 1024 → at3 Fr a r c = at3 X a (if r < p then p - r else r - p) c)
    (hs' : (Sh n0 Lp 1024).Slices ![0, 1023, 0] (Sh n0 p 1024))
    (hc' : Shape.Concatenates [Sh n0 Lp 1024, Sh n0 p 1024] (Sh n0 Lq 1024) 1)
    (a r c : Nat) (ha : a < n0) (hr : r < Lq) (hcc : c < 1024) :
    at3 (concatenate (Sh n0 Lq 1024) 1 [⟨Sh n0 Lp 1024, Fr⟩, ⟨Sh n0 p 1024, Host.reverse (s := Sh n0 p 1024) [1] (extractStridedSlice (Sh n0 p 1024) ![0, 1023, 0] Fr hs')⟩] hc') a r c = at3 X a (mirror p 1024 r) c := by
  refine concat_at3_axis1 [⟨Sh n0 Lp 1024, Fr⟩, ⟨Sh n0 p 1024, Host.reverse (s := Sh n0 p 1024) [1] (extractStridedSlice (Sh n0 p 1024) ![0, 1023, 0] Fr hs')⟩] hc' (fun a r c => at3 X a (mirror p 1024 r) c) ?_ a r c ha hr hcc
  intro k hk hrk
  match k, hk, hrk with
  | 0, _, _ =>
    intro (i : (Sh n0 Lp 1024).Idx)
    have hb : (i 1).val < Lp := (i 1).isLt
    refine (at3_idx Fr i).trans ?_
    refine (hFr _ _ _ (i 0).isLt (i 1).isLt (i 2).isLt).trans ?_
    refine at3_congr _ rfl ?_ rfl
    show (if (i 1).val < p then p - (i 1).val else (i 1).val - p) = mirror p 1024 (0 + (i 1).val)
    unfold mirror; split_ifs <;> omega
  | 1, _, _ =>
    intro (i : (Sh n0 p 1024).Idx)
    have hb : (i 1).val < p := (i 1).isLt
    refine (at3_idx (Host.reverse (s := Sh n0 p 1024) [1] (extractStridedSlice (Sh n0 p 1024) ![0, 1023, 0] Fr hs')) i).trans ?_
    refine (at3_reverse1 _ (i 0).val (i 1).val (i 2).val (i 0).isLt hb (i 2).isLt).trans ?_
    refine (at3_slice' 0 1023 0 Fr hs' (i 0).val (p - 1 - (i 1).val) (i 2).val (i 0).isLt (by omega) (i 2).isLt).trans ?_
    refine (hFr _ _ _ (i 0).isLt (by omega) (i 2).isLt).trans ?_
    have hpe : preExt (Sh n0 Lq 1024) 1 [⟨Sh n0 Lp 1024, Fr⟩, ⟨Sh n0 p 1024, Host.reverse (s := Sh n0 p 1024) [1] (extractStridedSlice (Sh n0 p 1024) ![0, 1023, 0] Fr hs')⟩] 1 = Lp := by simp [preExt, Shape.size]
    refine at3_congr _ rfl ?_ rfl
    show (if (p - 1 - (i 1).val) + 1023 < p then p - ((p - 1 - (i 1).val) + 1023) else (p - 1 - (i 1).val) + 1023 - p)
      = mirror p 1024 (preExt (Sh n0 Lq 1024) 1 [⟨Sh n0 Lp 1024, Fr⟩, ⟨Sh n0 p 1024, Host.reverse (s := Sh n0 p 1024) [1] (extractStridedSlice (Sh n0 p 1024) ![0, 1023, 0] Fr hs')⟩] 1 + (i 1).val)
    rw [hpe]; unfold mirror; split_ifs <;> omega
  | k + 2, hk, _ => exact absurd hk (by simp)

/-- The host's first step along axis 2: the columns 1 … p mirrored in front of the image. -/
theorem rpadW_front {n0 p Lp : Nat} (hLp : Lp = 1024 + p) (hp : p < 1024) (X : (Sh n0 1024 1024).Idx → EReal)
    (hs : (Sh n0 1024 1024).Slices ![0, 0, 1] (Sh n0 1024 p))
    (hc : Shape.Concatenates [Sh n0 1024 p, Sh n0 1024 1024] (Sh n0 1024 Lp) 2)
    (a r c : Nat) (ha : a < n0) (hr : r < 1024) (hcc : c < Lp) :
    at3 (concatenate (Sh n0 1024 Lp) 2 [⟨Sh n0 1024 p, Host.reverse (s := Sh n0 1024 p) [2] (extractStridedSlice (Sh n0 1024 p) ![0, 0, 1] X hs)⟩, ⟨Sh n0 1024 1024, X⟩] hc) a r c = at3 X a r (if c < p then p - c else c - p) := by
  refine concat_at3_axis2 [⟨Sh n0 1024 p, Host.reverse (s := Sh n0 1024 p) [2] (extractStridedSlice (Sh n0 1024 p) ![0, 0, 1] X hs)⟩, ⟨Sh n0 1024 1024, X⟩] hc (fun a r c => at3 X a r (if c < p then p - c else c - p)) ?_ a r c ha hr hcc
  intro k hk hrk
  match k, hk, hrk with
  | 0, _, _ =>
    intro (i : (Sh n0 1024 p).Idx)
    have hb : (i 2).val < p := (i 2).isLt
    refine (at3_idx (Host.reverse (s := Sh n0 1024 p) [2] (extractStridedSlice (Sh n0 1024 p) ![0, 0, 1] X hs)) i).trans ?_
    refine (at3_reverse2 _ (i 0).val (i 1).val (i 2).val (i 0).isLt (i 1).isLt hb).trans ?_
    refine (at3_slice' 0 0 1 X hs (i 0).val (i 1).val (p - 1 - (i 2).val) (i 0).isLt (i 1).isLt (by omega)).trans ?_
    refine at3_congr _ rfl rfl ?_
    show (p - 1 - (i 2).val) + 1 = if (0 + (i 2).val) < p then p - (0 + (i 2).val) else (0 + (i 2).val) - p
    split_ifs <;> omega
  | 1, _, _ =>
    intro (i : (Sh n0 1024 1024).Idx)
    refine (at3_idx X i).trans ?_
    have hpe : preExt (Sh n0 1024 Lp) 2 [⟨Sh n0 1024 p, Host.reverse (s := Sh n0 1024 p) [2] (extractStridedSlice (Sh n0 1024 p) ![0, 0, 1] X hs)⟩, ⟨Sh n0 1024 1024, X⟩] 1 = p := by simp [preExt, Shape.size]
    refine at3_congr _ rfl rfl ?_
    show (i 2).val = if (preExt (Sh n0 1024 Lp) 2 [⟨Sh n0 1024 p, Host.reverse (s := Sh n0 1024 p) [2] (extractStridedSlice (Sh n0 1024 p) ![0, 0, 1] X hs)⟩, ⟨Sh n0 1024 1024, X⟩] 1 + (i 2).val) < p then p - (preExt (Sh n0 1024 Lp) 2 [⟨Sh n0 1024 p, Host.reverse (s := Sh n0 1024 p) [2] (extractStridedSlice (Sh n0 1024 p) ![0, 0, 1] X hs)⟩, ⟨Sh n0 1024 1024, X⟩] 1 + (i 2).val) else (preExt (Sh n0 1024 Lp) 2 [⟨Sh n0 1024 p, Host.reverse (s := Sh n0 1024 p) [2] (extractStridedSlice (Sh n0 1024 p) ![0, 0, 1] X hs)⟩, ⟨Sh n0 1024 1024, X⟩] 1 + (i 2).val) - p
    rw [hpe]; split_ifs <;> omega
  | k + 2, hk, _ => exact absurd hk (by simp)

/-- The host's second step along axis 2, over ANY front-padded array `Fr` that reads as above: the last p
    columns before the far border mirrored behind it.  The result is the image at the reflected coordinate. -/
theorem rpadW_back {n0 p Lp Lq : Nat} (hLp : Lp = 1024 + p) (hLq : Lq = 1024 + 2 * p) (hp0 : 0 < p) (hp : p < 1023)
    (X : (Sh n0 1024 1024).Idx → EReal) (Fr : (Sh n0 1024 Lp).Idx → EReal)
    (hFr : ∀ a r c, a < n0 → r < 1024 → c < Lp → at3 Fr a r c = at3 X a r (if c < p then p - c else c - p))
    (hs' : (Sh n0 1024 Lp).Slices ![0, 0, 1023] (Sh n0 1024 p))
    (hc' : Shape.Concatenates [Sh n0 1024 Lp, Sh n0 1024 p] (Sh n0 1024 Lq) 2)
    (a r c : Nat) (ha : a < n0) (hr : r < 1024) (hcc : c < Lq) :
    at3 (concatenate (Sh n0 1024 Lq) 2 [⟨Sh n0 1024 Lp, Fr⟩, ⟨Sh n0 1024 p, Host.reverse (s := Sh n0 1024 p) [2] (extractStridedSlice (Sh n0 1024 p) ![0, 0, 1023] Fr hs')⟩] hc') a r c = at3 X a r (mirror p 1024 c) := by
  refine concat_at3_axis2 [⟨Sh n0 1024 Lp, Fr⟩, ⟨Sh n0 1024 p, Host.reverse (s := Sh n0 1024 p) [2] (extractStridedSlice (Sh n0 1024 p) ![0, 0, 1023] Fr hs')⟩] hc' (fun a r c => at3 X a r (mirror p 1024 c)) ?_ a r c ha hr hcc
  intro k hk hrk
  match k, hk, hrk with
  | 0, _, _ =>
    intro (i : (Sh n0 1024 Lp).Idx)
    have hb : (i 2).val < Lp := (i 2).isLt
    refine (at3_idx Fr i).trans ?_
    refine (hFr _ _ _ (i 0).isLt (i 1).isLt (i 2).isLt).trans ?_
    refine at3_congr _ rfl rfl ?_
    show (if (i 2).val < p then p - (i 2).val else (i 2).val - p) = mirror p 1024 (0 + (i 2).val)
    unfold mirror; split_ifs <;> omega
  | 1, _, _ =>
    intro (i : (Sh n0 1024 p).Idx)
    have hb : (i 2).val < p := (i 2).isLt
    refine (at3_idx (Host.reverse (s := Sh n0 1024 p) [2] (extractStridedSlice (Sh n0 1024 p) ![0, 0, 1023] Fr hs')) i).trans ?_
    refine (at3_reverse2 _ (i 0).val (i 1).val (i 2).val (i 0).isLt (i 1).isLt hb).trans ?_
    refine (at3_slice' 0 0 1023 Fr hs' (i 0).val (i 1).val (p - 1 - (i 2).val) (i 0).isLt (i 1).isLt (by omega)).trans ?_
    refine (hFr _ _ _ (i 0).isLt (i 1).isLt (by omega)).trans ?_
    have hpe : preExt (Sh n0 1024 Lq) 2 [⟨Sh n0 1024 Lp, Fr⟩, ⟨Sh n0 1024 p, Host.reverse (s := Sh n0 1024 p) [2] (extractStridedSlice (Sh n0 1024 p) ![0, 0, 1023] Fr hs')⟩] 1 = Lp := by simp [preExt, Shape.size]
    refine at3_congr _ rfl rfl ?_
    show (if (p - 1 - (i 2).val) + 1023 < p then p - ((p - 1 - (i 2).val) + 1023) else (p - 1 - (i 2).val) + 1023 - p)
      = mirror p 1024 (preExt (Sh n0 1024 Lq) 2 [⟨Sh n0 1024 Lp, Fr⟩, ⟨Sh n0 1024 p, Host.reverse (s := Sh n0 1024 p) [2] (extractStridedSlice (Sh n0 1024 p) ![0, 0, 1023] Fr hs')⟩] 1 + (i 2).val)
    rw [hpe]; unfold mirror; split_ifs <;> omega
  | k + 2, hk, _ => exact absurd hk (by simp)

end Cert.Pads

end
-- ==== Proof.RefMath.lean ====
/-
  The reference program's stages as mathematics. Read at natural coordinates inside its box, each stage's padded
  array is its input at the coordinate reflected about the border; each stage is the five-tap smoothing along the
  rows or the columns at its spacing; two stages are one level of the transform; and the four arrays the program
  stacks are the three detail planes and the coarse remainder of the three-level transform of the argument.
-/
import proofs.«167050_j34797825032658_1_alg».proof.Proof.RefStages
import proofs.«167050_j34797825032658_1_alg».proof.Proof.RefPads
import proofs.«167050_j34797825032658_1_alg».proof.Proof.LibReads
import proofs.«167050_j34797825032658_1_alg».proof.Proof.Planes

noncomputable section

namespace Cert.ReferenceIdeal.RefMath

open Cert.ReferenceIdeal Cert.ReferenceIdeal.Gen Cert.ReferenceIdeal.RefRun Idealize.ShloMosaic Idealize.ShloMosaic.ValueIdx
  Cert.Grid3 Cert.Wavelet Cert.Pads

/-! ## The padded arrays and the stages, read inside the box -/

/-- Stage 0's padded array read inside its box: the input at the row reflected about the border, pad width 2. -/
theorem pad0_at3 (x : FVec Ideal S16x1024x1024 .f32) (a r c : Nat) (ha : a < 16) (hr : r < 1028) (hc : c < 1024) :
    at3 (α := EReal) (pad0 x) a r c = at3 (α := EReal) x a (mirror 2 1024 r) c := by
  unfold pad0
  exact rpadH_back (n0 := 16) (p := 2) (Lp := 1026) (Lq := 1028) rfl rfl (by omega) (by omega) x (padFront0 x)
    (fun a r c ha hr hc => by
      unfold padFront0
      exact rpadH_front (n0 := 16) (p := 2) (Lp := 1026) rfl (by omega) x _ _ a r c ha hr hc)
    _ _ a r c ha hr hc

/-- Stage 0 is the smoothing along the rows at spacing 1. -/
theorem stage0_at3 (x : FVec Ideal S16x1024x1024 .f32) (a r c : Nat) (ha : a < 16) (hr : r < 1024) (hc : c < 1024) :
    at3 (α := EReal) (stage0 x) a r c = smoothH 1 (at3 (α := EReal) x) a r c := by
  unfold stage0 taps0
  simp (disch := omega) only [at3_addf, at3_mulf, at3_slice', pad0_at3]
  rw [at3_hsplat _ _ a r c ha hr hc, at3_hsplat _ _ a r c ha hr hc, at3_hsplat _ _ a r c ha hr hc]
  rfl

/-- Stage 1's padded array read inside its box: the input at the column reflected about the border, pad width 2. -/
theorem pad1_at3 (x : FVec Ideal S16x1024x1024 .f32) (a r c : Nat) (ha : a < 16) (hr : r < 1024) (hc : c < 1028) :
    at3 (α := EReal) (pad1 x) a r c = at3 (α := EReal) x a r (mirror 2 1024 c) := by
  unfold pad1
  exact rpadW_back (n0 := 16) (p := 2) (Lp := 1026) (Lq := 1028) rfl rfl (by omega) (by omega) x (padFront1 x)
    (fun a r c ha hr hc => by
      unfold padFront1
      exact rpadW_front (n0 := 16) (p := 2) (Lp := 1026) rfl (by omega) x _ _ a r c ha hr hc)
    _ _ a r c ha hr hc

/-- Stage 1 is the smoothing along the columns at spacing 1. -/
theorem stage1_at3 (x : FVec Ideal S16x1024x1024 .f32) (a r c : Nat) (ha : a < 16) (hr : r < 1024) (hc : c < 1024) :
    at3 (α := EReal) (stage1 x) a r c = smoothW 1 (at3 (α := EReal) x) a r c := by
  unfold stage1 taps1
  simp (disch := omega) only [at3_addf, at3_mulf, at3_slice', pad1_at3]
  rw [at3_hsplat _ _ a r c ha hr hc, at3_hsplat _ _ a r c ha hr hc, at3_hsplat _ _ a r c ha hr hc]
  rfl

/-- Stage 2's padded array read inside its box: the input at the row reflected about the border, pad width 4. -/
theorem pad2_at3 (x : FVec Ideal S16x1024x1024 .f32) (a r c : Nat) (ha : a < 16) (hr : r < 1032) (hc : c < 1024) :
    at3 (α := EReal) (pad2 x) a r c = at3 (α := EReal) x a (mirror 4 1024 r) c := by
  unfold pad2
  exact rpadH_back (n0 := 16) (p := 4) (Lp := 1028) (Lq := 1032) rfl rfl (by omega) (by omega) x (padFront2 x)
    (fun a r c ha hr hc => by
      unfold padFront2
      exact rpadH_front (n0 := 16) (p := 4) (Lp := 1028) rfl (by omega) x _ _ a r c ha hr hc)
    _ _ a r c ha hr hc

/-- Stage 2 is the smoothing along the rows at spacing 2. -/
theorem stage2_at3 (x : FVec Ideal S16x1024x1024 .f32) (a r c : Nat) (ha : a < 16) (hr : r < 1024) (hc : c < 1024) :
    at3 (α := EReal) (stage2 x) a r c = smoothH 2 (at3 (α := EReal) x) a r c := by
  unfold stage2 taps2
  simp (disch := omega) only [at3_addf, at3_mulf, at3_slice', pad2_at3]
  rw [at3_hsplat _ _ a r c ha hr hc, at3_hsplat _ _ a r c ha hr hc, at3_hsplat _ _ a r c ha hr hc]
  rfl

/-- Stage 3's padded array read inside its box: the input at the column reflected about the border, pad width 4. -/
theorem pad3_at3 (x : FVec Ideal S16x1024x1024 .f32) (a r c : Nat) (ha : a < 16) (hr : r < 1024) (hc : c < 1032) :
    at3 (α := EReal) (pad3 x) a r c = at3 (α := EReal) x a r (mirror 4 1024 c) := by
  unfold pad3
  exact rpadW_back (n0 := 16) (p := 4) (Lp := 1028) (Lq := 1032) rfl rfl (by omega) (by omega) x (padFront3 x)
    (fun a r c ha hr hc => by
      unfold padFront3
      exact rpadW_front (n0 := 16) (p := 4) (Lp := 1028) rfl (by omega) x _ _ a r c ha hr hc)
    _ _ a r c ha hr hc

/-- Stage 3 is the smoothing along the columns at spacing 2. -/
theorem stage3_at3 (x : FVec Ideal S16x1024x1024 .f32) (a r c : Nat) (ha : a < 16) (hr : r < 1024) (hc : c < 1024) :
    at3 (α := EReal) (stage3 x) a r c = smoothW 2 (at3 (α := EReal) x) a r c := by
  unfold stage3 taps3
  simp (disch := omega) only [at3_addf, at3_mulf, at3_slice', pad3_at3]
  rw [at3_hsplat _ _ a r c ha hr hc, at3_hsplat _ _ a r c ha hr hc, at3_hsplat _ _ a r c ha hr hc]
  rfl

/-- Stage 4's padded array read inside its box: the input at the row reflected about the border, pad width 8. -/
theorem pad4_at3 (x : FVec Ideal S16x1024x1024 .f32) (a r c : Nat) (ha : a < 16) (hr : r < 1040) (hc : c < 1024) :
    at3 (α := EReal) (pad4 x) a r c = at3 (α := EReal) x a (mirror 8 1024 r) c := by
  unfold pad4
  exact rpadH_back (n0 := 16) (p := 8) (Lp := 1032) (Lq := 1040) rfl rfl (by omega) (by omega) x (padFront4 x)
    (fun a r c ha hr hc => by
      unfold padFront4
      exact rpadH_front (n0 := 16) (p := 8) (Lp := 1032) rfl (by omega) x _ _ a r c ha hr hc)
    _ _ a r c ha hr hc

/-- Stage 4 is the smoothing along the rows at spacing 4. -/
theorem stage4_at3 (x : FVec Ideal S16x1024x1024 .f32) (a r c : Nat) (ha : a < 16) (hr : r < 1024) (hc : c < 1024) :
    at3 (α := EReal) (stage4 x) a r c = smoothH 4 (at3 (α := EReal) x) a r c := by
  unfold stage4 taps4
  simp (disch := omega) only [at3_addf, at3_mulf, at3_slice', pad4_at3]
  rw [at3_hsplat _ _ a r c ha hr hc, at3_hsplat _ _ a r c ha hr hc, at3_hsplat _ _ a r c ha hr hc]
  rfl

/-- Stage 5's padded array read inside its box: the input at the column reflected about the border, pad width 8. -/
theorem pad5_at3 (x : FVec Ideal S16x1024x1024 .f32) (a r c : Nat) (ha : a < 16) (hr : r < 1024) (hc : c < 1040) :
    at3 (α := EReal) (pad5 x) a r c = at3 (α := EReal) x a r (mirror 8 1024 c) := by
  unfold pad5
  exact rpadW_back (n0 := 16) (p := 8) (Lp := 1032) (Lq := 1040) rfl rfl (by omega) (by omega) x (padFront5 x)
    (fun a r c ha hr hc => by
      unfold padFront5
      exact rpadW_front (n0 := 16) (p := 8) (Lp := 1032) rfl (by omega) x _ _ a r c ha hr hc)
    _ _ a r c ha hr hc

/-- Stage 5 is the smoothing along the columns at spacing 4. -/
theorem stage5_at3 (x : FVec Ideal S16x1024x1024 .f32) (a r c : Nat) (ha : a < 16) (hr : r < 1024) (hc : c < 1024) :
    at3 (α := EReal) (stage5 x) a r c = smoothW 4 (at3 (α := EReal) x) a r c := by
  unfold stage5 taps5
  simp (disch := omega) only [at3_addf, at3_mulf, at3_slice', pad5_at3]
  rw [at3_hsplat _ _ a r c ha hr hc, at3_hsplat _ _ a r c ha hr hc, at3_hsplat _ _ a r c ha hr hc]
  rfl

/-! ## Two stages are one level -/

/-- A row stage and then a column stage at one spacing, applied to an array that reads as `f` inside the box, read
    as one level of `f`. -/
theorem level_at3 (d : Nat) (hd : 2 * d < 1024) (sH sW : FVec Ideal S16x1024x1024 .f32 → FVec Ideal S16x1024x1024 .f32)
    (hH : ∀ (x : FVec Ideal S16x1024x1024 .f32) (a r c : Nat), a < 16 → r < 1024 → c < 1024 →
      at3 (α := EReal) (sH x) a r c = smoothH d (at3 (α := EReal) x) a r c)
    (hW : ∀ (x : FVec Ideal S16x1024x1024 .f32) (a r c : Nat), a < 16 → r < 1024 → c < 1024 →
      at3 (α := EReal) (sW x) a r c = smoothW d (at3 (α := EReal) x) a r c)
    (Z : FVec Ideal S16x1024x1024 .f32) (f : N3)
    (hZ : ∀ a r c : Nat, a < 16 → r < 1024 → c < 1024 → at3 (α := EReal) Z a r c = f a r c)
    (a r c : Nat) (ha : a < 16) (hr : r < 1024) (hc : c < 1024) :
    at3 (α := EReal) (sW (sH Z)) a r c = level d f a r c := by
  rw [hW (sH Z) a r c ha hr hc]
  unfold level
  refine smoothW_congr d hd _ _ a a r c hc fun j hj => ?_
  rw [hH Z a r j ha hr hj]
  exact smoothH_congr d hd _ _ a a r j hr fun i hi => hZ a i j ha hi hj

/-- After two stages: the first smoothing. -/
theorem Y1_at3 (X : FVec Ideal S16x1024x1024 .f32) (a r c : Nat) (ha : a < 16) (hr : r < 1024) (hc : c < 1024) :
    at3 (α := EReal) (stage1 (stage0 X)) a r c = y1 (at3 (α := EReal) X) a r c :=
  level_at3 1 (by omega) stage0 stage1 stage0_at3 stage1_at3 X _ (fun _ _ _ _ _ _ => rfl) a r c ha hr hc

/-- After four stages: the second smoothing. -/
theorem Y2_at3 (X : FVec Ideal S16x1024x1024 .f32) (a r c : Nat) (ha : a < 16) (hr : r < 1024) (hc : c < 1024) :
    at3 (α := EReal) (stage3 (stage2 (stage1 (stage0 X)))) a r c = y2 (at3 (α := EReal) X) a r c :=
  level_at3 2 (by omega) stage2 stage3 stage2_at3 stage3_at3 (stage1 (stage0 X)) _ (Y1_at3 X) a r c ha hr hc

/-- After six stages: the third smoothing. -/
theorem Y3_at3 (X : FVec Ideal S16x1024x1024 .f32) (a r c : Nat) (ha : a < 16) (hr : r < 1024) (hc : c < 1024) :
    at3 (α := EReal) (stage5 (stage4 (stage3 (stage2 (stage1 (stage0 X)))))) a r c = y3 (at3 (α := EReal) X) a r c :=
  level_at3 4 (by omega) stage4 stage5 stage4_at3 stage5_at3 (stage3 (stage2 (stage1 (stage0 X)))) _ (Y2_at3 X) a r c ha hr hc

/-! ## The four planes, as arrays -/

/-- An array given by a function of the coordinates reads as that function inside the box. -/
theorem at3_mk (g : N3) (a r c : Nat) (ha : a < 16) (hr : r < 1024) (hc : c < 1024) :
    at3 (α := EReal) (fun i : (Sh 16 1024 1024).Idx => g (i 0).val (i 1).val (i 2).val) a r c = g a r c :=
  at3_eq _ (ix3 ⟨a, ha⟩ ⟨r, hr⟩ ⟨c, hc⟩) a r c rfl rfl rfl

theorem ref_plane1 (X : FVec Ideal S16x1024x1024 .f32) : subf X (stage1 (stage0 X)) = G1 X := by
  refine ext_at3 _ _ fun a r c ha hr hc => ?_
  rw [at3_subf _ _ a r c ha hr hc, Y1_at3 X a r c ha hr hc]
  exact (at3_mk (plane1 (at3 (α := EReal) X)) a r c ha hr hc).symm

theorem ref_plane2 (X : FVec Ideal S16x1024x1024 .f32) :
    subf (stage1 (stage0 X)) (stage3 (stage2 (stage1 (stage0 X)))) = G2 X := by
  refine ext_at3 _ _ fun a r c ha hr hc => ?_
  rw [at3_subf _ _ a r c ha hr hc, Y1_at3 X a r c ha hr hc, Y2_at3 X a r c ha hr hc]
  exact (at3_mk (plane2 (at3 (α := EReal) X)) a r c ha hr hc).symm

theorem ref_plane3 (X : FVec Ideal S16x1024x1024 .f32) :
    subf (stage3 (stage2 (stage1 (stage0 X)))) (stage5 (stage4 (stage3 (stage2 (stage1 (stage0 X)))))) = G3 X := by
  refine ext_at3 _ _ fun a r c ha hr hc => ?_
  rw [at3_subf _ _ a r c ha hr hc, Y2_at3 X a r c ha hr hc, Y3_at3 X a r c ha hr hc]
  exact (at3_mk (plane3 (at3 (α := EReal) X)) a r c ha hr hc).symm

theorem ref_plane4 (X : FVec Ideal S16x1024x1024 .f32) :
    stage5 (stage4 (stage3 (stage2 (stage1 (stage0 X))))) = G4 X := by
  refine ext_at3 _ _ fun a r c ha hr hc => ?_
  rw [Y3_at3 X a r c ha hr hc]
  exact (at3_mk (plane4 (at3 (α := EReal) X)) a r c ha hr hc).symm

end Cert.ReferenceIdeal.RefMath

end
-- ==== Proof.Bridge.lean ====
/- The two programs meet. The kernel's run ends with its result array at a stack of four functions of the argument,
   the reference's run with its result array at a stack of four compositions of its stage functions; each of the
   eight is a plane of the wavelet transform of the argument, and the two stackings are the same function. -/
import proofs.«167050_j34797825032658_1_alg».proof.Defs
import proofs.«167050_j34797825032658_1_alg».proof.Proof.Gen.Pre_finite_inputs
import proofs.«167050_j34797825032658_1_alg».proof.Proof.KernelValue
import proofs.«167050_j34797825032658_1_alg».proof.Proof.RefValue
import proofs.«167050_j34797825032658_1_alg».proof.Proof.Planes
import proofs.«167050_j34797825032658_1_alg».proof.Proof.KernelMath
import proofs.«167050_j34797825032658_1_alg».proof.Proof.RefMath

noncomputable section

namespace Cert.Proof.Bridge

open Idealize.ShloMosaic Idealize.SL.Sem
open Cert.KernelIdeal.HandValue (argOf)

/-- The five host operations that end the kernel's program and the five that end the reference's are the same
    function of four arrays: the same broadcasts and the same concatenation over the same shapes. -/
theorem result_same (a b c d : Cert.KernelIdeal.S16x1024x1024.Idx → EReal) :
    Cert.KernelIdeal.HandValue.resultOf a b c d = Cert.ReferenceIdeal.RefRun.resultOf (F := Ideal) a b c d := rfl

/-- Both programs, run at the ideal instance from memories that agree on the argument, end with the same result —
    the four planes of the transform of the argument, stacked — and with the argument as launched. -/
theorem algebraic : Cert.algebraic_KernelIdeal_ReferenceIdeal := by
  intro m ρ m' ρ' _ hagree
  refine ⟨fun c => Cert.KernelIdeal.HandValue.resultOf (Cert.Wavelet.G1 (argOf m c)) (Cert.Wavelet.G2 (argOf m c))
      (Cert.Wavelet.G3 (argOf m c)) (Cert.Wavelet.G4 (argOf m c)),
    Cert.KernelIdeal.HandValue.run_value m ρ Cert.Wavelet.G1 Cert.Wavelet.G2 Cert.Wavelet.G3 Cert.Wavelet.G4
      Cert.KernelIdeal.Math.hG1 Cert.KernelIdeal.Math.hG2 Cert.KernelIdeal.Math.hG3 Cert.KernelIdeal.Math.hG4, ?_⟩
  refine (θ_run Cert.ReferenceIdeal.defs _ _).mono (fun r h c => ?_) (Cert.ReferenceIdeal.RefRun.run_value (F := Ideal) m' ρ')
  obtain ⟨hv, ha⟩ := h c
  refine ⟨hv.trans ?_, ha⟩
  rw [hagree c, Cert.ReferenceIdeal.RefMath.ref_plane1, Cert.ReferenceIdeal.RefMath.ref_plane2,
    Cert.ReferenceIdeal.RefMath.ref_plane3, Cert.ReferenceIdeal.RefMath.ref_plane4]
  exact (result_same _ _ _ _).symm

end Cert.Proof.Bridge

end
-- ==== Proof.lean ====
/- The proof of `Cert.Claim`.

   The Pallas kernel computes, image by image, the three-level à-trous B3-spline wavelet transform of sixteen
   1024 × 1024 images — three detail planes and the coarse remainder, stacked — and the reference computes the same
   with array operations. Over the extended reals (the ideal instance: exact arithmetic) the two results are equal:
   each is the stack of the four planes of the transform of the argument (`Cert.Wavelet`). Each program runs to
   termination leaving its argument array as launched: the kernel's two instances by the launch theorem for a
   pipelined call followed by host operations, the reference's by its run. The ideal pass rewrote no operation of the
   kernel, so the idealization preserves it trivially. -/
import proofs.«167050_j34797825032658_1_alg».proof.Defs
import proofs.«167050_j34797825032658_1_alg».proof.Proof.Gen.Kernel
import proofs.«167050_j34797825032658_1_alg».proof.Proof.Gen.KernelIdeal
import proofs.«167050_j34797825032658_1_alg».proof.Proof.Gen.ReferenceIdeal
import proofs.«167050_j34797825032658_1_alg».proof.Proof.Gen.Pre_finite_inputs
import proofs.«167050_j34797825032658_1_alg».proof.Proof.KernelFrame
import proofs.«167050_j34797825032658_1_alg».proof.Proof.KernelIdealFrame
import proofs.«167050_j34797825032658_1_alg».proof.Proof.RefValue
import proofs.«167050_j34797825032658_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => (θ_run Cert.ReferenceIdeal.defs _ _).mono (fun _ h c => (h c).2)
      (Cert.ReferenceIdeal.RefRun.run_value (F := Ideal) m ρ),
    trivial,
    Cert.Proof.Bridge.algebraic⟩

end Cert.Proof

end
